-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x512x16 : Shape := ⟨3, ![8192, 512, 16]⟩
abbrev S512 : Shape := ⟨1, ![512]⟩
abbrev S512x512 : Shape := ⟨2, ![512, 512]⟩
abbrev S512x1x3 : Shape := ⟨3, ![512, 1, 3]⟩
abbrev S512x16 : Shape := ⟨2, ![512, 16]⟩
abbrev S16x512 : Shape := ⟨2, ![16, 512]⟩
abbrev S16 : Shape := ⟨1, ![16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x512x16 : S_.BroadcastsInDim S8192x512x16 (![] : Fin 0 → Fin S8192x512x16.rank)
  reducesTo_S8192x512x16_S_d0_1_2 : S8192x512x16.ReducesTo [0, 1, 2] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1x3 : S_.BroadcastsInDim S512x1x3 (![] : Fin 0 → Fin S512x1x3.rank)
  reducesTo_S512x1x3_S_d0_1_2 : S512x1x3.ReducesTo [0, 1, 2] S_
  bcast_S_S512x16 : S_.BroadcastsInDim S512x16 (![] : Fin 0 → Fin S512x16.rank)
  reducesTo_S512x16_S_d0_1 : S512x16.ReducesTo [0, 1] S_
  bcast_S_S16x512 : S_.BroadcastsInDim S16x512 (![] : Fin 0 → Fin S16x512.rank)
  reducesTo_S16x512_S_d0_1 : S16x512.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg14 : FVec F S16x512 .f32) (main_arg15 : FVec F S16 .f32) (main_arg16 : FVec F S512x512 .f32) (main_arg17 : FVec F S512 .f32) (main_v63 : IVec S_ 1) (main_v67 : IVec S_ 1) : IVec S_ 1 :=
  let main_v68 : IVec S_ 1 := andi main_v63 main_v67
  let main_v69 : FVec F S16x512 .f32 := Host.absf main_arg14
  let main_cst_26 : FVec F S_ .f32 := constant S_ .f32 0x7F800000#32
  let main_v70 : FVec F S16x512 .f32 := broadcastInDim S16x512 ![] bcast_S_S16x512 main_cst_26
  let main_v71 : IVec S16x512 1 := cmpf .olt main_v69 main_v70
  let main_c_27 : IVec S_ 1 := constantI S_ 1 1#1
  let main_v72 : IVec S_ 1 := (fun x v => Host.reduce IntOp.andi x v reducesTo_S16x512_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512x16 .f32) (main_arg12 : FVec F S16x512 .f32) (main_arg13 : FVec F S16 .f32) (main_arg14 : FVec F S16x512 .f32) (main_arg15 : FVec F S16 .f32) (main_arg16 : FVec F S512x512 .f32) (main_arg17 : FVec F S512 .f32) (main_v48 : IVec S_ 1) (main_v49 : FVec F S512x1x3 .f32) (main_v50 : FVec F S512x1x3 .f32) : IVec S_ 1 :=
  let main_v51 : IVec S512x1x3 1 := cmpf .olt main_v49 main_v50
  let main_c_19 : IVec S_ 1 := constantI S_ 1 1#1
  let main_v52 : IVec S_ 1 := (fun x v => Host.reduce IntOp.andi x v reducesTo_S512x1x3_S_d0_1_2 h_S_) main_v51 main_c_19
  let main_v53 : IVec S_ 1 := andi main_v48 main_v52
  let main_v54 : FVec F S512x16 .f32 := Host.absf main_arg11
  let main_cst_20 : FVec F S_ .f32 := constant S_ .f32 0x7F800000#32
  let main_v55 : FVec F S512x16 .f32 := broadcastInDim S512x16 ![] bcast_S_S512x16 main_cst_20
  let main_v56 : IVec S512x16 1 := cmpf .olt main_v54 main_v55
  let main_c_21 : IVec S_ 1 := constantI S_ 1 1#1
  let main_v57 : IVec S_ 1 := (fun x v => Host.reduce IntOp.andi x v reducesTo_S512x16_S_d0_1 h_S_) main_v56 main_c_21
  let main_v58 : IVec S_ 1 := andi main_v53 main_v57
  let main_v59 : FVec F S16x512 .f32 := Host.absf main_arg12
  let main_cst_22 : FVec F S_ .f32 := constant S_ .f32 0x7F800000#32
  let main_v60 : FVec F S16x512 .f32 := broadcastInDim S16x512 ![] bcast_S_S16x512 main_cst_22
  let main_v61 : IVec S16x512 1 := cmpf .olt main_v59 main_v60
  let main_c_23 : IVec S_ 1 := constantI S_ 1 1#1
  let main_v62 : IVec S_ 1 := (fun x v => Host.reduce IntOp.andi x v reducesTo_S16x512_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg14 main_arg15 main_arg16 main_arg17 main_v63 main_v67

def fn_part2 {F : FTy → Type} [FloatOps F] (main_arg7 : FVec F S512 .f32) (main_arg8 : FVec F S512x512 .f32) (main_arg9 : FVec F S512 .f32) (main_arg10 : FVec F S512x1x3 .f32) (main_arg11 : FVec F S512x16 .f32) (main_arg12 : FVec F S16x512 .f32) (main_arg13 : FVec F S16 .f32) (main_arg14 : FVec F S16x512 .f32) (main_arg15 : FVec F S16 .f32) (main_arg16 : FVec F S512x512 .f32) (main_arg17 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x1x3 .f32 := Host.absf main_arg10
  let main_cst_18 : FVec F S_ .f32 := constant S_ .f32 0x7F800000#32
  let main_v50 : FVec F S512x1x3 .f32 := broadcastInDim S512x1x3 ![] bcast_S_S512x1x3 main_cst_18
  fn_part3 (F := F) main_arg11 main_arg12 main_arg13 main_arg14 main_arg15 main_arg16 main_arg17 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x1x3 .f32) (main_arg11 : FVec F S512x16 .f32) (main_arg12 : FVec F S16x512 .f32) (main_arg13 : FVec F S16 .f32) (main_arg14 : FVec F S16x512 .f32) (main_arg15 : FVec F S16 .f32) (main_arg16 : FVec F S512x512 .f32) (main_arg17 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x512 .f32) (main_arg1 : FVec F S8192x512x16 .f32) (main_arg2 : FVec F S512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x1x3 .f32) (main_arg11 : FVec F S512x16 .f32) (main_arg12 : FVec F S16x512 .f32) (main_arg13 : FVec F S16 .f32) (main_arg14 : FVec F S16x512 .f32) (main_arg15 : FVec F S16 .f32) (main_arg16 : FVec F S512x512 .f32) (main_arg17 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512x16 .f32 := Host.absf main_arg1
  let main_cst_0 : FVec F S_ .f32 := constant S_ .f32 0x7F800000#32
  let main_v5 : FVec F S8192x512x16 .f32 := broadcastInDim S8192x512x16 ![] bcast_S_S8192x512x16 main_cst_0
  let main_v6 : IVec S8192x512x16 1 := cmpf .olt main_v4 main_v5
  let main_c_1 : IVec S_ 1 := constantI S_ 1 1#1
  let main_v7 : IVec S_ 1 := (fun x v => Host.reduce IntOp.andi x v reducesTo_S8192x512x16_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x512 : Shape := ⟨2, ![8192, 512]⟩
abbrev S8192x512x16 : Shape := ⟨3, ![8192, 512, 16]⟩
abbrev S512 : Shape := ⟨1, ![512]⟩
abbrev S512x512 : Shape := ⟨2, ![512, 512]⟩
abbrev S512x1x3 : Shape := ⟨3, ![512, 1, 3]⟩
abbrev S512x16 : Shape := ⟨2, ![512, 16]⟩
abbrev S16x512 : Shape := ⟨2, ![16, 512]⟩
abbrev S16 : Shape := ⟨1, ![16]⟩
abbrev S512x1x1 : Shape := ⟨3, ![512, 1, 1]⟩
abbrev S8192x16x512 : Shape := ⟨3, ![8192, 16, 512]⟩
abbrev S32x512 : Shape := ⟨2, ![32, 512]⟩
abbrev S32x16x512 : Shape := ⟨3, ![32, 16, 512]⟩
abbrev S32 : Shape := ⟨1, ![32]⟩
abbrev S32x1 : Shape := ⟨2, ![32, 1]⟩
abbrev S1x512 : Shape := ⟨2, ![1, 512]⟩
abbrev S32x16 : Shape := ⟨2, ![32, 16]⟩
abbrev S1x16 : Shape := ⟨2, ![1, 16]⟩
abbrev S512x1 : Shape := ⟨2, ![512, 1]⟩
abbrev S32x1x512 : Shape := ⟨3, ![32, 1, 512]⟩

abbrev nBuf : Space → Nat
  | .hbm => 36
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512x16, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x1x3, .f32⟩
  | .hbm, ⟨11, _⟩ => ⟨S512x16, .f32⟩
  | .hbm, ⟨12, _⟩ => ⟨S16x512, .f32⟩
  | .hbm, ⟨13, _⟩ => ⟨S16, .f32⟩
  | .hbm, ⟨14, _⟩ => ⟨S16x512, .f32⟩
  | .hbm, ⟨15, _⟩ => ⟨S16, .f32⟩
  | .hbm, ⟨16, _⟩ => ⟨S512x512, .f32⟩
  | .hbm, ⟨17, _⟩ => ⟨S512, .f32⟩
  | .hbm, ⟨18, _⟩ => ⟨S512x512, .f32⟩
  | .hbm, ⟨19, _⟩ => ⟨S512x512, .bf16⟩
  | .hbm, ⟨20, _⟩ => ⟨S512x512, .f32⟩
  | .hbm, ⟨21, _⟩ => ⟨S512x512, .bf16⟩
  | .hbm, ⟨22, _⟩ => ⟨S512x512, .f32⟩
  | .hbm, ⟨23, _⟩ => ⟨S512x512, .bf16⟩
  | .hbm, ⟨24, _⟩ => ⟨S512x512, .f32⟩
  | .hbm, ⟨25, _⟩ => ⟨S512x512, .bf16⟩
  | .hbm, ⟨26, _⟩ => ⟨S512x16, .f32⟩
  | .hbm, ⟨27, _⟩ => ⟨S512x16, .bf16⟩
  | .hbm, ⟨28, _⟩ => ⟨S512x16, .f32⟩
  | .hbm, ⟨29, _⟩ => ⟨S512x16, .bf16⟩
  | .hbm, ⟨30, _⟩ => ⟨S512x1x1, .f32⟩
  | .hbm, ⟨31, _⟩ => ⟨S512, .f32⟩
  | .hbm, ⟨32, _⟩ => ⟨S8192x16x512, .f32⟩
  | .hbm, ⟨33, _⟩ => ⟨S8192x512, .f32⟩
  | .hbm, ⟨34, _⟩ => ⟨S8192x16x512, .f32⟩
  | .hbm, ⟨35, _⟩ => ⟨S8192x512x16, .f32⟩
  | .local _ .vmem, ⟨0, _⟩ => ⟨S32x512, .f32⟩
  | .local _ .vmem, ⟨1, _⟩ => ⟨S32x512, .f32⟩
  | .local _ .vmem, ⟨2, _⟩ => ⟨S32x16x512, .f32⟩
  | .local _ .vmem, ⟨3, _⟩ => ⟨S32x16x512, .f32⟩
  | .local _ .vmem, ⟨4, _⟩ => ⟨S512, .f32⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S512x512, .bf16⟩
  | .local _ .vmem, ⟨13, _⟩ => ⟨S512, .f32⟩
  | .local _ .vmem, ⟨14, _⟩ => ⟨S512, .f32⟩
  | .local _ .vmem, ⟨15, _⟩ => ⟨S512x16, .f32⟩
  | .local _ .vmem, ⟨16, _⟩ => ⟨S512x16, .bf16⟩
  | .local _ .vmem, ⟨17, _⟩ => ⟨S16, .f32⟩
  | .local _ .vmem, ⟨18, _⟩ => ⟨S512x16, .bf16⟩
  | .local _ .vmem, ⟨19, _⟩ => ⟨S16, .f32⟩
  | .local _ .vmem, ⟨20, _⟩ => ⟨S32x512, .f32⟩
  | .local _ .vmem, ⟨21, _⟩ => ⟨S32x512, .f32⟩
  | .local _ .vmem, ⟨22, _⟩ => ⟨S32x16x512, .f32⟩
  | .local _ .vmem, ⟨23, _⟩ => ⟨S32x16x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v16 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x16 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x16 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S32x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x16x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  transposes_S512x512_S512x512_1_0 : S512x512.Transposes [1, 0] S512x512
  bitsLt_bf16_f32 : FTy.bits .bf16 < FTy.bits .f32
  transposes_S16x512_S512x16_1_0 : S16x512.Transposes [1, 0] S512x16
  slices_S512x1x3_S512x1x1_0_0_1 : S512x1x3.Slices ![0, 0, 1] S512x1x1
  shapeCasts_S512x1x1_S512 : S512x1x1.ShapeCasts S512
  transposes_S8192x512x16_S8192x16x512_0_2_1 : S8192x512x16.Transposes [0, 2, 1] S8192x16x512
  inb_S32x512_S32x512_0_0 : ∀ a, (![0, 0] : Fin 2 → Nat) a + S32x512.size a ≤ S32x512.size a
  h_S32x512 : 0 < S32x512.numel
  reduces_S32x512_S32 : S32x512.Reduces [1] S32
  shapeCasts_S32_S32x1 : S32.ShapeCasts S32x1
  broadcasts_S32x1_S32x512 : S32x1.Broadcasts S32x512
  inb_S512_S512_0 : ∀ a, (![0] : Fin 1 → Nat) a + S512.size a ≤ S512.size a
  h_S512 : 0 < S512.numel
  shapeCasts_S512_S1x512 : S512.ShapeCasts S1x512
  broadcasts_S1x512_S32x512 : S1x512.Broadcasts S32x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512_S512 : S512.ShapeCasts S512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16_S16_0 : ∀ a, (![0] : Fin 1 → Nat) a + S16.size a ≤ S16.size a
  h_S16 : 0 < S16.numel
  shapeCasts_S16_S1x16 : S16.ShapeCasts S1x16
  broadcasts_S1x16_S32x16 : S1x16.Broadcasts S32x16
  slices_S512x16_o0_0_S512x1 : S512x16.Slices ![0, 0] S512x1
  shapeCasts_S512x1_S512 : S512x1.ShapeCasts S512
  slices_S32x16_o0_0_S32x1 : S32x16.Slices ![0, 0] S32x1
  shapeCasts_S32x1_S32 : S32x1.ShapeCasts S32
  inb_S32x16x512_S32x1x512_0_0_0 : ∀ a, (![0, 0, 0] : Fin 3 → Nat) a + S32x1x512.size a ≤ S32x16x512.size a
  h_S32x1x512 : 0 < S32x1x512.numel
  shapeCasts_S32x1x512_S32x512 : S32x1x512.ShapeCasts S32x512
  shapeCasts_S32x512_S32x1x512 : S32x512.ShapeCasts S32x1x512
  slices_S512x16_o0_1_S512x1 : S512x16.Slices ![0, 1] S512x1
  slices_S32x16_o0_1_S32x1 : S32x16.Slices ![0, 1] S32x1
  inb_S32x16x512_S32x1x512_0_1_0 : ∀ a, (![0, 1, 0] : Fin 3 → Nat) a + S32x1x512.size a ≤ S32x16x512.size a
  slices_S512x16_o0_2_S512x1 : S512x16.Slices ![0, 2] S512x1
  slices_S32x16_o0_2_S32x1 : S32x16.Slices ![0, 2] S32x1
  inb_S32x16x512_S32x1x512_0_2_0 : ∀ a, (![0, 2, 0] : Fin 3 → Nat) a + S32x1x512.size a ≤ S32x16x512.size a
  slices_S512x16_o0_3_S512x1 : S512x16.Slices ![0, 3] S512x1
  slices_S32x16_o0_3_S32x1 : S32x16.Slices ![0, 3] S32x1
  inb_S32x16x512_S32x1x512_0_3_0 : ∀ a, (![0, 3, 0] : Fin 3 → Nat) a + S32x1x512.size a ≤ S32x16x512.size a
  slices_S512x16_o0_4_S512x1 : S512x16.Slices ![0, 4] S512x1
  slices_S32x16_o0_4_S32x1 : S32x16.Slices ![0, 4] S32x1
  inb_S32x16x512_S32x1x512_0_4_0 : ∀ a, (![0, 4, 0] : Fin 3 → Nat) a + S32x1x512.size a ≤ S32x16x512.size a
  slices_S512x16_o0_5_S512x1 : S512x16.Slices ![0, 5] S512x1
  slices_S32x16_o0_5_S32x1 : S32x16.Slices ![0, 5] S32x1
  inb_S32x16x512_S32x1x512_0_5_0 : ∀ a, (![0, 5, 0] : Fin 3 → Nat) a + S32x1x512.size a ≤ S32x16x512.size a
  slices_S512x16_o0_6_S512x1 : S512x16.Slices ![0, 6] S512x1
  slices_S32x16_o0_6_S32x1 : S32x16.Slices ![0, 6] S32x1
  inb_S32x16x512_S32x1x512_0_6_0 : ∀ a, (![0, 6, 0] : Fin 3 → Nat) a + S32x1x512.size a ≤ S32x16x512.size a
  slices_S512x16_o0_7_S512x1 : S512x16.Slices ![0, 7] S512x1
  slices_S32x16_o0_7_S32x1 : S32x16.Slices ![0, 7] S32x1
  inb_S32x16x512_S32x1x512_0_7_0 : ∀ a, (![0, 7, 0] : Fin 3 → Nat) a + S32x1x512.size a ≤ S32x16x512.size a
  slices_S512x16_o0_8_S512x1 : S512x16.Slices ![0, 8] S512x1
  slices_S32x16_o0_8_S32x1 : S32x16.Slices ![0, 8] S32x1
  inb_S32x16x512_S32x1x512_0_8_0 : ∀ a, (![0, 8, 0] : Fin 3 → Nat) a + S32x1x512.size a ≤ S32x16x512.size a
  slices_S512x16_o0_9_S512x1 : S512x16.Slices ![0, 9] S512x1
  slices_S32x16_o0_9_S32x1 : S32x16.Slices ![0, 9] S32x1
  inb_S32x16x512_S32x1x512_0_9_0 : ∀ a, (![0, 9, 0] : Fin 3 → Nat) a + S32x1x512.size a ≤ S32x16x512.size a
  slices_S512x16_o0_10_S512x1 : S512x16.Slices ![0, 10] S512x1
  slices_S32x16_o0_10_S32x1 : S32x16.Slices ![0, 10] S32x1
  inb_S32x16x512_S32x1x512_0_10_0 : ∀ a, (![0, 10, 0] : Fin 3 → Nat) a + S32x1x512.size a ≤ S32x16x512.size a
  slices_S512x16_o0_11_S512x1 : S512x16.Slices ![0, 11] S512x1
  slices_S32x16_o0_11_S32x1 : S32x16.Slices ![0, 11] S32x1
  inb_S32x16x512_S32x1x512_0_11_0 : ∀ a, (![0, 11, 0] : Fin 3 → Nat) a + S32x1x512.size a ≤ S32x16x512.size a
  slices_S512x16_o0_12_S512x1 : S512x16.Slices ![0, 12] S512x1
  slices_S32x16_o0_12_S32x1 : S32x16.Slices ![0, 12] S32x1
  inb_S32x16x512_S32x1x512_0_12_0 : ∀ a, (![0, 12, 0] : Fin 3 → Nat) a + S32x1x512.size a ≤ S32x16x512.size a
  slices_S512x16_o0_13_S512x1 : S512x16.Slices ![0, 13] S512x1
  slices_S32x16_o0_13_S32x1 : S32x16.Slices ![0, 13] S32x1
  inb_S32x16x512_S32x1x512_0_13_0 : ∀ a, (![0, 13, 0] : Fin 3 → Nat) a + S32x1x512.size a ≤ S32x16x512.size a
  slices_S512x16_o0_14_S512x1 : S512x16.Slices ![0, 14] S512x1
  slices_S32x16_o0_14_S32x1 : S32x16.Slices ![0, 14] S32x1
  inb_S32x16x512_S32x1x512_0_14_0 : ∀ a, (![0, 14, 0] : Fin 3 → Nat) a + S32x1x512.size a ≤ S32x16x512.size a
  slices_S512x16_o0_15_S512x1 : S512x16.Slices ![0, 15] S512x1
  slices_S32x16_o0_15_S32x1 : S32x16.Slices ![0, 15] S32x1
  inb_S32x16x512_S32x1x512_0_15_0 : ∀ a, (![0, 15, 0] : Fin 3 → Nat) a + S32x1x512.size a ≤ S32x16x512.size a
  transposes_S8192x16x512_S8192x512x16_0_2_1 : S8192x16x512.Transposes [0, 2, 1] S8192x512x16
  dot_S32x512_S512x512_S32x512_1_0_0_1_n_n_wf : DotDims.WF S32x512 S512x512 S32x512 [1] [0] [0] [1] [] []
  dot_S32x512_S512x16_S32x16_1_0_0_1_n_n_wf : DotDims.WF S32x512 S512x16 S32x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S8192x512.size a
  hwx0_0 : ∀ i : grid0.Coords, EltTy.bits .f32 = 32 ∨ (Rect.block (s := S8192x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16x512.size a ≤ S8192x16x512.size a
  hwx0_1 : ∀ i : grid0.Coords, EltTy.bits .f32 = 32 ∨ (Rect.block (s := S8192x16x512) S32x16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x16.size a ≤ S512x16.size a
  hwx0_13 : ∀ i : grid0.Coords, EltTy.bits .f32 = 32 ∨ (Rect.block (s := S512x16) S512x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x16.size a ≤ S512x16.size a
  hwx0_14 : ∀ i : grid0.Coords, EltTy.bits .bf16 = 32 ∨ (Rect.block (s := S512x16) S512x16.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16.size a ≤ S16.size a
  hwx0_15 : ∀ i : grid0.Coords, EltTy.bits .f32 = 32 ∨ (Rect.block (s := S16) S16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x16.size a ≤ S512x16.size a
  hwx0_16 : ∀ i : grid0.Coords, EltTy.bits .bf16 = 32 ∨ (Rect.block (s := S512x16) S512x16.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16.size a ≤ S16.size a
  hwx0_17 : ∀ i : grid0.Coords, EltTy.bits .f32 = 32 ∨ (Rect.block (s := S16) S16.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S32x512.size a ≤ S8192x512.size a
  hwx0_18 : ∀ i : grid0.Coords, EltTy.bits .f32 = 32 ∨ (Rect.block (s := S8192x512) S32x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S32x16x512.size a ≤ S8192x16x512.size a
  hwx0_19 : ∀ i : grid0.Coords, EltTy.bits .f32 = 32 ∨ (Rect.block (s := S8192x16x512) S32x16x512.size (cc0_transform_19 i) (hinb0_19 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x512_S512x16_S32x16_1_0_0_1_n_n : DotDims S32x512 S512x16 S32x16 where
  lhsContracting := [1]
  rhsContracting := [0]
  lhsNonContracting := [0]
  rhsNonContracting := [1]
  lhsBatch := []
  rhsBatch := []
  wf := dot_S32x512_S512x16_S32x16_1_0_0_1_n_n_wf

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S32x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg17) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S512x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S512x16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S512x16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg15) S16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v15_0) S32x512.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v15_1) S32x16x512.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x512x16 : Shape := ⟨3, ![8192, 512, 16]⟩
abbrev S512 : Shape := ⟨1, ![512]⟩
abbrev S512x512 : Shape := ⟨2, ![512, 512]⟩
abbrev S512x1x3 : Shape := ⟨3, ![512, 1, 3]⟩
abbrev S512x16 : Shape := ⟨2, ![512, 16]⟩
abbrev S16x512 : Shape := ⟨2, ![16, 512]⟩
abbrev S16 : Shape := ⟨1, ![16]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S512x1x1 : Shape := ⟨3, ![512, 1, 1]⟩
abbrev S8192x16 : Shape := ⟨2, ![8192, 16]⟩
abbrev S1x16 : Shape := ⟨2, ![1, 16]⟩
abbrev S8192x512x1 : Shape := ⟨3, ![8192, 512, 1]⟩
abbrev S1x512x16 : Shape := ⟨3, ![1, 512, 16]⟩
abbrev S8192x1x16 : Shape := ⟨3, ![8192, 1, 16]⟩

abbrev nBuf : Space → Nat
  | .hbm => 138
  | .vmem => 0
  | .smem => 0
  | _ => 0

abbrev hbmTy0_0 (i : Nat) : BufTy := match i % 128 with
  | 0 => ⟨S8192x512, .f32⟩
  | 1 => ⟨S8192x512x16, .f32⟩
  | 2 => ⟨S512, .f32⟩
  | 3 => ⟨S512, .f32⟩
  | 4 => ⟨S512x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x1x3, .f32⟩
  | 11 => ⟨S512x16, .f32⟩
  | 12 => ⟨S16x512, .f32⟩
  | 13 => ⟨S16, .f32⟩
  | 14 => ⟨S16x512, .f32⟩
  | 15 => ⟨S16, .f32⟩
  | 16 => ⟨S512x512, .f32⟩
  | 17 => ⟨S512, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x512, .f32⟩
  | 25 => ⟨S8192x512, .f32⟩
  | 26 => ⟨S8192x512, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x512, .f32⟩
  | 34 => ⟨S8192x512, .f32⟩
  | 35 => ⟨S_, .f32⟩
  | 36 => ⟨S8192x1, .f32⟩
  | 37 => ⟨S8192x1, .f32⟩
  | 38 => ⟨S8192x1, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S1x512, .f32⟩
  | 45 => ⟨S8192x512, .f32⟩
  | 46 => ⟨S8192x512, .f32⟩
  | 47 => ⟨S512x512, .f32⟩
  | 48 => ⟨S8192x512, .f32⟩
  | 49 => ⟨S1x512, .f32⟩
  | 50 => ⟨S8192x512, .f32⟩
  | 51 => ⟨S8192x512, .f32⟩
  | 52 => ⟨S512x1x1, .f32⟩
  | 53 => ⟨S512, .f32⟩
  | 54 => ⟨S1x512, .f32⟩
  | 55 => ⟨S8192x512, .f32⟩
  | 56 => ⟨S8192x512, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S8192x512, .f32⟩
  | 66 => ⟨S512x16, .f32⟩
  | 67 => ⟨S512x16, .f32⟩
  | 68 => ⟨S512x512, .f32⟩
  | 69 => ⟨S8192x512, .f32⟩
  | 70 => ⟨S1x512, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S8192x512, .f32⟩
  | 77 => ⟨S8192x512, .f32⟩
  | 78 => ⟨S8192x512, .i1⟩
  | 79 => ⟨S8192x512, .f32⟩
  | 80 => ⟨S8192x512, .f32⟩
  | 81 => ⟨S8192x512, .f32⟩
  | 82 => ⟨S8192x512, .f32⟩
  | 83 => ⟨S8192x512, .f32⟩
  | 84 => ⟨S8192x512, .f32⟩
  | 85 => ⟨S8192x512, .f32⟩
  | 86 => ⟨S8192x512, .f32⟩
  | 87 => ⟨S512x16, .f32⟩
  | 88 => ⟨S8192x16, .f32⟩
  | 89 => ⟨S1x16, .f32⟩
  | 90 => ⟨S8192x16, .f32⟩
  | 91 => ⟨S8192x16, .f32⟩
  | 92 => ⟨S512x16, .f32⟩
  | 93 => ⟨S8192x16, .f32⟩
  | 94 => ⟨S1x16, .f32⟩
  | 95 => ⟨S8192x16, .f32⟩
  | 96 => ⟨S8192x16, .f32⟩
  | 97 => ⟨S8192x512x1, .f32⟩
  | 98 => ⟨S1x512x16, .f32⟩
  | 99 => ⟨S8192x512x16, .f32⟩
  | 100 => ⟨S8192x512x16, .f32⟩
  | 101 => ⟨S8192x512x16, .f32⟩
  | 102 => ⟨S8192x512x16, .f32⟩
  | 103 => ⟨S8192x512x16, .f32⟩
  | 104 => ⟨S8192x512x1, .f32⟩
  | 105 => ⟨S8192x1x16, .f32⟩
  | 106 => ⟨S8192x512x16, .f32⟩
  | 107 => ⟨S8192x512x16, .f32⟩
  | 108 => ⟨S8192x512x16, .f32⟩
  | 109 => ⟨S8192x512x1, .f32⟩
  | 110 => ⟨S8192x512x16, .f32⟩
  | 111 => ⟨S8192x512x16, .f32⟩
  | 112 => ⟨S8192x512x16, .f32⟩
  | 113 => ⟨S8192x1x16, .f32⟩
  | 114 => ⟨S8192x512x16, .f32⟩
  | 115 => ⟨S8192x512x16, .f32⟩
  | 116 => ⟨S_, .f32⟩
  | 117 => ⟨S8192x512, .f32⟩
  | 118 => ⟨S512x512, .f32⟩
  | 119 => ⟨S8192x512, .f32⟩
  | 120 => ⟨S1x512, .f32⟩
  | 121 => ⟨S8192x512, .f32⟩
  | 122 => ⟨S8192x512, .f32⟩
  | 123 => ⟨S8192x512, .f32⟩
  | 124 => ⟨S8192x512, .f32⟩
  | 125 => ⟨S_, .f32⟩
  | 126 => ⟨S8192x512, .f32⟩
  | 127 => ⟨S8192x512, .f32⟩
  | _ => ⟨S8192x512, .f32⟩

abbrev hbmTy0_1 (i : Nat) : BufTy := match i % 128 with
  | 0 => ⟨S_, .f32⟩
  | 1 => ⟨S8192x512, .f32⟩
  | 2 => ⟨S8192x512, .f32⟩
  | 3 => ⟨S8192x512, .f32⟩
  | 4 => ⟨S8192x512, .f32⟩
  | 5 => ⟨S512x512, .f32⟩
  | 6 => ⟨S8192x512, .f32⟩
  | 7 => ⟨S1x512, .f32⟩
  | 8 => ⟨S8192x512, .f32⟩
  | 9 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_4 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_call2_v0 : Ref sig .tc := ⟨.hbm, 123, rfl⟩
abbrev main_call2_v1 : Ref sig .tc := ⟨.hbm, 124, rfl⟩
abbrev main_call2_cst : Ref sig .tc := ⟨.hbm, 125, rfl⟩
abbrev main_call2_v2 : Ref sig .tc := ⟨.hbm, 126, rfl⟩
abbrev main_call2_v3 : Ref sig .tc := ⟨.hbm, 127, rfl⟩
abbrev main_call2_cst_0 : Ref sig .tc := ⟨.hbm, 128, rfl⟩
abbrev main_call2_v4 : Ref sig .tc := ⟨.hbm, 129, rfl⟩
abbrev main_call2_v5 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S512x512_S512x512_1_0 : S512x512.Transposes [1, 0] S512x512
  slices_S512x1x3_S512x1x1_0_0_1 : S512x1x3.Slices ![0, 0, 1] S512x1x1
  shapeCasts_S512x1x1_S512 : S512x1x1.ShapeCasts S512
  bcast_S_S8192x512 : S_.BroadcastsInDim S8192x512 (![] : Fin 0 → Fin S8192x512.rank)
  transposes_S16x512_S512x16_1_0 : S16x512.Transposes [1, 0] S512x16
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S8192x512_S8192x512x1_0_1 : S8192x512.BroadcastsInDim S8192x512x1 (![0, 1] : Fin 2 → Fin S8192x512x1.rank)
  bcast_S512x16_S1x512x16_1_2 : S512x16.BroadcastsInDim S1x512x16 (![1, 2] : Fin 2 → Fin S1x512x16.rank)
  bcast_S8192x512x1_S8192x512x16_0_1_2 : S8192x512x1.BroadcastsInDim S8192x512x16 (![0, 1, 2] : Fin 3 → Fin S8192x512x16.rank)
  bcast_S1x512x16_S8192x512x16_0_1_2 : S1x512x16.BroadcastsInDim S8192x512x16 (![0, 1, 2] : Fin 3 → Fin S8192x512x16.rank)
  bcast_S8192x16_S8192x1x16_0_2 : S8192x16.BroadcastsInDim S8192x1x16 (![0, 2] : Fin 2 → Fin S8192x1x16.rank)
  bcast_S8192x1x16_S8192x512x16_0_1_2 : S8192x1x16.BroadcastsInDim S8192x512x16 (![0, 1, 2] : Fin 3 → Fin S8192x512x16.rank)
  reducesTo_S8192x512x16_S8192x512_d2 : S8192x512x16.ReducesTo [2] S8192x512
  dot_S8192x512_S512x512_S8192x512_1_0_0_1_n_n_wf : DotDims.WF S8192x512 S512x512 S8192x512 [1] [0] [0] [1] [] []
  dot_S8192x512_S512x16_S8192x16_1_0_0_1_n_n_wf : DotDims.WF S8192x512 S512x16 S8192x16 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x16_S8192x16_1_0_0_1_n_n : DotDims S8192x512 S512x16 S8192x16 where
  lhsContracting := [1]
  rhsContracting := [0]
  lhsNonContracting := [0]
  rhsNonContracting := [1]
  lhsBatch := []
  rhsBatch := []
  wf := dot_S8192x512_S512x16_S8192x16_1_0_0_1_n_n_wf

class Facts : Prop extends Facts₀ where

variable [Facts]
-- ==== Proof.LibColumnForms.lean ====
/-
  A vector kept as a one-column matrix, read at an entry.

  A row-wise reduction that keeps its axis (a sum over the columns of an [a, n] block, kept as [a, 1]) is spelt by a
  vector program in two steps: the lane sum into a vector of length a, then a shape cast that stands the vector up
  as a column. The column is then spread across the b columns of an [a, b] block by a broadcast; its transpose, a
  [1, a] row, is spread down the rows. Here each step is read at an entry given by its coordinates:

    the column of a vector              [a]    → [a, 1]   entry (i, 0) is the vector's entry i;
    a column spread across the columns  [a, 1] → [a, b]   entry (i, j) is the column's entry (i, 0);
    a lane sum over the second axis     [a, n] → [a]      entry i is the sum over k < n of the block's entry (i, k),
                                                          on the extended reals, where the zero accumulator is the
                                                          sum's neutral element and leaves no trace.

  (The transpose of a column into a row and the spreading of a row down the rows are in the library's layout file.)
-/
import Idealize.ShloMosaic.Lib.ValueIdx
import Idealize.ShloMosaic.Lib.Pipeline.Value
import Idealize.ShloMosaic.PureOps.Ideal.Laws

noncomputable section

open scoped BigOperators

namespace Idealize.ShloMosaic.ColumnForms

open Idealize.ShloMosaic Idealize.ShloMosaic.ValueIdx

variable {α : Type}

/-- A vector stood up as a one-column matrix by a shape cast: entry (i, 0) is the vector's entry i (the two indices
    have the same row-major position, i · 1 + 0 = i). -/
theorem shapeCast_a_a1_apply {a : ℕ} (v : (⟨1, ![a]⟩ : Shape).Idx → α)
    (h : (⟨1, ![a]⟩ : Shape).ShapeCasts ⟨2, ![a, 1]⟩) (i : Fin a) :
    shapeCast ⟨2, ![a, 1]⟩ v h (ix2 i (0 : Fin 1)) = v (ix1 i) := by
  refine shapeCast_apply v h (ix2 i (0 : Fin 1)) (ix1 i) ?_
  rw [Shape.rowMajor_val_one, Shape.rowMajor_val_two]
  show i.val = i.val * 1 + 0
  omega

/-- A one-column matrix spread across b columns by a broadcast: entry (i, j) is the column's entry (i, 0). -/
theorem broadcastTo_a1_ab_apply {a b : ℕ} (w : (⟨2, ![a, 1]⟩ : Shape).Idx → α)
    (h : (⟨2, ![a, 1]⟩ : Shape).Broadcasts ⟨2, ![a, b]⟩) (i : Fin a) (j : Fin b) :
    broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ => rfl

/-- A lane sum of an [a, n] block over its second axis, on the extended reals: entry i is the sum over the n columns of
    the block's row i. The accumulator word is the sum's neutral element, whatever proof of that the program carries. -/
theorem laneSum_apply {a n : ℕ} {φ : FTy} (x : FVec Ideal (⟨2, ![a, n]⟩ : Shape) φ) (acc : BitVec φ.bits)
    (h : (⟨2, ![a, n]⟩ : Shape).Reduces [1] ⟨1, ![a]⟩) (hφ : FKind.Formats φ) (hacc : acc = FKind.add.neutral φ hφ) (i : Fin a) :
    multiReduction .add [1] ⟨1, ![a]⟩ x acc h hφ hacc (ix1 i) = ∑ k : Fin n, x (ix2 i k) := by
  refine (Ideal.multiReduction_add_single x acc h hφ hacc (ix1 i)).trans ?_
  refine Finset.sum_congr rfl fun k _ => congrArg x (funext fun c => Fin.ext ?_)
  match c with
  | ⟨0, _⟩ => rfl
  | ⟨1, _⟩ => rfl

/-- The same lane sum as an f32 program prints it: the accumulator is the zero word, and the proof it carries that the
    word is the sum's neutral element is a proof that zero is zero. -/
theorem laneSum_zero_f32_apply {a n : ℕ} (x : FVec Ideal (⟨2, ![a, n]⟩ : Shape) .f32)
    (h : (⟨2, ![a, n]⟩ : Shape).Reduces [1] ⟨1, ![a]⟩) (hφ : FKind.Formats .f32)
    (hacc : (0x00000000#32 : BitVec 32) = 0x00000000#32) (i : Fin a) :
    multiReduction .add [1] ⟨1, ![a]⟩ x 0x00000000#32 h hφ hacc (ix1 i) = ∑ k : Fin n, x (ix2 i k) :=
  laneSum_apply x 0x00000000#32 h hφ hacc i

end Idealize.ShloMosaic.ColumnForms

end
-- ==== Proof.LibVecRows.lean ====
/-
  A vector laid along every row of a block, in a vector program's spelling.

  A vector program sends a vector v : [N] to an [n, N] block in two steps: a shape cast that adds a leading unit
  axis, [N] → [1, N], then a broadcast that copies that one row down the n rows. The shape cast keeps the row-major
  position, so (0, j) reads v j; the broadcast reads row 0 whatever the row asked for. Entry (r, j) of the result is
  therefore v j, for any extents.
-/
import Idealize.ShloMosaic.Lib.ValueIdx
import Idealize.ShloMosaic.Lib.Pipeline.Value

noncomputable section

namespace Idealize.ShloMosaic.VecRows

open Idealize.ShloMosaic Idealize.ShloMosaic.ValueIdx

variable {α : Type}

/-- A vector viewed as a one-row matrix: entry (0, j) is the vector's entry j. -/
theorem castRow_apply {N : Nat} (h : (⟨1, ![N]⟩ : Shape).ShapeCasts ⟨2, ![1, N]⟩)
    (v : (⟨1, ![N]⟩ : Shape).Idx → α) (j : Fin N) :
    shapeCast (⟨2, ![1, N]⟩ : Shape) v h (ix2 (0 : Fin 1) j) = v (ix1 j) := by
  refine shapeCast_apply v h (ix2 (0 : Fin 1) j) (ix1 j) ?_
  rw [Shape.rowMajor_val_two, Shape.rowMajor_val_one]
  show j.val = 0 * N + j.val
  omega

/-- A one-row matrix copied down n rows: entry (r, j) is the row's entry j. -/
theorem spreadRow_apply {n N : Nat} (h : (⟨2, ![1, N]⟩ : Shape).Broadcasts ⟨2, ![n, N]⟩)
    (w : (⟨2, ![1, N]⟩ : Shape).Idx → α) (r : Fin n) (j : Fin N) :
    broadcastTo (⟨2, ![n, N]⟩ : Shape) w h (ix2 r j) = w (ix2 (0 : Fin 1) j) := by
  refine broadcastTo_apply w h (ix2 r j) (ix2 (0 : Fin 1) j) (fun a => ?_)
  match a with
  | ⟨0, _⟩ =>
    show 0 = if (1 : Nat) = 1 then 0 else r.val
    rw [if_pos rfl]
  | ⟨1, _⟩ =>
    show j.val = if N = 1 then 0 else j.val
    split_ifs with hN
    · have := j.isLt; omega
    · rfl

/-- The two steps together: a vector cast to one row and copied down n rows reads v j at (r, j). -/
theorem rows_apply {n N : Nat} (h1 : (⟨1, ![N]⟩ : Shape).ShapeCasts ⟨2, ![1, N]⟩)
    (h2 : (⟨2, ![1, N]⟩ : Shape).Broadcasts ⟨2, ![n, N]⟩) (v : (⟨1, ![N]⟩ : Shape).Idx → α) (r : Fin n) (j : Fin N) :
    broadcastTo (⟨2, ![n, N]⟩ : Shape) (shapeCast (⟨2, ![1, N]⟩ : Shape) v h1) h2 (ix2 r j) = v (ix1 j) :=
  (spreadRow_apply h2 _ r j).trans (castRow_apply h1 v j)

end Idealize.ShloMosaic.VecRows

end
-- ==== Proof.LibRowBlocks.lean ====
/-
  Blocks of rows with a short middle axis, read at an entry.

  An [a, b, n] array is a stack of a groups of b rows of length n. The steps by which a program takes one row of every
  group out, works on the [a, n] matrix of those rows, and puts the results back are each read here at an entry given
  by its coordinates, for any extents:

    the slice of the middle axis at s       [a, b, n] → [a, 1, n]   entry (r, 0, j) is entry (r, s, j);
    dropping the unit middle axis           [a, 1, n] → [a, n]      entry (r, j) is entry (r, 0, j);
    putting a unit middle axis back         [a, n] → [a, 1, n]      entry (r, 0, j) is entry (r, j), whether the program
                                                                    spells it as a shape cast or as a broadcast;
    a [1, 1, n] block flattened to a vector [1, 1, n] → [n]         entry j is entry (0, 0, j);
    three [a, 1, n] pieces joined on the middle axis → [a, 3, n]    entry (r, s, j) is entry (r, 0, j) of piece s;
    one group of rows copied to every group [1, b, n] → [a, b, n]   entry (r, s, j) is entry (0, s, j);
    a column spread across the columns      [a, 1] → [a, b]         entry (i, j) is entry (i, 0).
-/
import Idealize.ShloMosaic.Lib.ValueIdx
import Idealize.ShloMosaic.Lib.Pipeline.Value

noncomputable section

namespace Idealize.ShloMosaic.RowBlocks

open Idealize.ShloMosaic Idealize.ShloMosaic.ValueIdx

variable {α : Type}

/-- The slice of the middle axis at s: entry (r, 0, j) of the slice is entry (r, s, j) of the array. -/
theorem midSlice_apply {a b n : ℕ} (x : (⟨3, ![a, b, n]⟩ : Shape).Idx → α) (o : ℕ) (s : Fin b) (hs : s.val = o)
    (h : (⟨3, ![a, b, n]⟩ : Shape).Slices ![0, o, 0] ⟨3, ![a, 1, n]⟩) (r : Fin a) (j : Fin n) :
    extractStridedSlice ⟨3, ![a, 1, n]⟩ ![0, o, 0] x h (ix3 r (0 : Fin 1) j) = x (ix3 r s j) := by
  subst hs
  refine extractStridedSlice_apply _ x h (ix3 r (0 : Fin 1) j) (ix3 r s j) fun ax => ?_
  match ax with
  | ⟨0, _⟩ => show r.val = 0 + r.val; omega
  | ⟨1, _⟩ => show s.val = s.val + 0; omega
  | ⟨2, _⟩ => show j.val = 0 + j.val; omega

/-- Dropping the unit middle axis keeps the row-major position: (r, j) reads (r, 0, j). -/
theorem dropMid_apply {a n : ℕ} (y : (⟨3, ![a, 1, n]⟩ : Shape).Idx → α)
    (h : (⟨3, ![a, 1, n]⟩ : Shape).ShapeCasts ⟨2, ![a, n]⟩) (r : Fin a) (j : Fin n) :
    shapeCast ⟨2, ![a, n]⟩ y h (ix2 r j) = y (ix3 r (0 : Fin 1) j) := by
  refine shapeCast_apply y h (ix2 r j) (ix3 r (0 : Fin 1) j) ?_
  rw [Shape.rowMajor_val_three, Shape.rowMajor_val_two]
  show (r.val * 1 + 0) * n + j.val = r.val * n + j.val
  rw [Nat.mul_one, Nat.add_zero]

/-- Putting the unit middle axis back by a shape cast: (r, 0, j) reads (r, j). -/
theorem addMid_apply {a n : ℕ} (y : (⟨2, ![a, n]⟩ : Shape).Idx → α)
    (h : (⟨2, ![a, n]⟩ : Shape).ShapeCasts ⟨3, ![a, 1, n]⟩) (r : Fin a) (j : Fin n) :
    shapeCast ⟨3, ![a, 1, n]⟩ y h (ix3 r (0 : Fin 1) j) = y (ix2 r j) := by
  refine shapeCast_apply y h (ix3 r (0 : Fin 1) j) (ix2 r j) ?_
  rw [Shape.rowMajor_val_three, Shape.rowMajor_val_two]
  show r.val * n + j.val = (r.val * 1 + 0) * n + j.val
  rw [Nat.mul_one, Nat.add_zero]

/-- Putting the unit middle axis back by a broadcast along axes 0 and 2: (r, 0, j) reads (r, j). -/
theorem insertMid_apply {a n : ℕ} (y : (⟨2, ![a, n]⟩ : Shape).Idx → α)
    (h : (⟨2, ![a, n]⟩ : Shape).BroadcastsInDim ⟨3, ![a, 1, n]⟩ ![0, 2]) (r : Fin a) (j : Fin n) :
    broadcastInDim ⟨3, ![a, 1, n]⟩ ![0, 2] h y (ix3 r (0 : Fin 1) j) = y (ix2 r j) := by
  refine broadcastInDim_apply _ h y (ix3 r (0 : Fin 1) j) (ix2 r j) fun x => ?_
  match x with
  | ⟨0, _⟩ =>
    show r.val = if a = 1 then 0 else r.val
    split_ifs with h1
    · have := r.isLt; omega
    · rfl
  | ⟨1, _⟩ =>
    show j.val = if n = 1 then 0 else j.val
    split_ifs with h1
    · have := j.isLt; omega
    · rfl

/-- A [1, 1, n] block flattened to a vector: entry j reads (0, 0, j). -/
theorem flat11_apply {n : ℕ} (y : (⟨3, ![1, 1, n]⟩ : Shape).Idx → α)
    (h : (⟨3, ![1, 1, n]⟩ : Shape).ShapeCasts ⟨1, ![n]⟩) (j : Fin n) :
    shapeCast ⟨1, ![n]⟩ y h (ix1 j) = y (ix3 (0 : Fin 1) (0 : Fin 1) j) := by
  refine shapeCast_apply y h (ix1 j) (ix3 (0 : Fin 1) (0 : Fin 1) j) ?_
  rw [Shape.rowMajor_val_three, Shape.rowMajor_val_one]
  show (0 * 1 + 0) * n + j.val = j.val
  simp

/-- Three [a, 1, n] pieces joined on the middle axis: entry (r, s, j) is entry (r, 0, j) of piece s. -/
theorem stack3_apply {a n : ℕ} (u0 u1 u2 : (⟨3, ![a, 1, n]⟩ : Shape).Idx → α)
    (h : Shape.Concatenates [(⟨3, ![a, 1, n]⟩ : Shape), ⟨3, ![a, 1, n]⟩, ⟨3, ![a, 1, n]⟩] ⟨3, ![a, 3, n]⟩ 1)
    (r : Fin a) (s : Fin 3) (j : Fin n) :
    concatenate ⟨3, ![a, 3, n]⟩ 1 [⟨⟨3, ![a, 1, n]⟩, u0⟩, ⟨⟨3, ![a, 1, n]⟩, u1⟩, ⟨⟨3, ![a, 1, n]⟩, u2⟩] h (ix3 r s j)
      = (![u0, u1, u2] s) (ix3 r (0 : Fin 1) j) := by
  have hi : ∀ b : Fin 3, b.cast (rfl : (3 : ℕ) = 3) ≠ (1 : Fin 3) →
      ((ix3 r (0 : Fin 1) j : (⟨3, ![a, 1, n]⟩ : Shape).Idx) b).val = ((ix3 r s j : (⟨3, ![a, 3, n]⟩ : Shape).Idx) (b.cast rfl)).val := by
    intro b hb
    match b with
    | ⟨0, _⟩ => rfl
    | ⟨1, _⟩ => exact absurd rfl hb
    | ⟨2, _⟩ => rfl
  match s with
  | ⟨0, _⟩ =>
    exact concatenate_apply_piece (t := ⟨3, ![a, 3, n]⟩) (1 : Fin 3)
      [⟨⟨3, ![a, 1, n]⟩, u0⟩, ⟨⟨3, ![a, 1, n]⟩, u1⟩, ⟨⟨3, ![a, 1, n]⟩, u2⟩] h _ 0 (by simp) ⟨3, ![a, 1, n]⟩ u0 rfl rfl 0 rfl
      (ix3 r (0 : Fin 1) j) hi rfl
  | ⟨1, _⟩ =>
    exact concatenate_apply_piece (t := ⟨3, ![a, 3, n]⟩) (1 : Fin 3)
      [⟨⟨3, ![a, 1, n]⟩, u0⟩, ⟨⟨3, ![a, 1, n]⟩, u1⟩, ⟨⟨3, ![a, 1, n]⟩, u2⟩] h _ 1 (by simp) ⟨3, ![a, 1, n]⟩ u1 rfl rfl 1 rfl
      (ix3 r (0 : Fin 1) j) hi rfl
  | ⟨2, _⟩ =>
    exact concatenate_apply_piece (t := ⟨3, ![a, 3, n]⟩) (1 : Fin 3)
      [⟨⟨3, ![a, 1, n]⟩, u0⟩, ⟨⟨3, ![a, 1, n]⟩, u1⟩, ⟨⟨3, ![a, 1, n]⟩, u2⟩] h _ 2 (by simp) ⟨3, ![a, 1, n]⟩ u2 rfl rfl 2 rfl
      (ix3 r (0 : Fin 1) j) hi rfl

/-- One group of b rows copied to every group: entry (r, s, j) reads (0, s, j). -/
theorem spreadGroup_apply {a b n : ℕ} (p : (⟨3, ![1, b, n]⟩ : Shape).Idx → α)
    (h : (⟨3, ![1, b, n]⟩ : Shape).BroadcastsInDim ⟨3, ![a, b, n]⟩ ![0, 1, 2]) (r : Fin a) (s : Fin b) (j : Fin n) :
    broadcastInDim ⟨3, ![a, b, n]⟩ ![0, 1, 2] h p (ix3 r s j) = p (ix3 (0 : Fin 1) s j) := by
  refine broadcastInDim_apply _ h p (ix3 r s j) (ix3 (0 : Fin 1) s j) fun x => ?_
  match x with
  | ⟨0, _⟩ =>
    show 0 = if (1 : ℕ) = 1 then 0 else r.val
    rw [if_pos rfl]
  | ⟨1, _⟩ =>
    show s.val = if b = 1 then 0 else s.val
    split_ifs with h1
    · have := s.isLt; omega
    · rfl
  | ⟨2, _⟩ =>
    show j.val = if n = 1 then 0 else j.val
    split_ifs with h1
    · have := j.isLt; omega
    · rfl

/-- A one-column matrix spread across b columns by a broadcast along both axes: entry (i, j) reads (i, 0). -/
theorem spreadCol_apply {a b : ℕ} (w : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h w (ix2 i j) = w (ix2 i (0 : Fin 1)) := by
  refine broadcastInDim_apply _ h w (ix2 i j) (ix2 i (0 : Fin 1)) fun x => ?_
  match x with
  | ⟨0, _⟩ =>
    show i.val = if a = 1 then 0 else i.val
    split_ifs with h1
    · have := i.isLt; omega
    · rfl
  | ⟨1, _⟩ =>
    show 0 = if (1 : ℕ) = 1 then 0 else j.val
    rw [if_pos rfl]

end Idealize.ShloMosaic.RowBlocks

end
-- ==== Proof.LibColumnPick.lean ====
/-
  One column of a matrix, read at an entry.

  A vector program takes column s of an [a, b] matrix as an [a, 1] slice, flattens it to a vector of length a, and then
  either lays that vector along every row of an [n, a] block (each row reads the column) or stands it up again as a
  column and spreads it across an [a, c] block (each row reads its own entry of the column). Read at an entry, for any
  extents: the slice at (i, 0) is the matrix at (i, s); the flattened column at i is the column at (i, 0).
-/
import Idealize.ShloMosaic.Lib.ValueIdx
import Idealize.ShloMosaic.Lib.Pipeline.Value

noncomputable section

namespace Idealize.ShloMosaic.ColumnPick

open Idealize.ShloMosaic Idealize.ShloMosaic.ValueIdx

variable {α : Type}

/-- Column s of an [a, b] matrix as an [a, 1] slice: entry (i, 0) of the slice is entry (i, s) of the matrix. -/
theorem colSlice_apply {a b : ℕ} (x : (⟨2, ![a, b]⟩ : Shape).Idx → α) (o : ℕ) (s : Fin b) (hs : s.val = o)
    (h : (⟨2, ![a, b]⟩ : Shape).Slices ![0, o] ⟨2, ![a, 1]⟩) (i : Fin a) :
    extractStridedSlice ⟨2, ![a, 1]⟩ ![0, o] x h (ix2 i (0 : Fin 1)) = x (ix2 i s) := by
  subst hs
  refine extractStridedSlice_apply _ x h (ix2 i (0 : Fin 1)) (ix2 i s) fun ax => ?_
  match ax with
  | ⟨0, _⟩ => show i.val = 0 + i.val; omega
  | ⟨1, _⟩ => show s.val = s.val + 0; omega

/-- A one-column matrix flattened to a vector keeps the row-major position: entry i reads (i, 0). -/
theorem dropCol_apply {a : ℕ} (y : (⟨2, ![a, 1]⟩ : Shape).Idx → α)
    (h : (⟨2, ![a, 1]⟩ : Shape).ShapeCasts ⟨1, ![a]⟩) (i : Fin a) :
    shapeCast ⟨1, ![a]⟩ y h (ix1 i) = y (ix2 i (0 : Fin 1)) := by
  refine shapeCast_apply y h (ix1 i) (ix2 i (0 : Fin 1)) ?_
  rw [Shape.rowMajor_val_two, Shape.rowMajor_val_one]
  show i.val * 1 + 0 = i.val
  omega

end Idealize.ShloMosaic.ColumnPick

end
-- ==== Proof.KernelSlots.lean ====
/-
  The sixteen slots of the new state, one block at a time.

  For each slot s the vector program takes the state's middle-axis slice at s (a [32, 1, 512] block), drops the unit
  axis, and writes back
      old (p, s, j) · exp (δ (p, j) · a (j, s)) + (δ (p, j) · B (p, s)) · u (p, j),
  where a's column s is laid along every row and B's column s is spread across the columns. The sixteen copies of that
  computation are cut differently into named pieces; read at the entry (p, 0, j) every one of them is the formula above.
  The block vectors u, δ, B, a and the slice are arbitrary here.
-/
import proofs.«137921_j80187039416644_2_alg».proof.Proof.Gen.KernelIdeal.Skeleton
import proofs.«137921_j80187039416644_2_alg».proof.Proof.LibColumnForms
import proofs.«137921_j80187039416644_2_alg».proof.Proof.LibVecRows
import proofs.«137921_j80187039416644_2_alg».proof.Proof.LibRowBlocks
import proofs.«137921_j80187039416644_2_alg».proof.Proof.LibColumnPick

set_option maxHeartbeats 1000000

noncomputable section

namespace Cert.KSlots

open Cert.KernelIdeal Cert.KernelIdeal.Gen Idealize.ShloMosaic Idealize.ShloMosaic.ValueIdx
open Idealize.ShloMosaic.ColumnForms Idealize.ShloMosaic.VecRows Idealize.ShloMosaic.RowBlocks Idealize.ShloMosaic.ColumnPick

/-- An exponential at an entry is the exponential of the entry. -/
theorem exp_at {s : Shape} {φ : FTy} (x : FVec Ideal s φ) (i : s.Idx) : exp x i = Ideal.exp (x i) := rfl

variable (c3 d : FVec Ideal S32x512 .f32) (bm cm : FVec Ideal S32x16 .f32) (a : FVec Ideal S512x16 .f32)
  (p : Fin 32) (j : Fin 512)

/-- Slot 0: the exponential factor exp (δ · a (·, 0)) comes precomputed as a block `ea`. -/
theorem slot0 (ea : FVec Ideal S32x512 .f32) (st : Vec Ideal S32x1x512 .f32) :
    k0_pay13 c3 d bm ea st (ix3 p (0 : Fin 1) j)
      = st (ix3 p (0 : Fin 1) j) * ea (ix2 p j) + d (ix2 p j) * bm (ix2 p (0 : Fin 16)) * c3 (ix2 p j) := by
  simp only [k0_pay13, k0_pay12, addf_apply, mulf_apply, exp_at, broadcast_apply, castRow_apply, spreadRow_apply, shapeCast_a_a1_apply, broadcastTo_a1_ab_apply,
    dropMid_apply, addMid_apply, dropCol_apply, colSlice_apply (a := 512) (b := 16) _ 0 (0 : Fin 16) rfl, colSlice_apply (a := 32) (b := 16) _ 0 (0 : Fin 16) rfl]

/-- Slot 1. -/
theorem slot1 (st : Vec Ideal S32x1x512 .f32) :
    k0_pay15 c3 d bm a st (ix3 p (0 : Fin 1) j) = (st (ix3 p (0 : Fin 1) j) * Ideal.exp (d (ix2 p j) * a (ix2 j (1 : Fin 16))) + d (ix2 p j) * bm (ix2 p (1 : Fin 16)) * c3 (ix2 p j)) := by
  simp only [k0_pay15, k0_pay14, addf_apply, mulf_apply, exp_at, broadcast_apply, castRow_apply, spreadRow_apply, shapeCast_a_a1_apply, broadcastTo_a1_ab_apply,
    dropMid_apply, addMid_apply, dropCol_apply, colSlice_apply (a := 512) (b := 16) _ 1 (1 : Fin 16) rfl, colSlice_apply (a := 32) (b := 16) _ 1 (1 : Fin 16) rfl]

/-- Slot 2. -/
theorem slot2 (st : Vec Ideal S32x1x512 .f32) :
    k0_pay19 c3 d bm (k0_pay17 a) st (ix3 p (0 : Fin 1) j) = (st (ix3 p (0 : Fin 1) j) * Ideal.exp (d (ix2 p j) * a (ix2 j (2 : Fin 16))) + d (ix2 p j) * bm (ix2 p (2 : Fin 16)) * c3 (ix2 p j)) := by
  simp only [k0_pay19, k0_pay18, k0_pay17, addf_apply, mulf_apply, exp_at, broadcast_apply, castRow_apply, spreadRow_apply, shapeCast_a_a1_apply, broadcastTo_a1_ab_apply,
    dropMid_apply, addMid_apply, dropCol_apply, colSlice_apply (a := 512) (b := 16) _ 2 (2 : Fin 16) rfl, colSlice_apply (a := 32) (b := 16) _ 2 (2 : Fin 16) rfl]

/-- Slot 3. -/
theorem slot3 (st : Vec Ideal S32x1x512 .f32) :
    k0_pay22 c3 d bm a st (ix3 p (0 : Fin 1) j) = (st (ix3 p (0 : Fin 1) j) * Ideal.exp (d (ix2 p j) * a (ix2 j (3 : Fin 16))) + d (ix2 p j) * bm (ix2 p (3 : Fin 16)) * c3 (ix2 p j)) := by
  simp only [k0_pay22, k0_pay21, addf_apply, mulf_apply, exp_at, broadcast_apply, castRow_apply, spreadRow_apply, shapeCast_a_a1_apply, broadcastTo_a1_ab_apply,
    dropMid_apply, addMid_apply, dropCol_apply, colSlice_apply (a := 512) (b := 16) _ 3 (3 : Fin 16) rfl, colSlice_apply (a := 32) (b := 16) _ 3 (3 : Fin 16) rfl]

/-- Slot 4. -/
theorem slot4 (st : Vec Ideal S32x1x512 .f32) :
    k0_pay25 c3 d bm a st (ix3 p (0 : Fin 1) j) = (st (ix3 p (0 : Fin 1) j) * Ideal.exp (d (ix2 p j) * a (ix2 j (4 : Fin 16))) + d (ix2 p j) * bm (ix2 p (4 : Fin 16)) * c3 (ix2 p j)) := by
  simp only [k0_pay25, k0_pay24, addf_apply, mulf_apply, exp_at, broadcast_apply, castRow_apply, spreadRow_apply, shapeCast_a_a1_apply, broadcastTo_a1_ab_apply,
    dropMid_apply, addMid_apply, dropCol_apply, colSlice_apply (a := 512) (b := 16) _ 4 (4 : Fin 16) rfl, colSlice_apply (a := 32) (b := 16) _ 4 (4 : Fin 16) rfl]

/-- Slot 5. -/
theorem slot5 (st : Vec Ideal S32x1x512 .f32) :
    k0_pay29 (k0_pay28 c3 d bm a st) (ix3 p (0 : Fin 1) j) = (st (ix3 p (0 : Fin 1) j) * Ideal.exp (d (ix2 p j) * a (ix2 j (5 : Fin 16))) + d (ix2 p j) * bm (ix2 p (5 : Fin 16)) * c3 (ix2 p j)) := by
  simp only [k0_pay29, k0_pay28, addf_apply, mulf_apply, exp_at, broadcast_apply, castRow_apply, spreadRow_apply, shapeCast_a_a1_apply, broadcastTo_a1_ab_apply,
    dropMid_apply, addMid_apply, dropCol_apply, colSlice_apply (a := 512) (b := 16) _ 5 (5 : Fin 16) rfl, colSlice_apply (a := 32) (b := 16) _ 5 (5 : Fin 16) rfl]

/-- Slot 6. -/
theorem slot6 (st : Vec Ideal S32x1x512 .f32) :
    k0_pay31 c3 d bm a st (ix3 p (0 : Fin 1) j) = (st (ix3 p (0 : Fin 1) j) * Ideal.exp (d (ix2 p j) * a (ix2 j (6 : Fin 16))) + d (ix2 p j) * bm (ix2 p (6 : Fin 16)) * c3 (ix2 p j)) := by
  simp only [k0_pay31, k0_pay30, addf_apply, mulf_apply, exp_at, broadcast_apply, castRow_apply, spreadRow_apply, shapeCast_a_a1_apply, broadcastTo_a1_ab_apply,
    dropMid_apply, addMid_apply, dropCol_apply, colSlice_apply (a := 512) (b := 16) _ 6 (6 : Fin 16) rfl, colSlice_apply (a := 32) (b := 16) _ 6 (6 : Fin 16) rfl]

/-- Slot 7. -/
theorem slot7 (st : Vec Ideal S32x1x512 .f32) :
    k0_pay35 (k0_pay34 c3 d bm a st) (ix3 p (0 : Fin 1) j) = (st (ix3 p (0 : Fin 1) j) * Ideal.exp (d (ix2 p j) * a (ix2 j (7 : Fin 16))) + d (ix2 p j) * bm (ix2 p (7 : Fin 16)) * c3 (ix2 p j)) := by
  simp only [k0_pay35, k0_pay34, addf_apply, mulf_apply, exp_at, broadcast_apply, castRow_apply, spreadRow_apply, shapeCast_a_a1_apply, broadcastTo_a1_ab_apply,
    dropMid_apply, addMid_apply, dropCol_apply, colSlice_apply (a := 512) (b := 16) _ 7 (7 : Fin 16) rfl, colSlice_apply (a := 32) (b := 16) _ 7 (7 : Fin 16) rfl]

/-- Slot 8. -/
theorem slot8 (st : Vec Ideal S32x1x512 .f32) :
    k0_pay37 c3 d bm a st (ix3 p (0 : Fin 1) j) = (st (ix3 p (0 : Fin 1) j) * Ideal.exp (d (ix2 p j) * a (ix2 j (8 : Fin 16))) + d (ix2 p j) * bm (ix2 p (8 : Fin 16)) * c3 (ix2 p j)) := by
  simp only [k0_pay37, k0_pay36, addf_apply, mulf_apply, exp_at, broadcast_apply, castRow_apply, spreadRow_apply, shapeCast_a_a1_apply, broadcastTo_a1_ab_apply,
    dropMid_apply, addMid_apply, dropCol_apply, colSlice_apply (a := 512) (b := 16) _ 8 (8 : Fin 16) rfl, colSlice_apply (a := 32) (b := 16) _ 8 (8 : Fin 16) rfl]

/-- Slot 9. -/
theorem slot9 (st : Vec Ideal S32x1x512 .f32) :
    k0_pay43 c3 d (k0_pay39 bm) (k0_pay41 d a st) (ix3 p (0 : Fin 1) j) = (st (ix3 p (0 : Fin 1) j) * Ideal.exp (d (ix2 p j) * a (ix2 j (9 : Fin 16))) + d (ix2 p j) * bm (ix2 p (9 : Fin 16)) * c3 (ix2 p j)) := by
  simp only [k0_pay43, k0_pay42, k0_pay39, k0_pay41, addf_apply, mulf_apply, exp_at, broadcast_apply, castRow_apply, spreadRow_apply, shapeCast_a_a1_apply, broadcastTo_a1_ab_apply,
    dropMid_apply, addMid_apply, dropCol_apply, colSlice_apply (a := 512) (b := 16) _ 9 (9 : Fin 16) rfl, colSlice_apply (a := 32) (b := 16) _ 9 (9 : Fin 16) rfl]

/-- Slot 10. -/
theorem slot10 (st : Vec Ideal S32x1x512 .f32) :
    k0_pay45 c3 d bm a st (ix3 p (0 : Fin 1) j) = (st (ix3 p (0 : Fin 1) j) * Ideal.exp (d (ix2 p j) * a (ix2 j (10 : Fin 16))) + d (ix2 p j) * bm (ix2 p (10 : Fin 16)) * c3 (ix2 p j)) := by
  simp only [k0_pay45, k0_pay44, addf_apply, mulf_apply, exp_at, broadcast_apply, castRow_apply, spreadRow_apply, shapeCast_a_a1_apply, broadcastTo_a1_ab_apply,
    dropMid_apply, addMid_apply, dropCol_apply, colSlice_apply (a := 512) (b := 16) _ 10 (10 : Fin 16) rfl, colSlice_apply (a := 32) (b := 16) _ 10 (10 : Fin 16) rfl]

/-- Slot 11. -/
theorem slot11 (st : Vec Ideal S32x1x512 .f32) :
    k0_pay51 c3 d (k0_pay47 d a) (k0_pay48 bm) st (ix3 p (0 : Fin 1) j) = (st (ix3 p (0 : Fin 1) j) * Ideal.exp (d (ix2 p j) * a (ix2 j (11 : Fin 16))) + d (ix2 p j) * bm (ix2 p (11 : Fin 16)) * c3 (ix2 p j)) := by
  simp only [k0_pay51, k0_pay50, k0_pay47, k0_pay48, addf_apply, mulf_apply, exp_at, broadcast_apply, castRow_apply, spreadRow_apply, shapeCast_a_a1_apply, broadcastTo_a1_ab_apply,
    dropMid_apply, addMid_apply, dropCol_apply, colSlice_apply (a := 512) (b := 16) _ 11 (11 : Fin 16) rfl, colSlice_apply (a := 32) (b := 16) _ 11 (11 : Fin 16) rfl]

/-- Slot 12. -/
theorem slot12 (st : Vec Ideal S32x1x512 .f32) :
    k0_pay53 c3 d bm a st (ix3 p (0 : Fin 1) j) = (st (ix3 p (0 : Fin 1) j) * Ideal.exp (d (ix2 p j) * a (ix2 j (12 : Fin 16))) + d (ix2 p j) * bm (ix2 p (12 : Fin 16)) * c3 (ix2 p j)) := by
  simp only [k0_pay53, k0_pay52, addf_apply, mulf_apply, exp_at, broadcast_apply, castRow_apply, spreadRow_apply, shapeCast_a_a1_apply, broadcastTo_a1_ab_apply,
    dropMid_apply, addMid_apply, dropCol_apply, colSlice_apply (a := 512) (b := 16) _ 12 (12 : Fin 16) rfl, colSlice_apply (a := 32) (b := 16) _ 12 (12 : Fin 16) rfl]

/-- Slot 13. -/
theorem slot13 (st : Vec Ideal S32x1x512 .f32) :
    k0_pay59 c3 d (k0_pay55 d a) (k0_pay56 bm) st (ix3 p (0 : Fin 1) j) = (st (ix3 p (0 : Fin 1) j) * Ideal.exp (d (ix2 p j) * a (ix2 j (13 : Fin 16))) + d (ix2 p j) * bm (ix2 p (13 : Fin 16)) * c3 (ix2 p j)) := by
  simp only [k0_pay59, k0_pay58, k0_pay55, k0_pay56, addf_apply, mulf_apply, exp_at, broadcast_apply, castRow_apply, spreadRow_apply, shapeCast_a_a1_apply, broadcastTo_a1_ab_apply,
    dropMid_apply, addMid_apply, dropCol_apply, colSlice_apply (a := 512) (b := 16) _ 13 (13 : Fin 16) rfl, colSlice_apply (a := 32) (b := 16) _ 13 (13 : Fin 16) rfl]

/-- Slot 14. -/
theorem slot14 (st : Vec Ideal S32x1x512 .f32) :
    k0_pay61 c3 d bm a st (ix3 p (0 : Fin 1) j) = (st (ix3 p (0 : Fin 1) j) * Ideal.exp (d (ix2 p j) * a (ix2 j (14 : Fin 16))) + d (ix2 p j) * bm (ix2 p (14 : Fin 16)) * c3 (ix2 p j)) := by
  simp only [k0_pay61, k0_pay60, addf_apply, mulf_apply, exp_at, broadcast_apply, castRow_apply, spreadRow_apply, shapeCast_a_a1_apply, broadcastTo_a1_ab_apply,
    dropMid_apply, addMid_apply, dropCol_apply, colSlice_apply (a := 512) (b := 16) _ 14 (14 : Fin 16) rfl, colSlice_apply (a := 32) (b := 16) _ 14 (14 : Fin 16) rfl]

/-- Slot 15. -/
theorem slot15 (st : Vec Ideal S32x1x512 .f32) :
    k0_pay65 c3 d bm (k0_pay63 d a) st (ix3 p (0 : Fin 1) j) = (st (ix3 p (0 : Fin 1) j) * Ideal.exp (d (ix2 p j) * a (ix2 j (15 : Fin 16))) + d (ix2 p j) * bm (ix2 p (15 : Fin 16)) * c3 (ix2 p j)) := by
  simp only [k0_pay65, k0_pay64, k0_pay63, addf_apply, mulf_apply, exp_at, broadcast_apply, castRow_apply, spreadRow_apply, shapeCast_a_a1_apply, broadcastTo_a1_ab_apply,
    dropMid_apply, addMid_apply, dropCol_apply, colSlice_apply (a := 512) (b := 16) _ 15 (15 : Fin 16) rfl, colSlice_apply (a := 32) (b := 16) _ 15 (15 : Fin 16) rfl]

end Cert.KSlots

end
-- ==== Proof.KernelAccum.lean ====
/-
  The read-out, accumulated slot by slot.

  The vector program adds, onto a block of zeros, the sixteen products new (p, s, j) · C (p, s) one after the other, C's
  column s spread across the columns. Each named piece of the program adds one or two of them onto the running block
  `acc`. Read at an entry (p, j), with new (p, s, j) as in the slots' file; the block vectors are arbitrary.
-/
import proofs.«137921_j80187039416644_2_alg».proof.Proof.Gen.KernelIdeal.Skeleton
import proofs.«137921_j80187039416644_2_alg».proof.Proof.LibColumnForms
import proofs.«137921_j80187039416644_2_alg».proof.Proof.LibVecRows
import proofs.«137921_j80187039416644_2_alg».proof.Proof.LibRowBlocks
import proofs.«137921_j80187039416644_2_alg».proof.Proof.LibColumnPick
import proofs.«137921_j80187039416644_2_alg».proof.Proof.KernelSlots

set_option maxHeartbeats 1000000

noncomputable section

namespace Cert.KAccum

open Cert.KernelIdeal Cert.KernelIdeal.Gen Idealize.ShloMosaic Idealize.ShloMosaic.ValueIdx
open Idealize.ShloMosaic.ColumnForms Idealize.ShloMosaic.VecRows Idealize.ShloMosaic.RowBlocks Idealize.ShloMosaic.ColumnPick

open Cert.KSlots

variable (c3 d : FVec Ideal S32x512 .f32) (bm cm : FVec Ideal S32x16 .f32) (a : FVec Ideal S512x16 .f32)
  (p : Fin 32) (j : Fin 512)

/-- The block of zeros the sum starts from. -/
theorem acc_zero : k0_pay10 (F := Ideal) (ix2 p j) = Ideal.ofBits .f32 0x00000000#32 := rfl

/-- Slots 0 and 1 onto the starting block `z`; slot 0's exponential factor comes precomputed as `ea`. -/
theorem acc16 (z ea : FVec Ideal S32x512 .f32) (st0 st1 : Vec Ideal S32x1x512 .f32) :
    k0_pay16 c3 d bm cm a z ea st0 st1 (ix2 p j)
      = z (ix2 p j) + (st0 (ix3 p (0 : Fin 1) j) * ea (ix2 p j) + d (ix2 p j) * bm (ix2 p (0 : Fin 16)) * c3 (ix2 p j)) * cm (ix2 p (0 : Fin 16))
          + (st1 (ix3 p (0 : Fin 1) j) * Ideal.exp (d (ix2 p j) * a (ix2 j (1 : Fin 16))) + d (ix2 p j) * bm (ix2 p (1 : Fin 16)) * c3 (ix2 p j)) * cm (ix2 p (1 : Fin 16)) := by
  simp only [k0_pay16, k0_pay12, k0_pay14, addf_apply, mulf_apply, exp_at, broadcast_apply, castRow_apply, spreadRow_apply, shapeCast_a_a1_apply, broadcastTo_a1_ab_apply,
    dropMid_apply, addMid_apply, dropCol_apply, colSlice_apply (a := 512) (b := 16) _ 0 (0 : Fin 16) rfl, colSlice_apply (a := 32) (b := 16) _ 0 (0 : Fin 16) rfl, colSlice_apply (a := 512) (b := 16) _ 1 (1 : Fin 16) rfl, colSlice_apply (a := 32) (b := 16) _ 1 (1 : Fin 16) rfl]

/-- Slot 2 onto the running block. -/
theorem acc20 (acc : FVec Ideal S32x512 .f32) (st2 : Vec Ideal S32x1x512 .f32) :
    k0_pay20 c3 d bm cm acc (k0_pay17 a) st2 (ix2 p j)
      = acc (ix2 p j) + (st2 (ix3 p (0 : Fin 1) j) * Ideal.exp (d (ix2 p j) * a (ix2 j (2 : Fin 16))) + d (ix2 p j) * bm (ix2 p (2 : Fin 16)) * c3 (ix2 p j)) * cm (ix2 p (2 : Fin 16)) := by
  simp only [k0_pay20, k0_pay18, k0_pay17, addf_apply, mulf_apply, exp_at, broadcast_apply, castRow_apply, spreadRow_apply, shapeCast_a_a1_apply, broadcastTo_a1_ab_apply,
    dropMid_apply, addMid_apply, dropCol_apply, colSlice_apply (a := 512) (b := 16) _ 2 (2 : Fin 16) rfl, colSlice_apply (a := 32) (b := 16) _ 2 (2 : Fin 16) rfl]

/-- Slots 3 and 4 onto the running block. -/
theorem acc26 (acc : FVec Ideal S32x512 .f32) (st3 st4 : Vec Ideal S32x1x512 .f32) :
    k0_pay26 c3 d bm cm a acc (k0_pay21 c3 d bm a st3) (k0_pay23 cm) st4 (ix2 p j)
      = acc (ix2 p j) + (st3 (ix3 p (0 : Fin 1) j) * Ideal.exp (d (ix2 p j) * a (ix2 j (3 : Fin 16))) + d (ix2 p j) * bm (ix2 p (3 : Fin 16)) * c3 (ix2 p j)) * cm (ix2 p (3 : Fin 16))
          + (st4 (ix3 p (0 : Fin 1) j) * Ideal.exp (d (ix2 p j) * a (ix2 j (4 : Fin 16))) + d (ix2 p j) * bm (ix2 p (4 : Fin 16)) * c3 (ix2 p j)) * cm (ix2 p (4 : Fin 16)) := by
  simp only [k0_pay26, k0_pay24, k0_pay21, k0_pay23, addf_apply, mulf_apply, exp_at, broadcast_apply, castRow_apply, spreadRow_apply, shapeCast_a_a1_apply, broadcastTo_a1_ab_apply,
    dropMid_apply, addMid_apply, dropCol_apply, colSlice_apply (a := 512) (b := 16) _ 3 (3 : Fin 16) rfl, colSlice_apply (a := 32) (b := 16) _ 3 (3 : Fin 16) rfl, colSlice_apply (a := 512) (b := 16) _ 4 (4 : Fin 16) rfl, colSlice_apply (a := 32) (b := 16) _ 4 (4 : Fin 16) rfl]

/-- Slots 5 and 6 onto the running block. -/
theorem acc32 (acc : FVec Ideal S32x512 .f32) (st5 st6 : Vec Ideal S32x1x512 .f32) :
    k0_pay32 c3 d bm cm a acc (k0_pay27 cm) (k0_pay28 c3 d bm a st5) st6 (ix2 p j)
      = acc (ix2 p j) + (st5 (ix3 p (0 : Fin 1) j) * Ideal.exp (d (ix2 p j) * a (ix2 j (5 : Fin 16))) + d (ix2 p j) * bm (ix2 p (5 : Fin 16)) * c3 (ix2 p j)) * cm (ix2 p (5 : Fin 16))
          + (st6 (ix3 p (0 : Fin 1) j) * Ideal.exp (d (ix2 p j) * a (ix2 j (6 : Fin 16))) + d (ix2 p j) * bm (ix2 p (6 : Fin 16)) * c3 (ix2 p j)) * cm (ix2 p (6 : Fin 16)) := by
  simp only [k0_pay32, k0_pay30, k0_pay27, k0_pay28, addf_apply, mulf_apply, exp_at, broadcast_apply, castRow_apply, spreadRow_apply, shapeCast_a_a1_apply, broadcastTo_a1_ab_apply,
    dropMid_apply, addMid_apply, dropCol_apply, colSlice_apply (a := 512) (b := 16) _ 5 (5 : Fin 16) rfl, colSlice_apply (a := 32) (b := 16) _ 5 (5 : Fin 16) rfl, colSlice_apply (a := 512) (b := 16) _ 6 (6 : Fin 16) rfl, colSlice_apply (a := 32) (b := 16) _ 6 (6 : Fin 16) rfl]

/-- Slots 7 and 8 onto the running block. -/
theorem acc38 (acc : FVec Ideal S32x512 .f32) (st7 st8 : Vec Ideal S32x1x512 .f32) :
    k0_pay38 c3 d bm cm a acc (k0_pay33 cm) (k0_pay34 c3 d bm a st7) st8 (ix2 p j)
      = acc (ix2 p j) + (st7 (ix3 p (0 : Fin 1) j) * Ideal.exp (d (ix2 p j) * a (ix2 j (7 : Fin 16))) + d (ix2 p j) * bm (ix2 p (7 : Fin 16)) * c3 (ix2 p j)) * cm (ix2 p (7 : Fin 16))
          + (st8 (ix3 p (0 : Fin 1) j) * Ideal.exp (d (ix2 p j) * a (ix2 j (8 : Fin 16))) + d (ix2 p j) * bm (ix2 p (8 : Fin 16)) * c3 (ix2 p j)) * cm (ix2 p (8 : Fin 16)) := by
  simp only [k0_pay38, k0_pay36, k0_pay33, k0_pay34, addf_apply, mulf_apply, exp_at, broadcast_apply, castRow_apply, spreadRow_apply, shapeCast_a_a1_apply, broadcastTo_a1_ab_apply,
    dropMid_apply, addMid_apply, dropCol_apply, colSlice_apply (a := 512) (b := 16) _ 7 (7 : Fin 16) rfl, colSlice_apply (a := 32) (b := 16) _ 7 (7 : Fin 16) rfl, colSlice_apply (a := 512) (b := 16) _ 8 (8 : Fin 16) rfl, colSlice_apply (a := 32) (b := 16) _ 8 (8 : Fin 16) rfl]

/-- Slots 9 and 10 onto the running block. -/
theorem acc46 (acc : FVec Ideal S32x512 .f32) (st9 st10 : Vec Ideal S32x1x512 .f32) :
    k0_pay46 c3 d bm cm a acc (k0_pay39 bm) (k0_pay40 cm) (k0_pay41 d a st9) st10 (ix2 p j)
      = acc (ix2 p j) + (st9 (ix3 p (0 : Fin 1) j) * Ideal.exp (d (ix2 p j) * a (ix2 j (9 : Fin 16))) + d (ix2 p j) * bm (ix2 p (9 : Fin 16)) * c3 (ix2 p j)) * cm (ix2 p (9 : Fin 16))
          + (st10 (ix3 p (0 : Fin 1) j) * Ideal.exp (d (ix2 p j) * a (ix2 j (10 : Fin 16))) + d (ix2 p j) * bm (ix2 p (10 : Fin 16)) * c3 (ix2 p j)) * cm (ix2 p (10 : Fin 16)) := by
  simp only [k0_pay46, k0_pay44, k0_pay42, k0_pay39, k0_pay40, k0_pay41, addf_apply, mulf_apply, exp_at, broadcast_apply, castRow_apply, spreadRow_apply, shapeCast_a_a1_apply, broadcastTo_a1_ab_apply,
    dropMid_apply, addMid_apply, dropCol_apply, colSlice_apply (a := 512) (b := 16) _ 9 (9 : Fin 16) rfl, colSlice_apply (a := 32) (b := 16) _ 9 (9 : Fin 16) rfl, colSlice_apply (a := 512) (b := 16) _ 10 (10 : Fin 16) rfl, colSlice_apply (a := 32) (b := 16) _ 10 (10 : Fin 16) rfl]

/-- Slots 11 and 12 onto the running block. -/
theorem acc54 (acc : FVec Ideal S32x512 .f32) (st11 st12 : Vec Ideal S32x1x512 .f32) :
    k0_pay54 c3 d bm cm a acc (k0_pay47 d a) (k0_pay48 bm) (k0_pay49 cm) st11 st12 (ix2 p j)
      = acc (ix2 p j) + (st11 (ix3 p (0 : Fin 1) j) * Ideal.exp (d (ix2 p j) * a (ix2 j (11 : Fin 16))) + d (ix2 p j) * bm (ix2 p (11 : Fin 16)) * c3 (ix2 p j)) * cm (ix2 p (11 : Fin 16))
          + (st12 (ix3 p (0 : Fin 1) j) * Ideal.exp (d (ix2 p j) * a (ix2 j (12 : Fin 16))) + d (ix2 p j) * bm (ix2 p (12 : Fin 16)) * c3 (ix2 p j)) * cm (ix2 p (12 : Fin 16)) := by
  simp only [k0_pay54, k0_pay52, k0_pay50, k0_pay47, k0_pay48, k0_pay49, addf_apply, mulf_apply, exp_at, broadcast_apply, castRow_apply, spreadRow_apply, shapeCast_a_a1_apply, broadcastTo_a1_ab_apply,
    dropMid_apply, addMid_apply, dropCol_apply, colSlice_apply (a := 512) (b := 16) _ 11 (11 : Fin 16) rfl, colSlice_apply (a := 32) (b := 16) _ 11 (11 : Fin 16) rfl, colSlice_apply (a := 512) (b := 16) _ 12 (12 : Fin 16) rfl, colSlice_apply (a := 32) (b := 16) _ 12 (12 : Fin 16) rfl]

/-- Slots 13 and 14 onto the running block. -/
theorem acc62 (acc : FVec Ideal S32x512 .f32) (st13 st14 : Vec Ideal S32x1x512 .f32) :
    k0_pay62 c3 d bm cm a acc (k0_pay55 d a) (k0_pay56 bm) (k0_pay57 cm) st13 st14 (ix2 p j)
      = acc (ix2 p j) + (st13 (ix3 p (0 : Fin 1) j) * Ideal.exp (d (ix2 p j) * a (ix2 j (13 : Fin 16))) + d (ix2 p j) * bm (ix2 p (13 : Fin 16)) * c3 (ix2 p j)) * cm (ix2 p (13 : Fin 16))
          + (st14 (ix3 p (0 : Fin 1) j) * Ideal.exp (d (ix2 p j) * a (ix2 j (14 : Fin 16))) + d (ix2 p j) * bm (ix2 p (14 : Fin 16)) * c3 (ix2 p j)) * cm (ix2 p (14 : Fin 16)) := by
  simp only [k0_pay62, k0_pay60, k0_pay58, k0_pay55, k0_pay56, k0_pay57, addf_apply, mulf_apply, exp_at, broadcast_apply, castRow_apply, spreadRow_apply, shapeCast_a_a1_apply, broadcastTo_a1_ab_apply,
    dropMid_apply, addMid_apply, dropCol_apply, colSlice_apply (a := 512) (b := 16) _ 13 (13 : Fin 16) rfl, colSlice_apply (a := 32) (b := 16) _ 13 (13 : Fin 16) rfl, colSlice_apply (a := 512) (b := 16) _ 14 (14 : Fin 16) rfl, colSlice_apply (a := 32) (b := 16) _ 14 (14 : Fin 16) rfl]

end Cert.KAccum

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«137921_j80187039416644_2_alg».proof.Proof.LibContract
import proofs.«137921_j80187039416644_2_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.MambaRow.lean ====
/-
  One row of the block, as mathematics on the extended reals.

  Every row of the two results depends on the same row of the input `x` (512 numbers), on the same row of the carried
  state (16 × 512 numbers) and on the whole weight arrays, and on nothing else. This file states that dependence once:
  a layer normalisation of the row (mean and variance over its 512 entries, the variance shifted by a small constant
  before the reciprocal square root, then a scale and a shift per entry); a dense layer followed by a per-entry factor and
  the gate y · logistic y; from that vector three more dense layers — one through log (1 + e^y) in its overflow-safe
  spelling max y 0 + log1p (exp (−|y|)), two of 16 outputs each —; the one-step recurrence
      new (s, j) = old (s, j) · exp (δ j · a (j, s)) + (δ j · B s) · u j,        a (j, s) = −exp (alog (j, s)),
  its read-out ∑ s, new (s, j) · C s; a second gate from the normalised row; and a last dense layer of the product.
  A dense layer is written against the TRANSPOSED weight, ∑ k, v k · wT (k, j) + bias j: that is how both programs
  contract. Nothing here is specific to a block size: a row is a row.
-/
import Idealize.ShloMosaic.PureOps.Ideal.Laws

noncomputable section

open scoped BigOperators

namespace Cert.MambaRow

open Idealize.ShloMosaic

/-- The f32 word of 512, of the variance shift, and the zero word, as the extended reals they denote. -/
def c512 : EReal := Ideal.ofBits .f32 0x44000000#32
def ceps : EReal := Ideal.ofBits .f32 0x3727C5AC#32
def z32 : EReal := Ideal.ofBits .f32 0x00000000#32

theorem z32_eq : z32 = 0 := Ideal.ofBits_zero_f32

/-- The weights, each as a function of plain coordinates; a matrix is held TRANSPOSED (contracted index first). -/
structure Params where
  g : Fin 512 → EReal
  b : Fin 512 → EReal
  w1T : Fin 512 → Fin 512 → EReal
  b1 : Fin 512 → EReal
  cw : Fin 512 → EReal
  dtT : Fin 512 → Fin 512 → EReal
  dtb : Fin 512 → EReal
  bpT : Fin 512 → Fin 16 → EReal
  bpb : Fin 16 → EReal
  cpT : Fin 512 → Fin 16 → EReal
  cpb : Fin 16 → EReal
  alog : Fin 512 → Fin 16 → EReal
  v1T : Fin 512 → Fin 512 → EReal
  v1b : Fin 512 → EReal
  w2T : Fin 512 → Fin 512 → EReal
  w2b : Fin 512 → EReal

/-- Mean of a row, the centred row, its variance. -/
def mean (xr : Fin 512 → EReal) : EReal := Ideal.div (∑ k : Fin 512, xr k) c512
def cen (xr : Fin 512 → EReal) (j : Fin 512) : EReal := xr j - mean xr
def var (xr : Fin 512 → EReal) : EReal := Ideal.div (∑ k : Fin 512, cen xr k * cen xr k) c512

/-- The normalised row. -/
def norm (xr g b : Fin 512 → EReal) (j : Fin 512) : EReal :=
  cen xr j * Ideal.rsqrt (var xr + ceps) * g j + b j

/-- A dense layer against the transposed weight. -/
def lin {K N : ℕ} (v : Fin K → EReal) (wT : Fin K → Fin N → EReal) (bias : Fin N → EReal) (j : Fin N) : EReal :=
  (∑ k : Fin K, v k * wT k j) + bias j

/-- y · logistic y. -/
def silu (y : EReal) : EReal := y * Ideal.logistic y

/-- log (1 + e^y) as both programs spell it: a guard `d ≠ d` on d = y − 0 (never true of an extended real) choosing
    y + 0, else max y 0 + log1p (exp (0 − |d|)). -/
def softplus (y : EReal) : EReal :=
  Scalar.select (FloatOps.cmpf (F := Ideal) (φ := .f32) .one (y - z32) (y - z32)) (y + z32)
    (max y z32 + Ideal.log1p (Ideal.exp (z32 - FloatOps.absf (F := Ideal) (φ := .f32) (y - z32))))

variable (P : Params) (xr : Fin 512 → EReal) (st : Fin 16 → Fin 512 → EReal)

def xn (j : Fin 512) : EReal := norm xr P.g P.b j
/-- The gated first layer. -/
def conv (j : Fin 512) : EReal := silu (lin (xn P xr) P.w1T P.b1 j * P.cw j)
def delta (j : Fin 512) : EReal := softplus (lin (conv P xr) P.dtT P.dtb j)
def bm (s : Fin 16) : EReal := lin (conv P xr) P.bpT P.bpb s
def cm (s : Fin 16) : EReal := lin (conv P xr) P.cpT P.cpb s
/-- a (j, s) = 0 − exp (alog (j, s)). -/
def aneg (j : Fin 512) (s : Fin 16) : EReal := z32 - Ideal.exp (P.alog j s)
/-- The new state of slot s at entry j. -/
def ns (s : Fin 16) (j : Fin 512) : EReal :=
  st s j * Ideal.exp (delta P xr j * aneg P j s) + delta P xr j * bm P xr s * conv P xr j
/-- The read-out over the 16 slots. -/
def xssm (j : Fin 512) : EReal := ∑ s : Fin 16, ns P xr st s j * cm P xr s
def gate (j : Fin 512) : EReal := silu (lin (xn P xr) P.v1T P.v1b j)
/-- The output row. -/
def out (j : Fin 512) : EReal := lin (fun k => xssm P xr st k * gate P xr k) P.w2T P.w2b j

/-- A sum of sixteen terms added one after the other onto zero is the sum over the sixteen slots. -/
theorem sum16 (f : Fin 16 → EReal) :
    z32 + f 0 + f 1 + f 2 + f 3 + f 4 + f 5 + f 6 + f 7 + f 8 + f 9 + f 10 + f 11 + f 12 + f 13 + f 14 + f 15
      = ∑ s : Fin 16, f s := by
  rw [z32_eq, zero_add]
  simp only [Fin.sum_univ_castSucc, Fin.sum_univ_zero, zero_add]
  rfl

end Cert.MambaRow

end
-- ==== Proof.MambaParams.lean ====
/-
  The weights and the rows, read off arrays.

  The vector program's blocks hold each weight matrix already transposed (contracted index first) and the centre tap of
  the three-tap filter as a plain vector; the reference's arguments hold the matrices as given (output index first) and
  the filter as a [512, 1, 3] array whose entry (j, 0, 1) is the centre tap. Both bundles of weights are written here as
  the plain-coordinate functions the row formulas take, together with the row of an [n, 512] array and the row of a
  state array in either layout ([n, 16, 512] for the vector program, [n, 512, 16] for the reference).
-/
import Idealize.ShloMosaic.Lib.ValueIdx
import proofs.«137921_j80187039416644_2_alg».proof.Proof.MambaRow

noncomputable section

namespace Cert.MambaRow

open Idealize.ShloMosaic Idealize.ShloMosaic.ValueIdx

/-- Shapes by extents. -/
abbrev A1 (a : ℕ) : Type := (⟨1, ![a]⟩ : Shape).Idx → EReal
abbrev A2 (a b : ℕ) : Type := (⟨2, ![a, b]⟩ : Shape).Idx → EReal
abbrev A3 (a b c : ℕ) : Type := (⟨3, ![a, b, c]⟩ : Shape).Idx → EReal

/-- The weights as the vector program's blocks hold them: matrices transposed, the filter's centre tap a vector. -/
def kparams (g b : A1 512) (w1T : A2 512 512) (b1 : A1 512) (v1T : A2 512 512) (v1b : A1 512) (w2T : A2 512 512)
    (w2b : A1 512) (dtT : A2 512 512) (dtb : A1 512) (cw : A1 512) (alog : A2 512 16) (bpT : A2 512 16) (bpb : A1 16)
    (cpT : A2 512 16) (cpb : A1 16) : Params where
  g := fun j => g (ix1 j)
  b := fun j => b (ix1 j)
  w1T := fun k j => w1T (ix2 k j)
  b1 := fun j => b1 (ix1 j)
  cw := fun j => cw (ix1 j)
  dtT := fun k j => dtT (ix2 k j)
  dtb := fun j => dtb (ix1 j)
  bpT := fun k s => bpT (ix2 k s)
  bpb := fun s => bpb (ix1 s)
  cpT := fun k s => cpT (ix2 k s)
  cpb := fun s => cpb (ix1 s)
  alog := fun j s => alog (ix2 j s)
  v1T := fun k j => v1T (ix2 k j)
  v1b := fun j => v1b (ix1 j)
  w2T := fun k j => w2T (ix2 k j)
  w2b := fun j => w2b (ix1 j)

/-- The weights as the reference's arguments hold them: matrices output index first, the filter [512, 1, 3]. -/
def rparams (g b : A1 512) (w1 : A2 512 512) (b1 : A1 512) (v1 : A2 512 512) (v1b : A1 512) (w2 : A2 512 512)
    (w2b : A1 512) (cw3 : A3 512 1 3) (alog : A2 512 16) (bp : A2 16 512) (bpb : A1 16) (cp : A2 16 512) (cpb : A1 16)
    (dt : A2 512 512) (dtb : A1 512) : Params where
  g := fun j => g (ix1 j)
  b := fun j => b (ix1 j)
  w1T := fun k j => w1 (ix2 j k)
  b1 := fun j => b1 (ix1 j)
  cw := fun j => cw3 (ix3 j (0 : Fin 1) (1 : Fin 3))
  dtT := fun k j => dt (ix2 j k)
  dtb := fun j => dtb (ix1 j)
  bpT := fun k s => bp (ix2 s k)
  bpb := fun s => bpb (ix1 s)
  cpT := fun k s => cp (ix2 s k)
  cpb := fun s => cpb (ix1 s)
  alog := fun j s => alog (ix2 j s)
  v1T := fun k j => v1 (ix2 j k)
  v1b := fun j => v1b (ix1 j)
  w2T := fun k j => w2 (ix2 j k)
  w2b := fun j => w2b (ix1 j)

/-- Row r of an [n, 512] array. -/
def xrow {n : ℕ} (x : A2 n 512) (r : Fin n) : Fin 512 → EReal := fun k => x (ix2 r k)
/-- Row r of a state array laid out [n, 16, 512] (slot, then entry). -/
def strowK {n : ℕ} (st : A3 n 16 512) (r : Fin n) : Fin 16 → Fin 512 → EReal := fun s k => st (ix3 r s k)
/-- Row r of a state array laid out [n, 512, 16] (entry, then slot). -/
def strowR {n : ℕ} (st : A3 n 512 16) (r : Fin n) : Fin 16 → Fin 512 → EReal := fun s k => st (ix3 r k s)

end Cert.MambaRow

end
-- ==== Proof.KernelStages.lean ====
/-
  The stages of one block, read at an entry.

  Each named stage of the vector program's body is read here at an entry of its block, as a formula of the row it
  belongs to: the normalised row (two lane sums over the 512 entries, each divided by 512; the reciprocal square root of
  the shifted variance spread back across the row; the scale and shift laid along every row); a product into a zero
  accumulator as the plain sum ∑ k, v (p, k) · w (k, j) with its bias row; the gate y · logistic y; log (1 + e^y) in its
  guarded spelling; a (j, s) = 0 − exp (alog (j, s)); the exponential factor of slot 0 and of slot 15; and the last two
  products, which take the read-out's last step and the second gate with them. The block vectors a stage is fed are
  arbitrary: how the stages feed each other is the next file's business.
-/
import proofs.«137921_j80187039416644_2_alg».proof.Proof.Gen.KernelIdeal.Skeleton
import proofs.«137921_j80187039416644_2_alg».proof.Proof.LibColumnForms
import proofs.«137921_j80187039416644_2_alg».proof.Proof.LibVecRows
import proofs.«137921_j80187039416644_2_alg».proof.Proof.LibRowBlocks
import proofs.«137921_j80187039416644_2_alg».proof.Proof.LibColumnPick
import proofs.«137921_j80187039416644_2_alg».proof.Proof.LibDenseVec
import proofs.«137921_j80187039416644_2_alg».proof.Proof.MambaParams

set_option maxHeartbeats 1000000

noncomputable section

namespace Cert.KStage

open Cert.KernelIdeal Cert.KernelIdeal.Gen Idealize.ShloMosaic Idealize.ShloMosaic.ValueIdx
open Idealize.ShloMosaic.ColumnForms Idealize.ShloMosaic.VecRows Idealize.ShloMosaic.RowBlocks Idealize.ShloMosaic.ColumnPick
open Cert.MambaRow

variable [Cert.KernelIdeal.Facts]

/-- Pointwise functions at an entry. -/
theorem rsqrt_at {s : Shape} {φ : FTy} (x : FVec Ideal s φ) (i : s.Idx) : rsqrt x i = Ideal.rsqrt (x i) := rfl
theorem logistic_at {s : Shape} {φ : FTy} (x : FVec Ideal s φ) (i : s.Idx) : logistic x i = Ideal.logistic (x i) := rfl
theorem exp_at {s : Shape} {φ : FTy} (x : FVec Ideal s φ) (i : s.Idx) : exp x i = Ideal.exp (x i) := rfl
theorem log1p_at {s : Shape} {φ : FTy} (x : FVec Ideal s φ) (i : s.Idx) : log1p x i = Ideal.log1p (x i) := rfl
theorem absf_at {s : Shape} {φ : FTy} (x : FVec Ideal s φ) (i : s.Idx) : absf x i = FloatOps.absf (x i) := rfl

theorem plain512 : DenseVec.Plain dot_S32x512_S512x512_S32x512_1_0_0_1_n_n where
  rank := rfl
  size := fun _ => rfl
  lhs := rfl
  rhs := rfl
  row := fun j q => by
    unfold DotDims.lhsIdx
    rw [dif_neg (show ¬(0 : Fin S32x512.rank) ∈ dot_S32x512_S512x512_S32x512_1_0_0_1_n_n.lhsBatch by decide),
      dif_pos (show (0 : Fin S32x512.rank) ∈ dot_S32x512_S512x512_S32x512_1_0_0_1_n_n.lhsNonContracting by decide)]
    rfl
  col := fun j q => by
    unfold DotDims.rhsIdx
    rw [dif_neg (show ¬(1 : Fin S512x512.rank) ∈ dot_S32x512_S512x512_S32x512_1_0_0_1_n_n.rhsBatch by decide),
      dif_pos (show (1 : Fin S512x512.rank) ∈ dot_S32x512_S512x512_S32x512_1_0_0_1_n_n.rhsNonContracting by decide)]
    rfl

theorem plain16 : DenseVec.Plain dot_S32x512_S512x16_S32x16_1_0_0_1_n_n where
  rank := rfl
  size := fun _ => rfl
  lhs := rfl
  rhs := rfl
  row := fun j q => by
    unfold DotDims.lhsIdx
    rw [dif_neg (show ¬(0 : Fin S32x512.rank) ∈ dot_S32x512_S512x16_S32x16_1_0_0_1_n_n.lhsBatch by decide),
      dif_pos (show (0 : Fin S32x512.rank) ∈ dot_S32x512_S512x16_S32x16_1_0_0_1_n_n.lhsNonContracting by decide)]
    rfl
  col := fun j q => by
    unfold DotDims.rhsIdx
    rw [dif_neg (show ¬(1 : Fin S512x16.rank) ∈ dot_S32x512_S512x16_S32x16_1_0_0_1_n_n.rhsBatch by decide),
      dif_pos (show (1 : Fin S512x16.rank) ∈ dot_S32x512_S512x16_S32x16_1_0_0_1_n_n.rhsNonContracting by decide)]
    rfl

set_option backward.isDefEq.respectTransparency.types false in
/-- The normalised row: x0's row p, centred by its mean, times the reciprocal square root of its shifted variance, scaled
    and shifted per entry. -/
theorem stage_xn (x0 : Vec Ideal S32x512 .f32) (g b : Vec Ideal S512 .f32) (p : Fin 32) (j : Fin 512) :
    k0_pay2 x0 g b (ix2 p j) = norm (xrow x0 p) (fun k => g (ix1 k)) (fun k => b (ix1 k)) j := by
  unfold k0_pay2
  dsimp only
  simp only [truncf_apply, addf_apply, mulf_apply, subf_apply, divf_apply, rsqrt_at, broadcast_apply, castRow_apply,
    spreadRow_apply, shapeCast_a_a1_apply, broadcastTo_a1_ab_apply]
  rw [laneSum_zero_f32_apply x0, laneSum_zero_f32_apply]
  simp only [mulf_apply, subf_apply, divf_apply, broadcast_apply, shapeCast_a_a1_apply, broadcastTo_a1_ab_apply]
  rw [laneSum_zero_f32_apply x0]
  rfl

variable (p : Fin 32) (j : Fin 512)

/-- The weight block passes through a shape cast to its own shape. -/
theorem stage_w5 (w : Vec Ideal S512x512 .bf16) : k0_pay5 w = w := shapeCast_self _ _

/-- The narrowed copy of the gated first layer has the same entries. -/
theorem stage_c4 (x0 : Vec Ideal S32x512 .f32) (g b : Vec Ideal S512 .f32) (w1 : Vec Ideal S512x512 .bf16) (b1 cw : Vec Ideal S512 .f32) :
    k0_pay4 x0 g b w1 b1 cw (ix2 p j) = k0_pay3 x0 g b w1 b1 cw (ix2 p j) := rfl

/-- Slot 15's exponential factor: exp (δ (p, j) · a (j, 15)). -/
theorem stage_ea15 (d : FVec Ideal S32x512 .f32) (a : FVec Ideal S512x16 .f32) :
    k0_pay63 d a (ix2 p j) = Ideal.exp (d (ix2 p j) * a (ix2 j (15 : Fin 16))) := by
  simp only [k0_pay63, exp_at, mulf_apply, castRow_apply, spreadRow_apply, dropCol_apply, colSlice_apply (a := 512) (b := 16) _ 15 (15 : Fin 16) rfl]

theorem stage_c3 (x0 : Vec Ideal S32x512 .f32) (g b : Vec Ideal S512 .f32) (w1 : Vec Ideal S512x512 .bf16) (b1 cw : Vec Ideal S512 .f32) :
    k0_pay3 x0 g b w1 b1 cw (ix2 p j)
      = silu (lin (fun k => k0_pay2 x0 g b (ix2 p k)) (fun k j => w1 (ix2 k j)) (fun j => b1 (ix1 j)) j * cw (ix1 j)) := by
  simp only [k0_pay3, mulf_apply, addf_apply, logistic_at, castRow_apply, spreadRow_apply, shapeCast_self,
    DenseVec.matmul_zero_ix2 plain512]
  rfl

theorem stage_d (c4 : FVec Ideal S32x512 .bf16) (w5 : FVec Ideal S512x512 .bf16) (b11 : Vec Ideal S512 .f32) :
    k0_pay6 c4 w5 b11 (ix2 p j)
      = softplus (lin (fun k => c4 (ix2 p k)) (fun k j => w5 (ix2 k j)) (fun j => b11 (ix1 j)) j) := by
  simp only [k0_pay6, select_apply, cmpf_apply, addf_apply, subf_apply, maximumf_apply, log1p_at, exp_at, absf_at, broadcast_apply,
    castRow_apply, spreadRow_apply, DenseVec.matmul_zero_ix2 plain512]
  rfl

theorem stage_bm (c4 : FVec Ideal S32x512 .bf16) (w : Vec Ideal S512x16 .bf16) (bb : Vec Ideal S16 .f32) (s : Fin 16) :
    k0_pay7 c4 w bb (ix2 p s) = lin (fun k => c4 (ix2 p k)) (fun k s => w (ix2 k s)) (fun s => bb (ix1 s)) s := by
  simp only [k0_pay7, addf_apply, castRow_apply, spreadRow_apply, shapeCast_self, DenseVec.matmul_zero_ix2 plain16]
  rfl

theorem stage_cm (c4 : FVec Ideal S32x512 .bf16) (w : Vec Ideal S512x16 .bf16) (bb : Vec Ideal S16 .f32) (s : Fin 16) :
    k0_pay8 c4 w bb (ix2 p s) = lin (fun k => c4 (ix2 p k)) (fun k s => w (ix2 k s)) (fun s => bb (ix1 s)) s := by
  simp only [k0_pay8, addf_apply, castRow_apply, spreadRow_apply, shapeCast_self, DenseVec.matmul_zero_ix2 plain16]
  rfl

theorem stage_a (al : Vec Ideal S512x16 .f32) (s : Fin 16) : k0_pay9 al (ix2 j s) = z32 - Ideal.exp (al (ix2 j s)) := rfl

theorem stage_ea (c4 : FVec Ideal S32x512 .bf16) (w5 : FVec Ideal S512x512 .bf16) (b11 : Vec Ideal S512 .f32) (al : Vec Ideal S512x16 .f32) :
    k0_pay11 c4 w5 b11 al (ix2 p j) = Ideal.exp (k0_pay6 c4 w5 b11 (ix2 p j) * k0_pay9 al (ix2 j (0 : Fin 16))) := by
  simp only [k0_pay11, exp_at, mulf_apply, castRow_apply, spreadRow_apply, dropCol_apply, colSlice_apply (a := 512) (b := 16) _ 0 (0 : Fin 16) rfl]

theorem stage_fin (xn : FVec Ideal S32x512 .bf16) (c3 d : FVec Ideal S32x512 .f32) (bm cm : FVec Ideal S32x16 .f32) (acc ea : FVec Ideal S32x512 .f32)
    (st : Vec Ideal S32x1x512 .f32) (w6 : Vec Ideal S512x512 .bf16) (b7 : Vec Ideal S512 .f32) (w8 : Vec Ideal S512x512 .bf16) :
    k0_pay66 xn c3 d bm cm acc ea st w6 b7 w8 (ix2 p j)
      = ∑ k : Fin 512, ((acc (ix2 p k) + (st (ix3 p (0 : Fin 1) k) * ea (ix2 p k) + d (ix2 p k) * bm (ix2 p (15 : Fin 16)) * c3 (ix2 p k)) * cm (ix2 p (15 : Fin 16)))
          * silu (lin (fun k' => xn (ix2 p k')) (fun k' k => w6 (ix2 k' k)) (fun k => b7 (ix1 k)) k)) * w8 (ix2 k j) := by
  simp only [k0_pay66, k0_pay64, truncf_apply, mulf_apply, addf_apply, logistic_at, castRow_apply, spreadRow_apply, shapeCast_self,
    shapeCast_a_a1_apply, broadcastTo_a1_ab_apply, dropMid_apply, dropCol_apply,
    colSlice_apply (a := 32) (b := 16) _ 15 (15 : Fin 16) rfl, DenseVec.matmul_zero_ix2 plain512]
  rfl

theorem stage_out (v : FVec Ideal S32x512 .f32) (b9 : Vec Ideal S512 .f32) :
    k0_pay1 v (k0_pay67 b9) (ix2 p j) = v (ix2 p j) + b9 (ix1 j) := by
  simp only [k0_pay1, k0_pay67, addf_apply, castRow_apply, spreadRow_apply]

end Cert.KStage

end
-- ==== Proof.KernelBlock.lean ====
/-
  What one block of 32 rows computes.

  The stages of the body feed each other: the normalised row feeds the first dense layer and the second gate; the gated
  first layer u feeds three dense layers (δ through log (1 + e^y); B and C); every slot of the new state is
  old · exp (δ · a) + (δ · B) · u; the read-out adds the sixteen products new · C onto zero; its product with the second
  gate goes through the last dense layer. Read at an entry of the block, the first result's buffer is the output row of
  the block's row p and the second's, at (p, s, j), the new state of slot s at entry j of that row: both as the row
  formulas, with the weights read off the block's own weight arrays. The second buffer is written by sixteen stores,
  one middle-axis slice each; an entry is read from the one store whose slice holds it.
-/
import proofs.«137921_j80187039416644_2_alg».proof.Proof.Gen.KernelIdeal.Frame
import proofs.«137921_j80187039416644_2_alg».proof.Proof.KernelSlots
import proofs.«137921_j80187039416644_2_alg».proof.Proof.KernelAccum
import proofs.«137921_j80187039416644_2_alg».proof.Proof.KernelStages
import proofs.«137921_j80187039416644_2_alg».proof.Proof.MambaParams

set_option maxHeartbeats 4000000
set_option maxRecDepth 16384

noncomputable section

namespace Cert.KBlock

open Cert.KernelIdeal Cert.KernelIdeal.Gen Idealize.ShloMosaic Idealize.ShloMosaic.ValueIdx
open Cert.KSlots Cert.KAccum Cert.KStage Cert.MambaRow

variable [Cert.KernelIdeal.Facts]

theorem hz1 : (![0] : Fin 1 → ℕ) = fun _ => 0 := by funext a; match a with | ⟨0, _⟩ => rfl
theorem hz2 : (![0, 0] : Fin 2 → ℕ) = fun _ => 0 := by funext a; match a with | ⟨0, _⟩ => rfl | ⟨1, _⟩ => rfl

/-- The middle-axis slice at s of a [32, 16, 512] block places its entry (p, 0, j) at (p, s, j). -/
theorem slice_idx (o : ℕ) (s : Fin 16) (hs : s.val = o) (inb : ∀ a, (![0, o, 0] : Fin 3 → ℕ) a + S32x1x512.size a ≤ S32x16x512.size a)
    (p : Fin 32) (j : Fin 512) :
    (Rect.unit (s := S32x16x512) ![0, o, 0] S32x1x512.size inb).emb (ix3 p (0 : Fin 1) j) = ix3 p s j := by
  subst hs
  funext ax
  apply Fin.ext
  match ax with
  | ⟨0, _⟩ => show 0 + 1 * p.val = p.val; omega
  | ⟨1, _⟩ => show s.val + 1 * 0 = s.val; omega
  | ⟨2, _⟩ => show 0 + 1 * j.val = j.val; omega

/-- An index of a [32, 1, 512] block is (p, 0, j). -/
theorem split31 (x : S32x1x512.Idx) : ∃ (p' : Fin 32) (j' : Fin 512), x = ix3 p' (0 : Fin 1) j' :=
  ⟨x 0, x 2, (eq_ix3 x).trans (congrArg (fun q : Fin 1 => ix3 (x 0) q (x 2)) (Fin.eq_zero _))⟩

section Block

variable (x0 : Vec Ideal S32x512 .f32) (x1 : Vec Ideal S32x16x512 .f32) (x2 x3 : Vec Ideal S512 .f32) (x4 : Vec Ideal S512x512 .bf16)
  (x5 : Vec Ideal S512 .f32) (x6 : Vec Ideal S512x512 .bf16) (x7 : Vec Ideal S512 .f32) (x8 : Vec Ideal S512x512 .bf16)
  (x9 : Vec Ideal S512 .f32) (x10 : Vec Ideal S512x512 .bf16) (x11 x12 : Vec Ideal S512 .f32) (x13 : Vec Ideal S512x16 .f32)
  (x14 : Vec Ideal S512x16 .bf16) (x15 : Vec Ideal S16 .f32) (x16 : Vec Ideal S512x16 .bf16) (x17 : Vec Ideal S16 .f32)
  (p : Fin 32) (j : Fin 512)

/-- The normalised row. -/
theorem xnE : (k0_pay2 x0 x2 x3) (ix2 p j) = xn (kparams x2 x3 x4 x5 x6 x7 x8 x9 x10 x11 x12 x13 x14 x15 x16 x17) (xrow x0 p) j := stage_xn x0 x2 x3 p j

/-- The gated first layer u, and its narrowed copy. -/
theorem c3E : (k0_pay3 x0 x2 x3 x4 x5 x12) (ix2 p j) = conv (kparams x2 x3 x4 x5 x6 x7 x8 x9 x10 x11 x12 x13 x14 x15 x16 x17) (xrow x0 p) j := by
  rw [stage_c3]
  simp only [stage_xn]
  rfl

theorem c4E : (k0_pay4 x0 x2 x3 x4 x5 x12) (ix2 p j) = conv (kparams x2 x3 x4 x5 x6 x7 x8 x9 x10 x11 x12 x13 x14 x15 x16 x17) (xrow x0 p) j := c3E x0 x2 x3 x4 x5 x6 x7 x8 x9 x10 x11 x12 x13 x14 x15 x16 x17 p j

/-- δ. -/
theorem dE : (k0_pay6 (k0_pay4 x0 x2 x3 x4 x5 x12) (k0_pay5 x10) x11) (ix2 p j) = delta (kparams x2 x3 x4 x5 x6 x7 x8 x9 x10 x11 x12 x13 x14 x15 x16 x17) (xrow x0 p) j := by
  rw [stage_d]
  simp only [stage_c4, c3E x0 x2 x3 x4 x5 x6 x7 x8 x9 x10 x11 x12 x13 x14 x15 x16 x17, stage_w5]
  rfl

/-- B and C. -/
theorem bmE (s : Fin 16) : (k0_pay7 (k0_pay4 x0 x2 x3 x4 x5 x12) x14 x15) (ix2 p s) = bm (kparams x2 x3 x4 x5 x6 x7 x8 x9 x10 x11 x12 x13 x14 x15 x16 x17) (xrow x0 p) s := by
  rw [stage_bm]
  simp only [stage_c4, c3E x0 x2 x3 x4 x5 x6 x7 x8 x9 x10 x11 x12 x13 x14 x15 x16 x17]
  rfl

theorem cmE (s : Fin 16) : (k0_pay8 (k0_pay4 x0 x2 x3 x4 x5 x12) x16 x17) (ix2 p s) = cm (kparams x2 x3 x4 x5 x6 x7 x8 x9 x10 x11 x12 x13 x14 x15 x16 x17) (xrow x0 p) s := by
  rw [stage_cm]
  simp only [stage_c4, c3E x0 x2 x3 x4 x5 x6 x7 x8 x9 x10 x11 x12 x13 x14 x15 x16 x17]
  rfl

/-- One slot of the new state, from the stages, once the slice's entry is identified with the state's. -/
theorem slotE (s : Fin 16) (st : Vec Ideal S32x1x512 .f32) (h : st (ix3 p (0 : Fin 1) j) = x1 (ix3 p s j)) :
    st (ix3 p (0 : Fin 1) j) * Ideal.exp ((k0_pay6 (k0_pay4 x0 x2 x3 x4 x5 x12) (k0_pay5 x10) x11) (ix2 p j) * (k0_pay9 x13) (ix2 j s)) + (k0_pay6 (k0_pay4 x0 x2 x3 x4 x5 x12) (k0_pay5 x10) x11) (ix2 p j) * (k0_pay7 (k0_pay4 x0 x2 x3 x4 x5 x12) x14 x15) (ix2 p s) * (k0_pay3 x0 x2 x3 x4 x5 x12) (ix2 p j)
      = ns (kparams x2 x3 x4 x5 x6 x7 x8 x9 x10 x11 x12 x13 x14 x15 x16 x17) (xrow x0 p) (strowK x1 p) s j := by
  rw [h, dE x0 x2 x3 x4 x5 x6 x7 x8 x9 x10 x11 x12 x13 x14 x15 x16 x17, bmE x0 x2 x3 x4 x5 x6 x7 x8 x9 x10 x11 x12 x13 x14 x15 x16 x17, c3E x0 x2 x3 x4 x5 x6 x7 x8 x9 x10 x11 x12 x13 x14 x15 x16 x17]
  rfl

/-- The second result's buffer after the body, at (p, s, j): the new state of slot s at entry j of row p. -/
theorem block_state (s : Fin 16) :
    out0_19 (F := Ideal) x0 x1 x2 x3 x4 x5 x6 x7 x8 x9 x10 x11 x12 x13 x14 x15 x16 x17 (ix3 p s j) = ns (kparams x2 x3 x4 x5 x6 x7 x8 x9 x10 x11 x12 x13 x14 x15 x16 x17) (xrow x0 p) (strowK x1 p) s j := by
  unfold out0_19
  simp only [View.ld_unit_zero (S := S32x512) hz2, View.ld_unit_zero (S := S512) hz1, View.ld_unit_zero (S := S512x512) hz2,
    View.ld_unit_zero (S := S512x16) hz2, View.ld_unit_zero (S := S16) hz1]
  refine View.canon_apply_of_pieces (Val := Elt Ideal)
    (fun y : S32x16x512.Idx => ns (kparams x2 x3 x4 x5 x6 x7 x8 x9 x10 x11 x12 x13 x14 x15 x16 x17) (xrow x0 (y 0)) (strowK x1 (y 0)) (y 1) (y 2)) _ ?_ (ix3 p s j)
    (cover0_19 _ _ _ _ _ _ _ _ _ _ _ _ _ _ _ _ (ix3 p s j))
  intro pc hpc x
  simp only [List.mem_cons, List.not_mem_nil, or_false] at hpc
  rcases hpc with rfl | rfl | rfl | rfl | rfl | rfl | rfl | rfl | rfl | rfl | rfl | rfl | rfl | rfl | rfl | rfl
  · obtain ⟨p', j', rfl⟩ := split31 x
    dsimp only
    rw [show r0_20.emb (ix3 p' (0 : Fin 1) j') = ix3 p' (15 : Fin 16) j' from slice_idx 15 15 rfl _ p' j']
    exact (slot15 _ _ _ _ p' j' _).trans (slotE x0 x1 x2 x3 x4 x5 x6 x7 x8 x9 x10 x11 x12 x13 x14 x15 x16 x17 p' j' 15 _ (congrArg x1 (slice_idx 15 15 rfl _ p' j')))
  · obtain ⟨p', j', rfl⟩ := split31 x
    dsimp only
    rw [show r0_19.emb (ix3 p' (0 : Fin 1) j') = ix3 p' (14 : Fin 16) j' from slice_idx 14 14 rfl _ p' j']
    exact (slot14 _ _ _ _ p' j' _).trans (slotE x0 x1 x2 x3 x4 x5 x6 x7 x8 x9 x10 x11 x12 x13 x14 x15 x16 x17 p' j' 14 _ (congrArg x1 (slice_idx 14 14 rfl _ p' j')))
  · obtain ⟨p', j', rfl⟩ := split31 x
    dsimp only
    rw [show r0_18.emb (ix3 p' (0 : Fin 1) j') = ix3 p' (13 : Fin 16) j' from slice_idx 13 13 rfl _ p' j']
    exact (slot13 _ _ _ _ p' j' _).trans (slotE x0 x1 x2 x3 x4 x5 x6 x7 x8 x9 x10 x11 x12 x13 x14 x15 x16 x17 p' j' 13 _ (congrArg x1 (slice_idx 13 13 rfl _ p' j')))
  · obtain ⟨p', j', rfl⟩ := split31 x
    dsimp only
    rw [show r0_17.emb (ix3 p' (0 : Fin 1) j') = ix3 p' (12 : Fin 16) j' from slice_idx 12 12 rfl _ p' j']
    exact (slot12 _ _ _ _ p' j' _).trans (slotE x0 x1 x2 x3 x4 x5 x6 x7 x8 x9 x10 x11 x12 x13 x14 x15 x16 x17 p' j' 12 _ (congrArg x1 (slice_idx 12 12 rfl _ p' j')))
  · obtain ⟨p', j', rfl⟩ := split31 x
    dsimp only
    rw [show r0_16.emb (ix3 p' (0 : Fin 1) j') = ix3 p' (11 : Fin 16) j' from slice_idx 11 11 rfl _ p' j']
    exact (slot11 _ _ _ _ p' j' _).trans (slotE x0 x1 x2 x3 x4 x5 x6 x7 x8 x9 x10 x11 x12 x13 x14 x15 x16 x17 p' j' 11 _ (congrArg x1 (slice_idx 11 11 rfl _ p' j')))
  · obtain ⟨p', j', rfl⟩ := split31 x
    dsimp only
    rw [show r0_15.emb (ix3 p' (0 : Fin 1) j') = ix3 p' (10 : Fin 16) j' from slice_idx 10 10 rfl _ p' j']
    exact (slot10 _ _ _ _ p' j' _).trans (slotE x0 x1 x2 x3 x4 x5 x6 x7 x8 x9 x10 x11 x12 x13 x14 x15 x16 x17 p' j' 10 _ (congrArg x1 (slice_idx 10 10 rfl _ p' j')))
  · obtain ⟨p', j', rfl⟩ := split31 x
    dsimp only
    rw [show r0_14.emb (ix3 p' (0 : Fin 1) j') = ix3 p' (9 : Fin 16) j' from slice_idx 9 9 rfl _ p' j']
    exact (slot9 _ _ _ _ p' j' _).trans (slotE x0 x1 x2 x3 x4 x5 x6 x7 x8 x9 x10 x11 x12 x13 x14 x15 x16 x17 p' j' 9 _ (congrArg x1 (slice_idx 9 9 rfl _ p' j')))
  · obtain ⟨p', j', rfl⟩ := split31 x
    dsimp only
    rw [show r0_13.emb (ix3 p' (0 : Fin 1) j') = ix3 p' (8 : Fin 16) j' from slice_idx 8 8 rfl _ p' j']
    exact (slot8 _ _ _ _ p' j' _).trans (slotE x0 x1 x2 x3 x4 x5 x6 x7 x8 x9 x10 x11 x12 x13 x14 x15 x16 x17 p' j' 8 _ (congrArg x1 (slice_idx 8 8 rfl _ p' j')))
  · obtain ⟨p', j', rfl⟩ := split31 x
    dsimp only
    rw [show r0_12.emb (ix3 p' (0 : Fin 1) j') = ix3 p' (7 : Fin 16) j' from slice_idx 7 7 rfl _ p' j']
    exact (slot7 _ _ _ _ p' j' _).trans (slotE x0 x1 x2 x3 x4 x5 x6 x7 x8 x9 x10 x11 x12 x13 x14 x15 x16 x17 p' j' 7 _ (congrArg x1 (slice_idx 7 7 rfl _ p' j')))
  · obtain ⟨p', j', rfl⟩ := split31 x
    dsimp only
    rw [show r0_11.emb (ix3 p' (0 : Fin 1) j') = ix3 p' (6 : Fin 16) j' from slice_idx 6 6 rfl _ p' j']
    exact (slot6 _ _ _ _ p' j' _).trans (slotE x0 x1 x2 x3 x4 x5 x6 x7 x8 x9 x10 x11 x12 x13 x14 x15 x16 x17 p' j' 6 _ (congrArg x1 (slice_idx 6 6 rfl _ p' j')))
  · obtain ⟨p', j', rfl⟩ := split31 x
    dsimp only
    rw [show r0_10.emb (ix3 p' (0 : Fin 1) j') = ix3 p' (5 : Fin 16) j' from slice_idx 5 5 rfl _ p' j']
    exact (slot5 _ _ _ _ p' j' _).trans (slotE x0 x1 x2 x3 x4 x5 x6 x7 x8 x9 x10 x11 x12 x13 x14 x15 x16 x17 p' j' 5 _ (congrArg x1 (slice_idx 5 5 rfl _ p' j')))
  · obtain ⟨p', j', rfl⟩ := split31 x
    dsimp only
    rw [show r0_9.emb (ix3 p' (0 : Fin 1) j') = ix3 p' (4 : Fin 16) j' from slice_idx 4 4 rfl _ p' j']
    exact (slot4 _ _ _ _ p' j' _).trans (slotE x0 x1 x2 x3 x4 x5 x6 x7 x8 x9 x10 x11 x12 x13 x14 x15 x16 x17 p' j' 4 _ (congrArg x1 (slice_idx 4 4 rfl _ p' j')))
  · obtain ⟨p', j', rfl⟩ := split31 x
    dsimp only
    rw [show r0_8.emb (ix3 p' (0 : Fin 1) j') = ix3 p' (3 : Fin 16) j' from slice_idx 3 3 rfl _ p' j']
    exact (slot3 _ _ _ _ p' j' _).trans (slotE x0 x1 x2 x3 x4 x5 x6 x7 x8 x9 x10 x11 x12 x13 x14 x15 x16 x17 p' j' 3 _ (congrArg x1 (slice_idx 3 3 rfl _ p' j')))
  · obtain ⟨p', j', rfl⟩ := split31 x
    dsimp only
    rw [show r0_7.emb (ix3 p' (0 : Fin 1) j') = ix3 p' (2 : Fin 16) j' from slice_idx 2 2 rfl _ p' j']
    exact (slot2 _ _ _ _ p' j' _).trans (slotE x0 x1 x2 x3 x4 x5 x6 x7 x8 x9 x10 x11 x12 x13 x14 x15 x16 x17 p' j' 2 _ (congrArg x1 (slice_idx 2 2 rfl _ p' j')))
  · obtain ⟨p', j', rfl⟩ := split31 x
    dsimp only
    rw [show r0_6.emb (ix3 p' (0 : Fin 1) j') = ix3 p' (1 : Fin 16) j' from slice_idx 1 1 rfl _ p' j']
    exact (slot1 _ _ _ _ p' j' _).trans (slotE x0 x1 x2 x3 x4 x5 x6 x7 x8 x9 x10 x11 x12 x13 x14 x15 x16 x17 p' j' 1 _ (congrArg x1 (slice_idx 1 1 rfl _ p' j')))
  · obtain ⟨p', j', rfl⟩ := split31 x
    dsimp only
    rw [show r0_5.emb (ix3 p' (0 : Fin 1) j') = ix3 p' (0 : Fin 16) j' from slice_idx 0 0 rfl _ p' j']
    refine (slot0 _ _ _ p' j' _ _).trans ?_
    rw [stage_ea]
    exact slotE x0 x1 x2 x3 x4 x5 x6 x7 x8 x9 x10 x11 x12 x13 x14 x15 x16 x17 p' j' 0 _ (congrArg x1 (slice_idx 0 0 rfl _ p' j'))

/-! ### The first result -/

/-- Slot s of the new state at (p, s, k), with the state's slice loaded through its rectangle. -/
theorem nsE0 (k : Fin 512) :
    View.ld x1 r0_5 (ix3 p (0 : Fin 1) k) * Ideal.exp ((k0_pay6 (k0_pay4 x0 x2 x3 x4 x5 x12) (k0_pay5 x10) x11) (ix2 p k) * (k0_pay9 x13) (ix2 k (0 : Fin 16)))
        + (k0_pay6 (k0_pay4 x0 x2 x3 x4 x5 x12) (k0_pay5 x10) x11) (ix2 p k) * (k0_pay7 (k0_pay4 x0 x2 x3 x4 x5 x12) x14 x15) (ix2 p (0 : Fin 16)) * (k0_pay3 x0 x2 x3 x4 x5 x12) (ix2 p k)
      = ns (kparams x2 x3 x4 x5 x6 x7 x8 x9 x10 x11 x12 x13 x14 x15 x16 x17) (xrow x0 p) (strowK x1 p) 0 k :=
  slotE x0 x1 x2 x3 x4 x5 x6 x7 x8 x9 x10 x11 x12 x13 x14 x15 x16 x17 p k 0 _ (congrArg x1 (slice_idx 0 0 rfl _ p k))

theorem nsE1 (k : Fin 512) :
    View.ld x1 r0_6 (ix3 p (0 : Fin 1) k) * Ideal.exp ((k0_pay6 (k0_pay4 x0 x2 x3 x4 x5 x12) (k0_pay5 x10) x11) (ix2 p k) * (k0_pay9 x13) (ix2 k (1 : Fin 16)))
        + (k0_pay6 (k0_pay4 x0 x2 x3 x4 x5 x12) (k0_pay5 x10) x11) (ix2 p k) * (k0_pay7 (k0_pay4 x0 x2 x3 x4 x5 x12) x14 x15) (ix2 p (1 : Fin 16)) * (k0_pay3 x0 x2 x3 x4 x5 x12) (ix2 p k)
      = ns (kparams x2 x3 x4 x5 x6 x7 x8 x9 x10 x11 x12 x13 x14 x15 x16 x17) (xrow x0 p) (strowK x1 p) 1 k :=
  slotE x0 x1 x2 x3 x4 x5 x6 x7 x8 x9 x10 x11 x12 x13 x14 x15 x16 x17 p k 1 _ (congrArg x1 (slice_idx 1 1 rfl _ p k))

theorem nsE2 (k : Fin 512) :
    View.ld x1 r0_7 (ix3 p (0 : Fin 1) k) * Ideal.exp ((k0_pay6 (k0_pay4 x0 x2 x3 x4 x5 x12) (k0_pay5 x10) x11) (ix2 p k) * (k0_pay9 x13) (ix2 k (2 : Fin 16)))
        + (k0_pay6 (k0_pay4 x0 x2 x3 x4 x5 x12) (k0_pay5 x10) x11) (ix2 p k) * (k0_pay7 (k0_pay4 x0 x2 x3 x4 x5 x12) x14 x15) (ix2 p (2 : Fin 16)) * (k0_pay3 x0 x2 x3 x4 x5 x12) (ix2 p k)
      = ns (kparams x2 x3 x4 x5 x6 x7 x8 x9 x10 x11 x12 x13 x14 x15 x16 x17) (xrow x0 p) (strowK x1 p) 2 k :=
  slotE x0 x1 x2 x3 x4 x5 x6 x7 x8 x9 x10 x11 x12 x13 x14 x15 x16 x17 p k 2 _ (congrArg x1 (slice_idx 2 2 rfl _ p k))

theorem nsE3 (k : Fin 512) :
    View.ld x1 r0_8 (ix3 p (0 : Fin 1) k) * Ideal.exp ((k0_pay6 (k0_pay4 x0 x2 x3 x4 x5 x12) (k0_pay5 x10) x11) (ix2 p k) * (k0_pay9 x13) (ix2 k (3 : Fin 16)))
        + (k0_pay6 (k0_pay4 x0 x2 x3 x4 x5 x12) (k0_pay5 x10) x11) (ix2 p k) * (k0_pay7 (k0_pay4 x0 x2 x3 x4 x5 x12) x14 x15) (ix2 p (3 : Fin 16)) * (k0_pay3 x0 x2 x3 x4 x5 x12) (ix2 p k)
      = ns (kparams x2 x3 x4 x5 x6 x7 x8 x9 x10 x11 x12 x13 x14 x15 x16 x17) (xrow x0 p) (strowK x1 p) 3 k :=
  slotE x0 x1 x2 x3 x4 x5 x6 x7 x8 x9 x10 x11 x12 x13 x14 x15 x16 x17 p k 3 _ (congrArg x1 (slice_idx 3 3 rfl _ p k))

theorem nsE4 (k : Fin 512) :
    View.ld x1 r0_9 (ix3 p (0 : Fin 1) k) * Ideal.exp ((k0_pay6 (k0_pay4 x0 x2 x3 x4 x5 x12) (k0_pay5 x10) x11) (ix2 p k) * (k0_pay9 x13) (ix2 k (4 : Fin 16)))
        + (k0_pay6 (k0_pay4 x0 x2 x3 x4 x5 x12) (k0_pay5 x10) x11) (ix2 p k) * (k0_pay7 (k0_pay4 x0 x2 x3 x4 x5 x12) x14 x15) (ix2 p (4 : Fin 16)) * (k0_pay3 x0 x2 x3 x4 x5 x12) (ix2 p k)
      = ns (kparams x2 x3 x4 x5 x6 x7 x8 x9 x10 x11 x12 x13 x14 x15 x16 x17) (xrow x0 p) (strowK x1 p) 4 k :=
  slotE x0 x1 x2 x3 x4 x5 x6 x7 x8 x9 x10 x11 x12 x13 x14 x15 x16 x17 p k 4 _ (congrArg x1 (slice_idx 4 4 rfl _ p k))

theorem nsE5 (k : Fin 512) :
    View.ld x1 r0_10 (ix3 p (0 : Fin 1) k) * Ideal.exp ((k0_pay6 (k0_pay4 x0 x2 x3 x4 x5 x12) (k0_pay5 x10) x11) (ix2 p k) * (k0_pay9 x13) (ix2 k (5 : Fin 16)))
        + (k0_pay6 (k0_pay4 x0 x2 x3 x4 x5 x12) (k0_pay5 x10) x11) (ix2 p k) * (k0_pay7 (k0_pay4 x0 x2 x3 x4 x5 x12) x14 x15) (ix2 p (5 : Fin 16)) * (k0_pay3 x0 x2 x3 x4 x5 x12) (ix2 p k)
      = ns (kparams x2 x3 x4 x5 x6 x7 x8 x9 x10 x11 x12 x13 x14 x15 x16 x17) (xrow x0 p) (strowK x1 p) 5 k :=
  slotE x0 x1 x2 x3 x4 x5 x6 x7 x8 x9 x10 x11 x12 x13 x14 x15 x16 x17 p k 5 _ (congrArg x1 (slice_idx 5 5 rfl _ p k))

theorem nsE6 (k : Fin 512) :
    View.ld x1 r0_11 (ix3 p (0 : Fin 1) k) * Ideal.exp ((k0_pay6 (k0_pay4 x0 x2 x3 x4 x5 x12) (k0_pay5 x10) x11) (ix2 p k) * (k0_pay9 x13) (ix2 k (6 : Fin 16)))
        + (k0_pay6 (k0_pay4 x0 x2 x3 x4 x5 x12) (k0_pay5 x10) x11) (ix2 p k) * (k0_pay7 (k0_pay4 x0 x2 x3 x4 x5 x12) x14 x15) (ix2 p (6 : Fin 16)) * (k0_pay3 x0 x2 x3 x4 x5 x12) (ix2 p k)
      = ns (kparams x2 x3 x4 x5 x6 x7 x8 x9 x10 x11 x12 x13 x14 x15 x16 x17) (xrow x0 p) (strowK x1 p) 6 k :=
  slotE x0 x1 x2 x3 x4 x5 x6 x7 x8 x9 x10 x11 x12 x13 x14 x15 x16 x17 p k 6 _ (congrArg x1 (slice_idx 6 6 rfl _ p k))

theorem nsE7 (k : Fin 512) :
    View.ld x1 r0_12 (ix3 p (0 : Fin 1) k) * Ideal.exp ((k0_pay6 (k0_pay4 x0 x2 x3 x4 x5 x12) (k0_pay5 x10) x11) (ix2 p k) * (k0_pay9 x13) (ix2 k (7 : Fin 16)))
        + (k0_pay6 (k0_pay4 x0 x2 x3 x4 x5 x12) (k0_pay5 x10) x11) (ix2 p k) * (k0_pay7 (k0_pay4 x0 x2 x3 x4 x5 x12) x14 x15) (ix2 p (7 : Fin 16)) * (k0_pay3 x0 x2 x3 x4 x5 x12) (ix2 p k)
      = ns (kparams x2 x3 x4 x5 x6 x7 x8 x9 x10 x11 x12 x13 x14 x15 x16 x17) (xrow x0 p) (strowK x1 p) 7 k :=
  slotE x0 x1 x2 x3 x4 x5 x6 x7 x8 x9 x10 x11 x12 x13 x14 x15 x16 x17 p k 7 _ (congrArg x1 (slice_idx 7 7 rfl _ p k))

theorem nsE8 (k : Fin 512) :
    View.ld x1 r0_13 (ix3 p (0 : Fin 1) k) * Ideal.exp ((k0_pay6 (k0_pay4 x0 x2 x3 x4 x5 x12) (k0_pay5 x10) x11) (ix2 p k) * (k0_pay9 x13) (ix2 k (8 : Fin 16)))
        + (k0_pay6 (k0_pay4 x0 x2 x3 x4 x5 x12) (k0_pay5 x10) x11) (ix2 p k) * (k0_pay7 (k0_pay4 x0 x2 x3 x4 x5 x12) x14 x15) (ix2 p (8 : Fin 16)) * (k0_pay3 x0 x2 x3 x4 x5 x12) (ix2 p k)
      = ns (kparams x2 x3 x4 x5 x6 x7 x8 x9 x10 x11 x12 x13 x14 x15 x16 x17) (xrow x0 p) (strowK x1 p) 8 k :=
  slotE x0 x1 x2 x3 x4 x5 x6 x7 x8 x9 x10 x11 x12 x13 x14 x15 x16 x17 p k 8 _ (congrArg x1 (slice_idx 8 8 rfl _ p k))

theorem nsE9 (k : Fin 512) :
    View.ld x1 r0_14 (ix3 p (0 : Fin 1) k) * Ideal.exp ((k0_pay6 (k0_pay4 x0 x2 x3 x4 x5 x12) (k0_pay5 x10) x11) (ix2 p k) * (k0_pay9 x13) (ix2 k (9 : Fin 16)))
        + (k0_pay6 (k0_pay4 x0 x2 x3 x4 x5 x12) (k0_pay5 x10) x11) (ix2 p k) * (k0_pay7 (k0_pay4 x0 x2 x3 x4 x5 x12) x14 x15) (ix2 p (9 : Fin 16)) * (k0_pay3 x0 x2 x3 x4 x5 x12) (ix2 p k)
      = ns (kparams x2 x3 x4 x5 x6 x7 x8 x9 x10 x11 x12 x13 x14 x15 x16 x17) (xrow x0 p) (strowK x1 p) 9 k :=
  slotE x0 x1 x2 x3 x4 x5 x6 x7 x8 x9 x10 x11 x12 x13 x14 x15 x16 x17 p k 9 _ (congrArg x1 (slice_idx 9 9 rfl _ p k))

theorem nsE10 (k : Fin 512) :
    View.ld x1 r0_15 (ix3 p (0 : Fin 1) k) * Ideal.exp ((k0_pay6 (k0_pay4 x0 x2 x3 x4 x5 x12) (k0_pay5 x10) x11) (ix2 p k) * (k0_pay9 x13) (ix2 k (10 : Fin 16)))
        + (k0_pay6 (k0_pay4 x0 x2 x3 x4 x5 x12) (k0_pay5 x10) x11) (ix2 p k) * (k0_pay7 (k0_pay4 x0 x2 x3 x4 x5 x12) x14 x15) (ix2 p (10 : Fin 16)) * (k0_pay3 x0 x2 x3 x4 x5 x12) (ix2 p k)
      = ns (kparams x2 x3 x4 x5 x6 x7 x8 x9 x10 x11 x12 x13 x14 x15 x16 x17) (xrow x0 p) (strowK x1 p) 10 k :=
  slotE x0 x1 x2 x3 x4 x5 x6 x7 x8 x9 x10 x11 x12 x13 x14 x15 x16 x17 p k 10 _ (congrArg x1 (slice_idx 10 10 rfl _ p k))

theorem nsE11 (k : Fin 512) :
    View.ld x1 r0_16 (ix3 p (0 : Fin 1) k) * Ideal.exp ((k0_pay6 (k0_pay4 x0 x2 x3 x4 x5 x12) (k0_pay5 x10) x11) (ix2 p k) * (k0_pay9 x13) (ix2 k (11 : Fin 16)))
        + (k0_pay6 (k0_pay4 x0 x2 x3 x4 x5 x12) (k0_pay5 x10) x11) (ix2 p k) * (k0_pay7 (k0_pay4 x0 x2 x3 x4 x5 x12) x14 x15) (ix2 p (11 : Fin 16)) * (k0_pay3 x0 x2 x3 x4 x5 x12) (ix2 p k)
      = ns (kparams x2 x3 x4 x5 x6 x7 x8 x9 x10 x11 x12 x13 x14 x15 x16 x17) (xrow x0 p) (strowK x1 p) 11 k :=
  slotE x0 x1 x2 x3 x4 x5 x6 x7 x8 x9 x10 x11 x12 x13 x14 x15 x16 x17 p k 11 _ (congrArg x1 (slice_idx 11 11 rfl _ p k))

theorem nsE12 (k : Fin 512) :
    View.ld x1 r0_17 (ix3 p (0 : Fin 1) k) * Ideal.exp ((k0_pay6 (k0_pay4 x0 x2 x3 x4 x5 x12) (k0_pay5 x10) x11) (ix2 p k) * (k0_pay9 x13) (ix2 k (12 : Fin 16)))
        + (k0_pay6 (k0_pay4 x0 x2 x3 x4 x5 x12) (k0_pay5 x10) x11) (ix2 p k) * (k0_pay7 (k0_pay4 x0 x2 x3 x4 x5 x12) x14 x15) (ix2 p (12 : Fin 16)) * (k0_pay3 x0 x2 x3 x4 x5 x12) (ix2 p k)
      = ns (kparams x2 x3 x4 x5 x6 x7 x8 x9 x10 x11 x12 x13 x14 x15 x16 x17) (xrow x0 p) (strowK x1 p) 12 k :=
  slotE x0 x1 x2 x3 x4 x5 x6 x7 x8 x9 x10 x11 x12 x13 x14 x15 x16 x17 p k 12 _ (congrArg x1 (slice_idx 12 12 rfl _ p k))

theorem nsE13 (k : Fin 512) :
    View.ld x1 r0_18 (ix3 p (0 : Fin 1) k) * Ideal.exp ((k0_pay6 (k0_pay4 x0 x2 x3 x4 x5 x12) (k0_pay5 x10) x11) (ix2 p k) * (k0_pay9 x13) (ix2 k (13 : Fin 16)))
        + (k0_pay6 (k0_pay4 x0 x2 x3 x4 x5 x12) (k0_pay5 x10) x11) (ix2 p k) * (k0_pay7 (k0_pay4 x0 x2 x3 x4 x5 x12) x14 x15) (ix2 p (13 : Fin 16)) * (k0_pay3 x0 x2 x3 x4 x5 x12) (ix2 p k)
      = ns (kparams x2 x3 x4 x5 x6 x7 x8 x9 x10 x11 x12 x13 x14 x15 x16 x17) (xrow x0 p) (strowK x1 p) 13 k :=
  slotE x0 x1 x2 x3 x4 x5 x6 x7 x8 x9 x10 x11 x12 x13 x14 x15 x16 x17 p k 13 _ (congrArg x1 (slice_idx 13 13 rfl _ p k))

theorem nsE14 (k : Fin 512) :
    View.ld x1 r0_19 (ix3 p (0 : Fin 1) k) * Ideal.exp ((k0_pay6 (k0_pay4 x0 x2 x3 x4 x5 x12) (k0_pay5 x10) x11) (ix2 p k) * (k0_pay9 x13) (ix2 k (14 : Fin 16)))
        + (k0_pay6 (k0_pay4 x0 x2 x3 x4 x5 x12) (k0_pay5 x10) x11) (ix2 p k) * (k0_pay7 (k0_pay4 x0 x2 x3 x4 x5 x12) x14 x15) (ix2 p (14 : Fin 16)) * (k0_pay3 x0 x2 x3 x4 x5 x12) (ix2 p k)
      = ns (kparams x2 x3 x4 x5 x6 x7 x8 x9 x10 x11 x12 x13 x14 x15 x16 x17) (xrow x0 p) (strowK x1 p) 14 k :=
  slotE x0 x1 x2 x3 x4 x5 x6 x7 x8 x9 x10 x11 x12 x13 x14 x15 x16 x17 p k 14 _ (congrArg x1 (slice_idx 14 14 rfl _ p k))

theorem nsE15 (k : Fin 512) :
    View.ld x1 r0_20 (ix3 p (0 : Fin 1) k) * Ideal.exp ((k0_pay6 (k0_pay4 x0 x2 x3 x4 x5 x12) (k0_pay5 x10) x11) (ix2 p k) * (k0_pay9 x13) (ix2 k (15 : Fin 16)))
        + (k0_pay6 (k0_pay4 x0 x2 x3 x4 x5 x12) (k0_pay5 x10) x11) (ix2 p k) * (k0_pay7 (k0_pay4 x0 x2 x3 x4 x5 x12) x14 x15) (ix2 p (15 : Fin 16)) * (k0_pay3 x0 x2 x3 x4 x5 x12) (ix2 p k)
      = ns (kparams x2 x3 x4 x5 x6 x7 x8 x9 x10 x11 x12 x13 x14 x15 x16 x17) (xrow x0 p) (strowK x1 p) 15 k :=
  slotE x0 x1 x2 x3 x4 x5 x6 x7 x8 x9 x10 x11 x12 x13 x14 x15 x16 x17 p k 15 _ (congrArg x1 (slice_idx 15 15 rfl _ p k))

/-- The first result's buffer after the body, at (p, j): the output row of row p. -/
theorem block_out :
    out0_18 (F := Ideal) x0 x1 x2 x3 x4 x5 x6 x7 x8 x9 x10 x11 x12 x13 x14 x15 x16 x17 (ix2 p j) = out (kparams x2 x3 x4 x5 x6 x7 x8 x9 x10 x11 x12 x13 x14 x15 x16 x17) (xrow x0 p) (strowK x1 p) j := by
  unfold out0_18
  simp only [View.ld_unit_zero (S := S32x512) hz2, View.ld_unit_zero (S := S512) hz1, View.ld_unit_zero (S := S512x512) hz2,
    View.ld_unit_zero (S := S512x16) hz2, View.ld_unit_zero (S := S16) hz1]
  rw [View.canon_unit_zero hz2]
  rw [stage_out, stage_fin]
  simp only [acc62, acc54, acc46, acc38, acc32, acc26, acc20, acc16, acc_zero, stage_ea15, stage_ea,
    nsE0 x0 x1 x2 x3 x4 x5 x6 x7 x8 x9 x10 x11 x12 x13 x14 x15 x16 x17 p, nsE1 x0 x1 x2 x3 x4 x5 x6 x7 x8 x9 x10 x11 x12 x13 x14 x15 x16 x17 p, nsE2 x0 x1 x2 x3 x4 x5 x6 x7 x8 x9 x10 x11 x12 x13 x14 x15 x16 x17 p, nsE3 x0 x1 x2 x3 x4 x5 x6 x7 x8 x9 x10 x11 x12 x13 x14 x15 x16 x17 p, nsE4 x0 x1 x2 x3 x4 x5 x6 x7 x8 x9 x10 x11 x12 x13 x14 x15 x16 x17 p, nsE5 x0 x1 x2 x3 x4 x5 x6 x7 x8 x9 x10 x11 x12 x13 x14 x15 x16 x17 p, nsE6 x0 x1 x2 x3 x4 x5 x6 x7 x8 x9 x10 x11 x12 x13 x14 x15 x16 x17 p, nsE7 x0 x1 x2 x3 x4 x5 x6 x7 x8 x9 x10 x11 x12 x13 x14 x15 x16 x17 p, nsE8 x0 x1 x2 x3 x4 x5 x6 x7 x8 x9 x10 x11 x12 x13 x14 x15 x16 x17 p, nsE9 x0 x1 x2 x3 x4 x5 x6 x7 x8 x9 x10 x11 x12 x13 x14 x15 x16 x17 p, nsE10 x0 x1 x2 x3 x4 x5 x6 x7 x8 x9 x10 x11 x12 x13 x14 x15 x16 x17 p, nsE11 x0 x1 x2 x3 x4 x5 x6 x7 x8 x9 x10 x11 x12 x13 x14 x15 x16 x17 p, nsE12 x0 x1 x2 x3 x4 x5 x6 x7 x8 x9 x10 x11 x12 x13 x14 x15 x16 x17 p, nsE13 x0 x1 x2 x3 x4 x5 x6 x7 x8 x9 x10 x11 x12 x13 x14 x15 x16 x17 p, nsE14 x0 x1 x2 x3 x4 x5 x6 x7 x8 x9 x10 x11 x12 x13 x14 x15 x16 x17 p, nsE15 x0 x1 x2 x3 x4 x5 x6 x7 x8 x9 x10 x11 x12 x13 x14 x15 x16 x17 p,
    cmE x0 x2 x3 x4 x5 x6 x7 x8 x9 x10 x11 x12 x13 x14 x15 x16 x17 p, stage_xn]
  show (∑ k : Fin 512, _) + _
      = (∑ k : Fin 512, (xssm (kparams x2 x3 x4 x5 x6 x7 x8 x9 x10 x11 x12 x13 x14 x15 x16 x17) (xrow x0 p) (strowK x1 p) k * gate (kparams x2 x3 x4 x5 x6 x7 x8 x9 x10 x11 x12 x13 x14 x15 x16 x17) (xrow x0 p) k) * x8 (ix2 k j)) + x9 (ix1 j)
  refine congrArg (· + x9 (ix1 j)) (Finset.sum_congr rfl fun k _ => ?_)
  have h16 := sum16 (fun s : Fin 16 => ns (kparams x2 x3 x4 x5 x6 x7 x8 x9 x10 x11 x12 x13 x14 x15 x16 x17) (xrow x0 p) (strowK x1 p) s k * cm (kparams x2 x3 x4 x5 x6 x7 x8 x9 x10 x11 x12 x13 x14 x15 x16 x17) (xrow x0 p) s)
  dsimp only [z32] at h16
  rw [h16]
  rfl

end Block

end Cert.KBlock

end
-- ==== Proof.KernelWholeHost.lean ====
/-
  What the region finds in the arrays that host operations wrote before it.

  Six weight matrices reach the region transposed (and with their float format changed, which is the identity on the
  extended reals): entry (k, j) of the window's array is entry (j, k) of the argument. The three-tap filter reaches it as
  its centre tap: entry j is entry (j, 0, 1) of the argument. The carried state reaches it with its last two axes
  exchanged: entry (r, s, k) is entry (r, k, s) of the argument.
-/
import proofs.«137921_j80187039416644_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelWhole

open Idealize.ShloMosaic Idealize.ShloMosaic.ValueIdx Idealize.ShloMosaic.TcCoe
open Cert.KernelIdeal Cert.KernelIdeal.Gen

variable (m : (ℓ : Loc nD τ sig) → Buf (Elt Ideal) ℓ)

/-! ## Transposes read at an index -/

/-- The transpose of a square matrix at (k, j) is the matrix at (j, k). -/
theorem transpose_sq_apply (x : S512x512.Idx → EReal) (k j : Fin 512) :
    transpose S512x512 [1, 0] x Facts₀.transposes_S512x512_S512x512_1_0 (ix2 k j) = x (ix2 j k) :=
  transpose_apply _ x _ (ix2 k j) (ix2 j k) fun b => by
    match b with
    | ⟨0, _⟩ => rfl
    | ⟨1, _⟩ => rfl

/-- The transpose of a 16 × 512 matrix at (k, s) is the matrix at (s, k). -/
theorem transpose_thin_apply (x : S16x512.Idx → EReal) (k : Fin 512) (s : Fin 16) :
    transpose S512x16 [1, 0] x Facts₀.transposes_S16x512_S512x16_1_0 (ix2 k s) = x (ix2 s k) :=
  transpose_apply _ x _ (ix2 k s) (ix2 s k) fun b => by
    match b with
    | ⟨0, _⟩ => rfl
    | ⟨1, _⟩ => rfl

/-- Exchanging the last two axes of a state array: entry (r, s, k) of the result is entry (r, k, s) of the operand. -/
theorem transpose_state_apply (x : S8192x512x16.Idx → EReal) (r : Fin 8192) (s : Fin 16) (k : Fin 512) :
    transpose S8192x16x512 [0, 2, 1] x Facts₀.transposes_S8192x512x16_S8192x16x512_0_2_1 (ix3 r s k) = x (ix3 r k s) :=
  transpose_apply _ x _ (ix3 r s k) (ix3 r k s) fun b => by
    match b with
    | ⟨0, _⟩ => rfl
    | ⟨1, _⟩ => rfl
    | ⟨2, _⟩ => rfl

/-- And back: entry (r, k, s) of the result is entry (r, s, k) of the operand. -/
theorem transpose_back_apply (x : S8192x16x512.Idx → EReal) (r : Fin 8192) (k : Fin 512) (s : Fin 16) :
    transpose S8192x512x16 [0, 2, 1] x Facts₀.transposes_S8192x16x512_S8192x512x16_0_2_1 (ix3 r k s) = x (ix3 r s k) :=
  transpose_apply _ x _ (ix3 r k s) (ix3 r s k) fun b => by
    match b with
    | ⟨0, _⟩ => rfl
    | ⟨1, _⟩ => rfl
    | ⟨2, _⟩ => rfl

/-! ## The arrays the host operations wrote, entry by entry -/

/-- The first dense layer's weight as the region finds it: transposed. -/
theorem V_v1_apply (c : Dev nD) (k j : Fin 512) :
    (V m c main_v1 : Vec Ideal S512x512 .bf16) (ix2 k j) = (m ((c : Thread nD τ).loc main_arg4) : Vec Ideal S512x512 .f32) (ix2 j k) := by
  have e : (V m c main_v1 : Vec Ideal S512x512 .bf16)
      = truncf (F := Ideal) .bf16 (transpose S512x512 [1, 0] (m ((c : Thread nD τ).loc main_arg4) : Vec Ideal S512x512 .f32)
          Facts₀.transposes_S512x512_S512x512_1_0) Facts₀.bitsLt_bf16_f32 := by
    show StableHlo.after hostOps0 (fun b => m (c, b)) (Proc.devRef .tc main_v1) = _
    after_results
  rw [e]
  exact transpose_sq_apply _ k j

/-- The gate layer's weight: transposed. -/
theorem V_v3_apply (c : Dev nD) (k j : Fin 512) :
    (V m c main_v3 : Vec Ideal S512x512 .bf16) (ix2 k j) = (m ((c : Thread nD τ).loc main_arg6) : Vec Ideal S512x512 .f32) (ix2 j k) := by
  have e : (V m c main_v3 : Vec Ideal S512x512 .bf16)
      = truncf (F := Ideal) .bf16 (transpose S512x512 [1, 0] (m ((c : Thread nD τ).loc main_arg6) : Vec Ideal S512x512 .f32)
          Facts₀.transposes_S512x512_S512x512_1_0) Facts₀.bitsLt_bf16_f32 := by
    show StableHlo.after hostOps0 (fun b => m (c, b)) (Proc.devRef .tc main_v3) = _
    after_results
  rw [e]
  exact transpose_sq_apply _ k j

/-- The last dense layer's weight: transposed. -/
theorem V_v5_apply (c : Dev nD) (k j : Fin 512) :
    (V m c main_v5 : Vec Ideal S512x512 .bf16) (ix2 k j) = (m ((c : Thread nD τ).loc main_arg8) : Vec Ideal S512x512 .f32) (ix2 j k) := by
  have e : (V m c main_v5 : Vec Ideal S512x512 .bf16)
      = truncf (F := Ideal) .bf16 (transpose S512x512 [1, 0] (m ((c : Thread nD τ).loc main_arg8) : Vec Ideal S512x512 .f32)
          Facts₀.transposes_S512x512_S512x512_1_0) Facts₀.bitsLt_bf16_f32 := by
    show StableHlo.after hostOps0 (fun b => m (c, b)) (Proc.devRef .tc main_v5) = _
    after_results
  rw [e]
  exact transpose_sq_apply _ k j

/-- The step-size layer's weight: transposed. -/
theorem V_v7_apply (c : Dev nD) (k j : Fin 512) :
    (V m c main_v7 : Vec Ideal S512x512 .bf16) (ix2 k j) = (m ((c : Thread nD τ).loc main_arg16) : Vec Ideal S512x512 .f32) (ix2 j k) := by
  have e : (V m c main_v7 : Vec Ideal S512x512 .bf16)
      = truncf (F := Ideal) .bf16 (transpose S512x512 [1, 0] (m ((c : Thread nD τ).loc main_arg16) : Vec Ideal S512x512 .f32)
          Facts₀.transposes_S512x512_S512x512_1_0) Facts₀.bitsLt_bf16_f32 := by
    show StableHlo.after hostOps0 (fun b => m (c, b)) (Proc.devRef .tc main_v7) = _
    after_results
  rw [e]
  exact transpose_sq_apply _ k j

/-- The input-projection weight (16 outputs): transposed. -/
theorem V_v9_apply (c : Dev nD) (k : Fin 512) (s : Fin 16) :
    (V m c main_v9 : Vec Ideal S512x16 .bf16) (ix2 k s) = (m ((c : Thread nD τ).loc main_arg12) : Vec Ideal S16x512 .f32) (ix2 s k) := by
  have e : (V m c main_v9 : Vec Ideal S512x16 .bf16)
      = truncf (F := Ideal) .bf16 (transpose S512x16 [1, 0] (m ((c : Thread nD τ).loc main_arg12) : Vec Ideal S16x512 .f32)
          Facts₀.transposes_S16x512_S512x16_1_0) Facts₀.bitsLt_bf16_f32 := by
    show StableHlo.after hostOps0 (fun b => m (c, b)) (Proc.devRef .tc main_v9) = _
    after_results
  rw [e]
  exact transpose_thin_apply _ k s

/-- The read-out-projection weight (16 outputs): transposed. -/
theorem V_v11_apply (c : Dev nD) (k : Fin 512) (s : Fin 16) :
    (V m c main_v11 : Vec Ideal S512x16 .bf16) (ix2 k s) = (m ((c : Thread nD τ).loc main_arg14) : Vec Ideal S16x512 .f32) (ix2 s k) := by
  have e : (V m c main_v11 : Vec Ideal S512x16 .bf16)
      = truncf (F := Ideal) .bf16 (transpose S512x16 [1, 0] (m ((c : Thread nD τ).loc main_arg14) : Vec Ideal S16x512 .f32)
          Facts₀.transposes_S16x512_S512x16_1_0) Facts₀.bitsLt_bf16_f32 := by
    show StableHlo.after hostOps0 (fun b => m (c, b)) (Proc.devRef .tc main_v11) = _
    after_results
  rw [e]
  exact transpose_thin_apply _ k s

/-- The carried state as the region finds it: entry (r, s, k) is the argument's entry (r, k, s). -/
theorem V_v14_apply (c : Dev nD) (r : Fin 8192) (s : Fin 16) (k : Fin 512) :
    (V m c main_v14 : Vec Ideal S8192x16x512 .f32) (ix3 r s k) = (m ((c : Thread nD τ).loc main_arg1) : Vec Ideal S8192x512x16 .f32) (ix3 r k s) := by
  have e : (V m c main_v14 : Vec Ideal S8192x16x512 .f32)
      = transpose S8192x16x512 [0, 2, 1] (m ((c : Thread nD τ).loc main_arg1) : Vec Ideal S8192x512x16 .f32)
          Facts₀.transposes_S8192x512x16_S8192x16x512_0_2_1 := by
    show StableHlo.after hostOps0 (fun b => m (c, b)) (Proc.devRef .tc main_v14) = _
    after_results
  rw [e]
  exact transpose_state_apply _ r s k

/-- The filter as the region finds it: its centre tap, entry (j, 0, 1) of the argument. -/
theorem V_v13_apply (c : Dev nD) (j : Fin 512) :
    (V m c main_v13 : Vec Ideal S512 .f32) (ix1 j) = (m ((c : Thread nD τ).loc main_arg10) : Vec Ideal S512x1x3 .f32) (ix3 j (0 : Fin 1) (1 : Fin 3)) := by
  have e : (V m c main_v13 : Vec Ideal S512 .f32)
      = shapeCast S512 (extractStridedSlice S512x1x1 ![0, 0, 1] (m ((c : Thread nD τ).loc main_arg10) : Vec Ideal S512x1x3 .f32)
          Facts₀.slices_S512x1x3_S512x1x1_0_0_1) Facts₀.shapeCasts_S512x1x1_S512 := by
    show StableHlo.after hostOps0 (fun b => m (c, b)) (Proc.devRef .tc main_v13) = _
    after_results
    rfl
  rw [e]
  refine (shapeCast_apply _ _ (ix1 j) (ix3 j (0 : Fin 1) (0 : Fin 1)) ?_).trans ?_
  · rw [Shape.rowMajor_val_three, Shape.rowMajor_val_one]
    show (j.val * 1 + 0) * 1 + 0 = j.val
    omega
  · refine extractStridedSlice_apply _ _ _ (ix3 j (0 : Fin 1) (0 : Fin 1)) (ix3 j (0 : Fin 1) (1 : Fin 3)) fun a => ?_
    match a with
    | ⟨0, _⟩ => show j.val = 0 + j.val; omega
    | ⟨1, _⟩ => rfl
    | ⟨2, _⟩ => rfl

end Cert.KernelWhole

end
-- ==== Proof.KernelWholeIndex.lean ====
/-
  Where a block sits in its array.

  The grid has 256 points. At point t the input block, the state block and the two result blocks are rows 32 t … 32 t + 31
  of their arrays, every other axis whole; each weight's block is its whole array. The printed index maps are read once,
  over all 256 points, and turned into the array index of each block entry.
-/
import proofs.«137921_j80187039416644_2_alg».proof.Proof.Gen.KernelIdeal.Frame
import Idealize.ShloMosaic.Lib.ValueIdx

noncomputable section

namespace Cert.KernelWhole

open Idealize.ShloMosaic Idealize.ShloMosaic.ValueIdx Idealize.ShloMosaic.TcCoe
open Cert.KernelIdeal Cert.KernelIdeal.Gen

/-- The four row-blocked windows: at point t the block index is t on the row axis and 0 on the others. -/
theorem idx_rows : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_18.index t (0 : Fin 2) = t.val ∧ win0_18.index t (1 : Fin 2) = 0
    ∧ win0_19.index t (0 : Fin 3) = t.val ∧ win0_19.index t (1 : Fin 3) = 0 ∧ win0_19.index t (2 : Fin 3) = 0 :=
  (by decide +kernel : ∀ t : Fin grid0.N, _)

/-- The weights' windows: the block index is 0 on every axis at every point. -/
theorem idx_whole : ∀ t : Fin cfg0.N,
    win0_2.index t (0 : Fin 1) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0
    ∧ win0_12.index t (0 : Fin 1) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 1) = 0
    ∧ win0_16.index t (0 : Fin 2) = 0
    ∧ win0_16.index t (1 : Fin 2) = 0
    ∧ win0_17.index t (0 : Fin 1) = 0 :=
  (by decide +kernel : ∀ t : Fin grid0.N, _)

/-- A point is below 256. -/
theorem point_lt (t : Fin cfg0.N) : t.val < 256 := by
  have h : cfg0.N = 256 := N_0
  have := t.isLt
  omega

/-! ## The row-blocked windows -/

/-- Entry (p, k) of the input block at point t is entry (32 t + p, k) of the input array. -/
theorem emb0 (t : Fin cfg0.N) (p : Fin 32) (k : Fin 512) (r : Fin 8192) (hr : r.val = 32 * t.val + p.val) :
    (((cfg0.win 0).blk t).view.emb (ix2 p k) : S8192x512.Idx) = ix2 r k := by
  obtain ⟨e0, e1, -⟩ := idx_rows t
  funext a; apply Fin.ext
  match a with
  | ⟨0, _⟩ => show win0_0.index t (0 : Fin 2) * 32 + 1 * p.val = r.val; rw [e0, hr]; omega
  | ⟨1, _⟩ => show win0_0.index t (1 : Fin 2) * 512 + 1 * k.val = k.val; rw [e1]; omega

/-- Entry (p, s, k) of the state block at point t is entry (32 t + p, s, k) of the state array. -/
theorem emb1 (t : Fin cfg0.N) (p : Fin 32) (s : Fin 16) (k : Fin 512) (r : Fin 8192) (hr : r.val = 32 * t.val + p.val) :
    (((cfg0.win 1).blk t).view.emb (ix3 p s k) : S8192x16x512.Idx) = ix3 r s k := by
  obtain ⟨-, -, e0, e1, e2, -⟩ := idx_rows t
  funext a; apply Fin.ext
  match a with
  | ⟨0, _⟩ => show win0_1.index t (0 : Fin 3) * 32 + 1 * p.val = r.val; rw [e0, hr]; omega
  | ⟨1, _⟩ => show win0_1.index t (1 : Fin 3) * 16 + 1 * s.val = s.val; rw [e1]; omega
  | ⟨2, _⟩ => show win0_1.index t (2 : Fin 3) * 512 + 1 * k.val = k.val; rw [e2]; omega

/-- Entry (p, j) of the first result block at point t is entry (32 t + p, j) of the first result array. -/
theorem emb18 (t : Fin cfg0.N) (p : Fin 32) (j : Fin 512) (r : Fin 8192) (hr : r.val = 32 * t.val + p.val) :
    (((cfg0.win 18).blk t).view.emb (ix2 p j) : S8192x512.Idx) = ix2 r j := by
  obtain ⟨-, -, -, -, -, e0, e1, -⟩ := idx_rows t
  funext a; apply Fin.ext
  match a with
  | ⟨0, _⟩ => show win0_18.index t (0 : Fin 2) * 32 + 1 * p.val = r.val; rw [e0, hr]; omega
  | ⟨1, _⟩ => show win0_18.index t (1 : Fin 2) * 512 + 1 * j.val = j.val; rw [e1]; omega

/-- Entry (p, s, j) of the second result block at point t is entry (32 t + p, s, j) of the second result array. -/
theorem emb19 (t : Fin cfg0.N) (p : Fin 32) (s : Fin 16) (j : Fin 512) (r : Fin 8192) (hr : r.val = 32 * t.val + p.val) :
    (((cfg0.win 19).blk t).view.emb (ix3 p s j) : S8192x16x512.Idx) = ix3 r s j := by
  obtain ⟨-, -, -, -, -, -, -, e0, e1, e2⟩ := idx_rows t
  funext a; apply Fin.ext
  match a with
  | ⟨0, _⟩ => show win0_19.index t (0 : Fin 3) * 32 + 1 * p.val = r.val; rw [e0, hr]; omega
  | ⟨1, _⟩ => show win0_19.index t (1 : Fin 3) * 16 + 1 * s.val = s.val; rw [e1]; omega
  | ⟨2, _⟩ => show win0_19.index t (2 : Fin 3) * 512 + 1 * j.val = j.val; rw [e2]; omega

/-! ## The weights' windows: a block entry is the same entry of the array -/

theorem emb2 (t : Fin cfg0.N) (j : Fin 512) :
    (((cfg0.win 2).blk t).view.emb (ix1 j) : S512.Idx) = ix1 j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_2.index t (0 : Fin 1) * 512 + 1 * j.val = j.val; rw [z2_0]; omega

theorem emb3 (t : Fin cfg0.N) (j : Fin 512) :
    (((cfg0.win 3).blk t).view.emb (ix1 j) : S512.Idx) = ix1 j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_3.index t (0 : Fin 1) * 512 + 1 * j.val = j.val; rw [z3_0]; omega

theorem emb4 (t : Fin cfg0.N) (k : Fin 512) (j : Fin 512) :
    (((cfg0.win 4).blk t).view.emb (ix2 k j) : S512x512.Idx) = ix2 k j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_4.index t (0 : Fin 2) * 512 + 1 * k.val = k.val; rw [z4_0]; omega
  | ⟨1, _⟩ => show win0_4.index t (1 : Fin 2) * 512 + 1 * j.val = j.val; rw [z4_1]; omega

theorem emb5 (t : Fin cfg0.N) (j : Fin 512) :
    (((cfg0.win 5).blk t).view.emb (ix1 j) : S512.Idx) = ix1 j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_5.index t (0 : Fin 1) * 512 + 1 * j.val = j.val; rw [z5_0]; omega

theorem emb6 (t : Fin cfg0.N) (k : Fin 512) (j : Fin 512) :
    (((cfg0.win 6).blk t).view.emb (ix2 k j) : S512x512.Idx) = ix2 k j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_6.index t (0 : Fin 2) * 512 + 1 * k.val = k.val; rw [z6_0]; omega
  | ⟨1, _⟩ => show win0_6.index t (1 : Fin 2) * 512 + 1 * j.val = j.val; rw [z6_1]; omega

theorem emb7 (t : Fin cfg0.N) (j : Fin 512) :
    (((cfg0.win 7).blk t).view.emb (ix1 j) : S512.Idx) = ix1 j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_7.index t (0 : Fin 1) * 512 + 1 * j.val = j.val; rw [z7_0]; omega

theorem emb8 (t : Fin cfg0.N) (k : Fin 512) (j : Fin 512) :
    (((cfg0.win 8).blk t).view.emb (ix2 k j) : S512x512.Idx) = ix2 k j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_8.index t (0 : Fin 2) * 512 + 1 * k.val = k.val; rw [z8_0]; omega
  | ⟨1, _⟩ => show win0_8.index t (1 : Fin 2) * 512 + 1 * j.val = j.val; rw [z8_1]; omega

theorem emb9 (t : Fin cfg0.N) (j : Fin 512) :
    (((cfg0.win 9).blk t).view.emb (ix1 j) : S512.Idx) = ix1 j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_9.index t (0 : Fin 1) * 512 + 1 * j.val = j.val; rw [z9_0]; omega

theorem emb10 (t : Fin cfg0.N) (k : Fin 512) (j : Fin 512) :
    (((cfg0.win 10).blk t).view.emb (ix2 k j) : S512x512.Idx) = ix2 k j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_10.index t (0 : Fin 2) * 512 + 1 * k.val = k.val; rw [z10_0]; omega
  | ⟨1, _⟩ => show win0_10.index t (1 : Fin 2) * 512 + 1 * j.val = j.val; rw [z10_1]; omega

theorem emb11 (t : Fin cfg0.N) (j : Fin 512) :
    (((cfg0.win 11).blk t).view.emb (ix1 j) : S512.Idx) = ix1 j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_11.index t (0 : Fin 1) * 512 + 1 * j.val = j.val; rw [z11_0]; omega

theorem emb12 (t : Fin cfg0.N) (j : Fin 512) :
    (((cfg0.win 12).blk t).view.emb (ix1 j) : S512.Idx) = ix1 j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_12.index t (0 : Fin 1) * 512 + 1 * j.val = j.val; rw [z12_0]; omega

theorem emb13 (t : Fin cfg0.N) (k : Fin 512) (j : Fin 16) :
    (((cfg0.win 13).blk t).view.emb (ix2 k j) : S512x16.Idx) = ix2 k j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_13.index t (0 : Fin 2) * 512 + 1 * k.val = k.val; rw [z13_0]; omega
  | ⟨1, _⟩ => show win0_13.index t (1 : Fin 2) * 16 + 1 * j.val = j.val; rw [z13_1]; omega

theorem emb14 (t : Fin cfg0.N) (k : Fin 512) (j : Fin 16) :
    (((cfg0.win 14).blk t).view.emb (ix2 k j) : S512x16.Idx) = ix2 k j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_14.index t (0 : Fin 2) * 512 + 1 * k.val = k.val; rw [z14_0]; omega
  | ⟨1, _⟩ => show win0_14.index t (1 : Fin 2) * 16 + 1 * j.val = j.val; rw [z14_1]; omega

theorem emb15 (t : Fin cfg0.N) (j : Fin 16) :
    (((cfg0.win 15).blk t).view.emb (ix1 j) : S16.Idx) = ix1 j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_15.index t (0 : Fin 1) * 16 + 1 * j.val = j.val; rw [z15_0]; omega

theorem emb16 (t : Fin cfg0.N) (k : Fin 512) (j : Fin 16) :
    (((cfg0.win 16).blk t).view.emb (ix2 k j) : S512x16.Idx) = ix2 k j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_16.index t (0 : Fin 2) * 512 + 1 * k.val = k.val; rw [z16_0]; omega
  | ⟨1, _⟩ => show win0_16.index t (1 : Fin 2) * 16 + 1 * j.val = j.val; rw [z16_1]; omega

theorem emb17 (t : Fin cfg0.N) (j : Fin 16) :
    (((cfg0.win 17).blk t).view.emb (ix1 j) : S16.Idx) = ix1 j := by
  obtain ⟨z2_0, z3_0, z4_0, z4_1, z5_0, z6_0, z6_1, z7_0, z8_0, z8_1, z9_0, z10_0, z10_1, z11_0, z12_0, z13_0, z13_1, z14_0, z14_1, z15_0, z16_0, z16_1, z17_0⟩ := idx_whole t
  funext a; apply Fin.ext
  match a with
  | ⟨0, _⟩ => show win0_17.index t (0 : Fin 1) * 16 + 1 * j.val = j.val; rw [z17_0]; omega

end Cert.KernelWhole

end
-- ==== Proof.MambaWhole.lean ====
/-
  The two results as whole arrays.

  Row r of the first result is the output row of row r of `x` and row r of the state; entry (r, j, s) of the second is
  the new state of slot s at entry j for the same row. The weights are the reference's arguments, read transposed.
-/
import proofs.«137921_j80187039416644_2_alg».proof.Proof.MambaParams

noncomputable section

namespace Cert.MambaRow

open Idealize.ShloMosaic Idealize.ShloMosaic.ValueIdx

/-- The output array [8192, 512] of the eighteen arguments. -/
def G0 (x0 : A2 8192 512) (x1 : A3 8192 512 16) (x2 x3 : A1 512) (x4 : A2 512 512) (x5 : A1 512) (x6 : A2 512 512)
    (x7 : A1 512) (x8 : A2 512 512) (x9 : A1 512) (x10 : A3 512 1 3) (x11 : A2 512 16) (x12 : A2 16 512) (x13 : A1 16)
    (x14 : A2 16 512) (x15 : A1 16) (x16 : A2 512 512) (x17 : A1 512) : A2 8192 512 :=
  fun i => out (rparams x2 x3 x4 x5 x6 x7 x8 x9 x10 x11 x12 x13 x14 x15 x16 x17) (xrow x0 (i 0)) (strowR x1 (i 0)) (i 1)

/-- The new state [8192, 512, 16] of the eighteen arguments. -/
def G1 (x0 : A2 8192 512) (x1 : A3 8192 512 16) (x2 x3 : A1 512) (x4 : A2 512 512) (x5 : A1 512) (x6 : A2 512 512)
    (x7 : A1 512) (x8 : A2 512 512) (x9 : A1 512) (x10 : A3 512 1 3) (x11 : A2 512 16) (x12 : A2 16 512) (x13 : A1 16)
    (x14 : A2 16 512) (x15 : A1 16) (x16 : A2 512 512) (x17 : A1 512) : A3 8192 512 16 :=
  fun i => ns (rparams x2 x3 x4 x5 x6 x7 x8 x9 x10 x11 x12 x13 x14 x15 x16 x17) (xrow x0 (i 0)) (strowR x1 (i 0)) (i 2) (i 1)

end Cert.MambaRow

end
-- ==== Proof.KernelWholeDefs.lean ====
/-
  The two facts about one block that the road from blocks to whole arrays rests on.

  At a grid point the body sees a block of 32 rows of the input, the same 32 rows of the carried state (laid out slot,
  then entry) and the whole weight arrays, the matrices already transposed. What it leaves in the two result blocks is,
  row by row, the output row and the new state of that row. The two statements below say exactly that, for arbitrary
  contents of the eighteen blocks; everything else in the passage to the whole arrays is bookkeeping of indices.
-/
import proofs.«137921_j80187039416644_2_alg».proof.Proof.Gen.KernelIdeal.Frame
import proofs.«137921_j80187039416644_2_alg».proof.Proof.MambaWhole

noncomputable section

namespace Cert.KernelWhole

open Idealize.ShloMosaic Idealize.ShloMosaic.ValueIdx
open Cert.KernelIdeal

/-- Row p of the first result block is the output row of row p of the input block and row p of the state block. -/
def BlockOut : Prop :=
  ∀ (x0 : Vec Ideal S32x512 .f32) (x1 : Vec Ideal S32x16x512 .f32) (x2 x3 : Vec Ideal S512 .f32)
    (x4 : Vec Ideal S512x512 .bf16) (x5 : Vec Ideal S512 .f32) (x6 : Vec Ideal S512x512 .bf16) (x7 : Vec Ideal S512 .f32)
    (x8 : Vec Ideal S512x512 .bf16) (x9 : Vec Ideal S512 .f32) (x10 : Vec Ideal S512x512 .bf16)
    (x11 x12 : Vec Ideal S512 .f32) (x13 : Vec Ideal S512x16 .f32) (x14 : Vec Ideal S512x16 .bf16)
    (x15 : Vec Ideal S16 .f32) (x16 : Vec Ideal S512x16 .bf16) (x17 : Vec Ideal S16 .f32) (p : Fin 32) (j : Fin 512),
    Gen.out0_18 (F := Ideal) x0 x1 x2 x3 x4 x5 x6 x7 x8 x9 x10 x11 x12 x13 x14 x15 x16 x17 (ix2 p j)
      = Cert.MambaRow.out (Cert.MambaRow.kparams x2 x3 x4 x5 x6 x7 x8 x9 x10 x11 x12 x13 x14 x15 x16 x17)
          (Cert.MambaRow.xrow x0 p) (Cert.MambaRow.strowK x1 p) j

/-- Entry (p, s, j) of the second result block is the new state of slot s at entry j for row p. -/
def BlockState : Prop :=
  ∀ (x0 : Vec Ideal S32x512 .f32) (x1 : Vec Ideal S32x16x512 .f32) (x2 x3 : Vec Ideal S512 .f32)
    (x4 : Vec Ideal S512x512 .bf16) (x5 : Vec Ideal S512 .f32) (x6 : Vec Ideal S512x512 .bf16) (x7 : Vec Ideal S512 .f32)
    (x8 : Vec Ideal S512x512 .bf16) (x9 : Vec Ideal S512 .f32) (x10 : Vec Ideal S512x512 .bf16)
    (x11 x12 : Vec Ideal S512 .f32) (x13 : Vec Ideal S512x16 .f32) (x14 : Vec Ideal S512x16 .bf16)
    (x15 : Vec Ideal S16 .f32) (x16 : Vec Ideal S512x16 .bf16) (x17 : Vec Ideal S16 .f32) (p : Fin 32) (s : Fin 16)
    (j : Fin 512),
    Gen.out0_19 (F := Ideal) x0 x1 x2 x3 x4 x5 x6 x7 x8 x9 x10 x11 x12 x13 x14 x15 x16 x17 (ix3 p s j)
      = Cert.MambaRow.ns (Cert.MambaRow.kparams x2 x3 x4 x5 x6 x7 x8 x9 x10 x11 x12 x13 x14 x15 x16 x17)
          (Cert.MambaRow.xrow x0 p) (Cert.MambaRow.strowK x1 p) s j

end Cert.KernelWhole

end
-- ==== Proof.KernelWholeRows.lean ====
/-
  From one block to the rows of the whole arrays, with no pipeline in sight.

  If the weight blocks hold the arguments' weights (matrices transposed, the filter's centre tap), the two bundles of
  weights are the same bundle. If moreover row p of the input block is row r of the input array, and row p of the state
  block (slot, then entry) is row r of the state array (entry, then slot), then row p of the first result block is row r
  of the output array, and row p of the second is row r of the new state, slot first.
-/
import proofs.«137921_j80187039416644_2_alg».proof.Proof.KernelWholeDefs

noncomputable section

namespace Cert.KernelWhole

open Idealize.ShloMosaic Idealize.ShloMosaic.ValueIdx
open Cert.KernelIdeal Cert.MambaRow

/-- The new state with the slot before the entry: the layout of the vector program's second result. Entry (r, s, j) is
    entry (r, j, s) of the new state. -/
def G1T (x0 : A2 8192 512) (x1 : A3 8192 512 16) (x2 x3 : A1 512) (x4 : A2 512 512) (x5 : A1 512) (x6 : A2 512 512)
    (x7 : A1 512) (x8 : A2 512 512) (x9 : A1 512) (x10 : A3 512 1 3) (x11 : A2 512 16) (x12 : A2 16 512) (x13 : A1 16)
    (x14 : A2 16 512) (x15 : A1 16) (x16 : A2 512 512) (x17 : A1 512) : A3 8192 16 512 :=
  fun i => ns (rparams x2 x3 x4 x5 x6 x7 x8 x9 x10 x11 x12 x13 x14 x15 x16 x17) (xrow x0 (i 0)) (strowR x1 (i 0)) (i 1) (i 2)

/-- The weights the blocks hold are the weights the arguments hold, once each block entry is the argument entry it was
    copied from. -/
theorem kparams_eq_rparams (w2 w3 : A1 512) (w4 : A2 512 512) (w5 : A1 512) (w6 : A2 512 512) (w7 : A1 512)
    (w8 : A2 512 512) (w9 : A1 512) (w10 : A2 512 512) (w11 w12 : A1 512) (w13 : A2 512 16) (w14 : A2 512 16)
    (w15 : A1 16) (w16 : A2 512 16) (w17 : A1 16)
    (a2 a3 : A1 512) (a4 : A2 512 512) (a5 : A1 512) (a6 : A2 512 512) (a7 : A1 512) (a8 : A2 512 512) (a9 : A1 512)
    (a10 : A3 512 1 3) (a11 : A2 512 16) (a12 : A2 16 512) (a13 : A1 16) (a14 : A2 16 512) (a15 : A1 16)
    (a16 : A2 512 512) (a17 : A1 512)
    (h2 : ∀ j, w2 (ix1 j) = a2 (ix1 j)) (h3 : ∀ j, w3 (ix1 j) = a3 (ix1 j))
    (h4 : ∀ k j, w4 (ix2 k j) = a4 (ix2 j k)) (h5 : ∀ j, w5 (ix1 j) = a5 (ix1 j))
    (h6 : ∀ k j, w6 (ix2 k j) = a6 (ix2 j k)) (h7 : ∀ j, w7 (ix1 j) = a7 (ix1 j))
    (h8 : ∀ k j, w8 (ix2 k j) = a8 (ix2 j k)) (h9 : ∀ j, w9 (ix1 j) = a9 (ix1 j))
    (h10 : ∀ k j, w10 (ix2 k j) = a16 (ix2 j k)) (h11 : ∀ j, w11 (ix1 j) = a17 (ix1 j))
    (h12 : ∀ j, w12 (ix1 j) = a10 (ix3 j (0 : Fin 1) (1 : Fin 3))) (h13 : ∀ j s, w13 (ix2 j s) = a11 (ix2 j s))
    (h14 : ∀ k s, w14 (ix2 k s) = a12 (ix2 s k)) (h15 : ∀ s, w15 (ix1 s) = a13 (ix1 s))
    (h16 : ∀ k s, w16 (ix2 k s) = a14 (ix2 s k)) (h17 : ∀ s, w17 (ix1 s) = a15 (ix1 s)) :
    kparams w2 w3 w4 w5 w6 w7 w8 w9 w10 w11 w12 w13 w14 w15 w16 w17
      = rparams a2 a3 a4 a5 a6 a7 a8 a9 a10 a11 a12 a13 a14 a15 a16 a17 := by
  unfold kparams rparams
  simp only [h2, h3, h4, h5, h6, h7, h8, h9, h10, h11, h12, h13, h14, h15, h16, h17]

/-- Row p of the first result block is row r of the output array. -/
theorem block_out (h18 : BlockOut)
    (x0 : Vec Ideal S32x512 .f32) (x1 : Vec Ideal S32x16x512 .f32) (x2 x3 : Vec Ideal S512 .f32)
    (x4 : Vec Ideal S512x512 .bf16) (x5 : Vec Ideal S512 .f32) (x6 : Vec Ideal S512x512 .bf16) (x7 : Vec Ideal S512 .f32)
    (x8 : Vec Ideal S512x512 .bf16) (x9 : Vec Ideal S512 .f32) (x10 : Vec Ideal S512x512 .bf16)
    (x11 x12 : Vec Ideal S512 .f32) (x13 : Vec Ideal S512x16 .f32) (x14 : Vec Ideal S512x16 .bf16)
    (x15 : Vec Ideal S16 .f32) (x16 : Vec Ideal S512x16 .bf16) (x17 : Vec Ideal S16 .f32)
    (a0 : A2 8192 512) (a1 : A3 8192 512 16) (a2 a3 : A1 512) (a4 : A2 512 512) (a5 : A1 512) (a6 : A2 512 512)
    (a7 : A1 512) (a8 : A2 512 512) (a9 : A1 512) (a10 : A3 512 1 3) (a11 : A2 512 16) (a12 : A2 16 512) (a13 : A1 16)
    (a14 : A2 16 512) (a15 : A1 16) (a16 : A2 512 512) (a17 : A1 512)
    (r : Fin 8192) (p : Fin 32)
    (hx0 : ∀ k, x0 (ix2 p k) = a0 (ix2 r k)) (hx1 : ∀ s k, x1 (ix3 p s k) = a1 (ix3 r k s))
    (hP : kparams x2 x3 x4 x5 x6 x7 x8 x9 x10 x11 x12 x13 x14 x15 x16 x17
      = rparams a2 a3 a4 a5 a6 a7 a8 a9 a10 a11 a12 a13 a14 a15 a16 a17) (j : Fin 512) :
    Gen.out0_18 (F := Ideal) x0 x1 x2 x3 x4 x5 x6 x7 x8 x9 x10 x11 x12 x13 x14 x15 x16 x17 (ix2 p j)
      = G0 a0 a1 a2 a3 a4 a5 a6 a7 a8 a9 a10 a11 a12 a13 a14 a15 a16 a17 (ix2 r j) := by
  have e0 : xrow x0 p = xrow a0 r := funext hx0
  have e1 : strowK x1 p = strowR a1 r := funext fun s => funext fun k => hx1 s k
  rw [h18, hP, e0, e1]
  rfl

/-- Row p of the second result block is row r of the new state, slot first. -/
theorem block_state (h19 : BlockState)
    (x0 : Vec Ideal S32x512 .f32) (x1 : Vec Ideal S32x16x512 .f32) (x2 x3 : Vec Ideal S512 .f32)
    (x4 : Vec Ideal S512x512 .bf16) (x5 : Vec Ideal S512 .f32) (x6 : Vec Ideal S512x512 .bf16) (x7 : Vec Ideal S512 .f32)
    (x8 : Vec Ideal S512x512 .bf16) (x9 : Vec Ideal S512 .f32) (x10 : Vec Ideal S512x512 .bf16)
    (x11 x12 : Vec Ideal S512 .f32) (x13 : Vec Ideal S512x16 .f32) (x14 : Vec Ideal S512x16 .bf16)
    (x15 : Vec Ideal S16 .f32) (x16 : Vec Ideal S512x16 .bf16) (x17 : Vec Ideal S16 .f32)
    (a0 : A2 8192 512) (a1 : A3 8192 512 16) (a2 a3 : A1 512) (a4 : A2 512 512) (a5 : A1 512) (a6 : A2 512 512)
    (a7 : A1 512) (a8 : A2 512 512) (a9 : A1 512) (a10 : A3 512 1 3) (a11 : A2 512 16) (a12 : A2 16 512) (a13 : A1 16)
    (a14 : A2 16 512) (a15 : A1 16) (a16 : A2 512 512) (a17 : A1 512)
    (r : Fin 8192) (p : Fin 32)
    (hx0 : ∀ k, x0 (ix2 p k) = a0 (ix2 r k)) (hx1 : ∀ s k, x1 (ix3 p s k) = a1 (ix3 r k s))
    (hP : kparams x2 x3 x4 x5 x6 x7 x8 x9 x10 x11 x12 x13 x14 x15 x16 x17
      = rparams a2 a3 a4 a5 a6 a7 a8 a9 a10 a11 a12 a13 a14 a15 a16 a17) (s : Fin 16) (j : Fin 512) :
    Gen.out0_19 (F := Ideal) x0 x1 x2 x3 x4 x5 x6 x7 x8 x9 x10 x11 x12 x13 x14 x15 x16 x17 (ix3 p s j)
      = G1T a0 a1 a2 a3 a4 a5 a6 a7 a8 a9 a10 a11 a12 a13 a14 a15 a16 a17 (ix3 r s j) := by
  have e0 : xrow x0 p = xrow a0 r := funext hx0
  have e1 : strowK x1 p = strowR a1 r := funext fun s => funext fun k => hx1 s k
  rw [h19, hP, e0, e1]
  rfl

end Cert.KernelWhole

end
-- ==== Proof.KernelWholeBlocks.lean ====
/-
  The eighteen input blocks at a grid point, as entries of the argument arrays.

  Row p of the input block at point t is row 32 t + p of the input; row p of the state block (slot, then entry) is row
  32 t + p of the state argument (entry, then slot); every weight block is the argument's weight, a matrix transposed,
  the filter at its centre tap. So at every point the blocks' bundle of weights is the arguments' bundle.
-/
import proofs.«137921_j80187039416644_2_alg».proof.Proof.KernelWholeHost
import proofs.«137921_j80187039416644_2_alg».proof.Proof.KernelWholeIndex
import proofs.«137921_j80187039416644_2_alg».proof.Proof.KernelWholeRows

noncomputable section

namespace Cert.KernelWhole

open Idealize.ShloMosaic Idealize.ShloMosaic.ValueIdx Idealize.ShloMosaic.TcCoe
open Cert.KernelIdeal Cert.KernelIdeal.Gen Cert.MambaRow

variable (m : (ℓ : Loc nD τ sig) → Buf (Elt Ideal) ℓ)

/-! ## The two row-blocked inputs -/

/-- Entry (p, k) of the input block at point t is entry (32 t + p, k) of the input. -/
theorem iblk0_apply (c : Dev nD) (t : Fin cfg0.N) (p : Fin 32) (k : Fin 512) (r : Fin 8192) (hr : r.val = 32 * t.val + p.val) :
    (iblk m c 0 t : Vec Ideal S32x512 .f32) (ix2 p k) = (m ((c : Thread nD τ).loc main_arg0) : Vec Ideal S8192x512 .f32) (ix2 r k) := by
  unfold iblk
  rw [View.read_apply]
  show V m c main_arg0 (((cfg0.win 0).blk t).view.emb (ix2 p k)) = _
  rw [emb0 t p k r hr, V_main_arg0]

/-- Entry (p, s, k) of the state block at point t is entry (32 t + p, k, s) of the state argument. -/
theorem iblk1_apply (c : Dev nD) (t : Fin cfg0.N) (p : Fin 32) (s : Fin 16) (k : Fin 512) (r : Fin 8192)
    (hr : r.val = 32 * t.val + p.val) :
    (iblk m c 1 t : Vec Ideal S32x16x512 .f32) (ix3 p s k) = (m ((c : Thread nD τ).loc main_arg1) : Vec Ideal S8192x512x16 .f32) (ix3 r k s) := by
  unfold iblk
  rw [View.read_apply]
  show V m c main_v14 (((cfg0.win 1).blk t).view.emb (ix3 p s k)) = _
  rw [emb1 t p s k r hr]
  exact V_v14_apply m c r s k

/-! ## The weights -/

/-- Window 2 (the normalisation's scale): the block is the argument. -/
theorem iblk2_apply (c : Dev nD) (t : Fin cfg0.N) (j : Fin 512) :
    (iblk m c 2 t : Vec Ideal S512 .f32) (ix1 j) = (m ((c : Thread nD τ).loc main_arg2) : Vec Ideal S512 .f32) (ix1 j) := by
  unfold iblk
  rw [View.read_apply]
  show V m c main_arg2 (((cfg0.win 2).blk t).view.emb (ix1 j)) = _
  rw [emb2 t j, V_main_arg2]

/-- Window 3 (the normalisation's shift): the block is the argument. -/
theorem iblk3_apply (c : Dev nD) (t : Fin cfg0.N) (j : Fin 512) :
    (iblk m c 3 t : Vec Ideal S512 .f32) (ix1 j) = (m ((c : Thread nD τ).loc main_arg3) : Vec Ideal S512 .f32) (ix1 j) := by
  unfold iblk
  rw [View.read_apply]
  show V m c main_arg3 (((cfg0.win 3).blk t).view.emb (ix1 j)) = _
  rw [emb3 t j, V_main_arg3]

/-- Window 5 (the first layer's bias): the block is the argument. -/
theorem iblk5_apply (c : Dev nD) (t : Fin cfg0.N) (j : Fin 512) :
    (iblk m c 5 t : Vec Ideal S512 .f32) (ix1 j) = (m ((c : Thread nD τ).loc main_arg5) : Vec Ideal S512 .f32) (ix1 j) := by
  unfold iblk
  rw [View.read_apply]
  show V m c main_arg5 (((cfg0.win 5).blk t).view.emb (ix1 j)) = _
  rw [emb5 t j, V_main_arg5]

/-- Window 7 (the gate layer's bias): the block is the argument. -/
theorem iblk7_apply (c : Dev nD) (t : Fin cfg0.N) (j : Fin 512) :
    (iblk m c 7 t : Vec Ideal S512 .f32) (ix1 j) = (m ((c : Thread nD τ).loc main_arg7) : Vec Ideal S512 .f32) (ix1 j) := by
  unfold iblk
  rw [View.read_apply]
  show V m c main_arg7 (((cfg0.win 7).blk t).view.emb (ix1 j)) = _
  rw [emb7 t j, V_main_arg7]

/-- Window 9 (the last layer's bias): the block is the argument. -/
theorem iblk9_apply (c : Dev nD) (t : Fin cfg0.N) (j : Fin 512) :
    (iblk m c 9 t : Vec Ideal S512 .f32) (ix1 j) = (m ((c : Thread nD τ).loc main_arg9) : Vec Ideal S512 .f32) (ix1 j) := by
  unfold iblk
  rw [View.read_apply]
  show V m c main_arg9 (((cfg0.win 9).blk t).view.emb (ix1 j)) = _
  rw [emb9 t j, V_main_arg9]

/-- Window 11 (the step-size layer's bias): the block is the argument. -/
theorem iblk11_apply (c : Dev nD) (t : Fin cfg0.N) (j : Fin 512) :
    (iblk m c 11 t : Vec Ideal S512 .f32) (ix1 j) = (m ((c : Thread nD τ).loc main_arg17) : Vec Ideal S512 .f32) (ix1 j) := by
  unfold iblk
  rw [View.read_apply]
  show V m c main_arg17 (((cfg0.win 11).blk t).view.emb (ix1 j)) = _
  rw [emb11 t j, V_main_arg17]

/-- Window 13 (the decay's logarithm): the block is the argument. -/
theorem iblk13_apply (c : Dev nD) (t : Fin cfg0.N) (k : Fin 512) (j : Fin 16) :
    (iblk m c 13 t : Vec Ideal S512x16 .f32) (ix2 k j) = (m ((c : Thread nD τ).loc main_arg11) : Vec Ideal S512x16 .f32) (ix2 k j) := by
  unfold iblk
  rw [View.read_apply]
  show V m c main_arg11 (((cfg0.win 13).blk t).view.emb (ix2 k j)) = _
  rw [emb13 t k j, V_main_arg11]

/-- Window 15 (the input projection's bias): the block is the argument. -/
theorem iblk15_apply (c : Dev nD) (t : Fin cfg0.N) (j : Fin 16) :
    (iblk m c 15 t : Vec Ideal S16 .f32) (ix1 j) = (m ((c : Thread nD τ).loc main_arg13) : Vec Ideal S16 .f32) (ix1 j) := by
  unfold iblk
  rw [View.read_apply]
  show V m c main_arg13 (((cfg0.win 15).blk t).view.emb (ix1 j)) = _
  rw [emb15 t j, V_main_arg13]

/-- Window 17 (the read-out projection's bias): the block is the argument. -/
theorem iblk17_apply (c : Dev nD) (t : Fin cfg0.N) (j : Fin 16) :
    (iblk m c 17 t : Vec Ideal S16 .f32) (ix1 j) = (m ((c : Thread nD τ).loc main_arg15) : Vec Ideal S16 .f32) (ix1 j) := by
  unfold iblk
  rw [View.read_apply]
  show V m c main_arg15 (((cfg0.win 17).blk t).view.emb (ix1 j)) = _
  rw [emb17 t j, V_main_arg15]

/-- Window 4 (the first layer's weight): entry (k, j) of the block is entry (j, k) of the argument. -/
theorem iblk4_apply (c : Dev nD) (t : Fin cfg0.N) (k : Fin 512) (j : Fin 512) :
    (iblk m c 4 t : Vec Ideal S512x512 .bf16) (ix2 k j) = (m ((c : Thread nD τ).loc main_arg4) : Vec Ideal S512x512 .f32) (ix2 j k) := by
  unfold iblk
  rw [View.read_apply]
  show V m c main_v1 (((cfg0.win 4).blk t).view.emb (ix2 k j)) = _
  rw [emb4 t k j]
  exact V_v1_apply m c k j

/-- Window 6 (the gate layer's weight): entry (k, j) of the block is entry (j, k) of the argument. -/
theorem iblk6_apply (c : Dev nD) (t : Fin cfg0.N) (k : Fin 512) (j : Fin 512) :
    (iblk m c 6 t : Vec Ideal S512x512 .bf16) (ix2 k j) = (m ((c : Thread nD τ).loc main_arg6) : Vec Ideal S512x512 .f32) (ix2 j k) := by
  unfold iblk
  rw [View.read_apply]
  show V m c main_v3 (((cfg0.win 6).blk t).view.emb (ix2 k j)) = _
  rw [emb6 t k j]
  exact V_v3_apply m c k j

/-- Window 8 (the last layer's weight): entry (k, j) of the block is entry (j, k) of the argument. -/
theorem iblk8_apply (c : Dev nD) (t : Fin cfg0.N) (k : Fin 512) (j : Fin 512) :
    (iblk m c 8 t : Vec Ideal S512x512 .bf16) (ix2 k j) = (m ((c : Thread nD τ).loc main_arg8) : Vec Ideal S512x512 .f32) (ix2 j k) := by
  unfold iblk
  rw [View.read_apply]
  show V m c main_v5 (((cfg0.win 8).blk t).view.emb (ix2 k j)) = _
  rw [emb8 t k j]
  exact V_v5_apply m c k j

/-- Window 10 (the step-size layer's weight): entry (k, j) of the block is entry (j, k) of the argument. -/
theorem iblk10_apply (c : Dev nD) (t : Fin cfg0.N) (k : Fin 512) (j : Fin 512) :
    (iblk m c 10 t : Vec Ideal S512x512 .bf16) (ix2 k j) = (m ((c : Thread nD τ).loc main_arg16) : Vec Ideal S512x512 .f32) (ix2 j k) := by
  unfold iblk
  rw [View.read_apply]
  show V m c main_v7 (((cfg0.win 10).blk t).view.emb (ix2 k j)) = _
  rw [emb10 t k j]
  exact V_v7_apply m c k j

/-- Window 14 (the input projection's weight): entry (k, j) of the block is entry (j, k) of the argument. -/
theorem iblk14_apply (c : Dev nD) (t : Fin cfg0.N) (k : Fin 512) (j : Fin 16) :
    (iblk m c 14 t : Vec Ideal S512x16 .bf16) (ix2 k j) = (m ((c : Thread nD τ).loc main_arg12) : Vec Ideal S16x512 .f32) (ix2 j k) := by
  unfold iblk
  rw [View.read_apply]
  show V m c main_v9 (((cfg0.win 14).blk t).view.emb (ix2 k j)) = _
  rw [emb14 t k j]
  exact V_v9_apply m c k j

/-- Window 16 (the read-out projection's weight): entry (k, j) of the block is entry (j, k) of the argument. -/
theorem iblk16_apply (c : Dev nD) (t : Fin cfg0.N) (k : Fin 512) (j : Fin 16) :
    (iblk m c 16 t : Vec Ideal S512x16 .bf16) (ix2 k j) = (m ((c : Thread nD τ).loc main_arg14) : Vec Ideal S16x512 .f32) (ix2 j k) := by
  unfold iblk
  rw [View.read_apply]
  show V m c main_v11 (((cfg0.win 16).blk t).view.emb (ix2 k j)) = _
  rw [emb16 t k j]
  exact V_v11_apply m c k j

/-- Window 12 (the filter): entry j of the block is the centre tap (j, 0, 1) of the argument. -/
theorem iblk12_apply (c : Dev nD) (t : Fin cfg0.N) (j : Fin 512) :
    (iblk m c 12 t : Vec Ideal S512 .f32) (ix1 j) = (m ((c : Thread nD τ).loc main_arg10) : Vec Ideal S512x1x3 .f32) (ix3 j (0 : Fin 1) (1 : Fin 3)) := by
  unfold iblk
  rw [View.read_apply]
  show V m c main_v13 (((cfg0.win 12).blk t).view.emb (ix1 j)) = _
  rw [emb12 t j]
  exact V_v13_apply m c j

/-- At every point the weights the blocks hold are the weights the arguments hold. -/
theorem params_at (c : Dev nD) (t : Fin cfg0.N) :
    kparams (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
      = rparams (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  kparams_eq_rparams (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    (fun j => iblk2_apply m c t j) (fun j => iblk3_apply m c t j) (fun k j => iblk4_apply m c t k j) (fun j => iblk5_apply m c t j)
    (fun k j => iblk6_apply m c t k j) (fun j => iblk7_apply m c t j) (fun k j => iblk8_apply m c t k j) (fun j => iblk9_apply m c t j)
    (fun k j => iblk10_apply m c t k j) (fun j => iblk11_apply m c t j) (fun j => iblk12_apply m c t j)
    (fun j s => iblk13_apply m c t j s) (fun k s => iblk14_apply m c t k s) (fun s => iblk15_apply m c t s)
    (fun k s => iblk16_apply m c t k s) (fun s => iblk17_apply m c t s)

end Cert.KernelWhole

end
-- ==== Proof.KernelWholeArrays.lean ====
/-
  The two result arrays after the run of the region.

  What point t writes back to the first result is rows 32 t … 32 t + 31 of the output array of the arguments, and to the
  second the same rows of the new state, slot first: the body's block facts, with every input block read as entries of the
  arguments. Row r lies in the block of point r / 32, so the 256 blocks cover both arrays, and each array ends holding
  its whole-array function.
-/
import proofs.«137921_j80187039416644_2_alg».proof.Proof.KernelWholeBlocks
import Idealize.ShloMosaic.Lib.Pipeline.Value

noncomputable section

namespace Cert.KernelWhole

open Idealize.ShloMosaic Idealize.ShloMosaic.ValueIdx Idealize.ShloMosaic.TcCoe
open Idealize.ShloMosaic.Pipeline (Dat)
open Cert.KernelIdeal Cert.KernelIdeal.Gen Cert.MambaRow

variable (m : (ℓ : Loc nD τ sig) → Buf (Elt Ideal) ℓ)

/-- The output array of the arguments as core c holds them. -/
abbrev KG0 (c : Dev nD) : A2 8192 512 :=
  G0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
/-- The new state of the arguments as core c holds them, slot first. -/
abbrev KG1T (c : Dev nD) : A3 8192 16 512 :=
  G1T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-! ## What a point writes back -/

/-- Point t writes rows 32 t … 32 t + 31 of the output array to the first result. -/
theorem flushed18_eq (h18 : BlockOut) (c : Dev nD) (t : Fin cfg0.N) :
    (dats m 0 c).flushed 18 t = ((cfg0.win 18).blk t).view.read (Elt Ideal) (KG0 m c) := by
  show (cfg0.win 18).cut (grid0.coords t) ((dats m 0 c).after 18 t) = _
  rw [after0_18]
  funext y
  obtain ⟨p, j, rfl⟩ : ∃ (p : Fin 32) (j : Fin 512), y = ix2 p j := ⟨y 0, y 1, eq_ix2 (n0 := 32) (n1 := 512) y⟩
  rw [View.read_apply]
  have hr : 32 * t.val + p.val < 8192 := by have := point_lt t; have := p.isLt; omega
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p j)
    = KG0 m c (((cfg0.win 18).blk t).view.emb (ix2 p j))
  rw [emb18 t p j ⟨32 * t.val + p.val, hr⟩ rfl]
  exact block_out h18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    ⟨32 * t.val + p.val, hr⟩ p (fun k => iblk0_apply m c t p k ⟨32 * t.val + p.val, hr⟩ rfl)
    (fun s k => iblk1_apply m c t p s k ⟨32 * t.val + p.val, hr⟩ rfl) (params_at m c t) j

/-- Point t writes rows 32 t … 32 t + 31 of the new state, slot first, to the second result. -/
theorem flushed19_eq (h19 : BlockState) (c : Dev nD) (t : Fin cfg0.N) :
    (dats m 0 c).flushed 19 t = ((cfg0.win 19).blk t).view.read (Elt Ideal) (KG1T m c) := by
  show (cfg0.win 19).cut (grid0.coords t) ((dats m 0 c).after 19 t) = _
  rw [after0_19]
  funext y
  obtain ⟨p, s, j, rfl⟩ : ∃ (p : Fin 32) (s : Fin 16) (j : Fin 512), y = ix3 p s j :=
    ⟨y 0, y 1, y 2, eq_ix3 (n0 := 32) (n1 := 16) (n2 := 512) y⟩
  rw [View.read_apply]
  have hr : 32 * t.val + p.val < 8192 := by have := point_lt t; have := p.isLt; omega
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 p s j)
    = KG1T m c (((cfg0.win 19).blk t).view.emb (ix3 p s j))
  rw [emb19 t p s j ⟨32 * t.val + p.val, hr⟩ rfl]
  exact block_state h19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    ⟨32 * t.val + p.val, hr⟩ p (fun k => iblk0_apply m c t p k ⟨32 * t.val + p.val, hr⟩ rfl)
    (fun s k => iblk1_apply m c t p s k ⟨32 * t.val + p.val, hr⟩ rfl) (params_at m c t) s j

/-! ## The blocks cover the arrays -/

/-- An index of the first result is in point t's block iff each coordinate is in the block's range on its axis. -/
theorem mem_blk18 (t : Fin cfg0.N) (i : S8192x512.Idx) :
    i ∈ ((cfg0.win 18).blk t).view.set ↔ ∀ a : Fin 2, win0_18.index t a * S32x512.size a ≤ (i a).val ∧ (i a).val < win0_18.index t a * S32x512.size a + S32x512.size a := by
  show i ∈ ((View.whole main_v15_0).slice (win0_18.rect t)).set ↔ _
  rw [View.set_slice_whole, Rect.mem_set_unit]
  exact Iff.rfl

/-- The same for the second result. -/
theorem mem_blk19 (t : Fin cfg0.N) (i : S8192x16x512.Idx) :
    i ∈ ((cfg0.win 19).blk t).view.set ↔ ∀ a : Fin 3, win0_19.index t a * S32x16x512.size a ≤ (i a).val ∧ (i a).val < win0_19.index t a * S32x16x512.size a + S32x16x512.size a := by
  show i ∈ ((View.whole main_v15_1).slice (win0_19.rect t)).set ↔ _
  rw [View.set_slice_whole, Rect.mem_set_unit]
  exact Iff.rfl

/-- Row r of the first result is in the block of point r / 32. -/
theorem cover18 (i : S8192x512.Idx) :
    ∃ t : Fin cfg0.N, (cfg0.win 18).flush t = true ∧ i ∈ ((cfg0.win 18).blk t).view.set := by
  have hi0 : (i 0).val < 8192 := (i 0).isLt
  have hi1 : (i 1).val < 512 := (i 1).isLt
  have hN : cfg0.N = 256 := N_0
  have ht : (i 0).val / 32 < cfg0.N := by omega
  refine ⟨⟨(i 0).val / 32, ht⟩, flush0_18 _, ?_⟩
  rw [mem_blk18]
  obtain ⟨-, -, -, -, -, e0, e1, -⟩ := idx_rows ⟨(i 0).val / 32, ht⟩
  intro a
  match a with
  | ⟨0, _⟩ =>
    show win0_18.index ⟨(i 0).val / 32, ht⟩ (0 : Fin 2) * 32 ≤ (i 0).val ∧ (i 0).val < win0_18.index ⟨(i 0).val / 32, ht⟩ (0 : Fin 2) * 32 + 32
    rw [e0]
    show (i 0).val / 32 * 32 ≤ (i 0).val ∧ (i 0).val < (i 0).val / 32 * 32 + 32
    omega
  | ⟨1, _⟩ =>
    show win0_18.index ⟨(i 0).val / 32, ht⟩ (1 : Fin 2) * 512 ≤ (i 1).val ∧ (i 1).val < win0_18.index ⟨(i 0).val / 32, ht⟩ (1 : Fin 2) * 512 + 512
    rw [e1]
    omega

/-- Row r of the second result is in the block of point r / 32. -/
theorem cover19 (i : S8192x16x512.Idx) :
    ∃ t : Fin cfg0.N, (cfg0.win 19).flush t = true ∧ i ∈ ((cfg0.win 19).blk t).view.set := by
  have hi0 : (i 0).val < 8192 := (i 0).isLt
  have hi1 : (i 1).val < 16 := (i 1).isLt
  have hi2 : (i 2).val < 512 := (i 2).isLt
  have hN : cfg0.N = 256 := N_0
  have ht : (i 0).val / 32 < cfg0.N := by omega
  refine ⟨⟨(i 0).val / 32, ht⟩, flush0_19 _, ?_⟩
  rw [mem_blk19]
  obtain ⟨-, -, -, -, -, -, -, e0, e1, e2⟩ := idx_rows ⟨(i 0).val / 32, ht⟩
  intro a
  match a with
  | ⟨0, _⟩ =>
    show win0_19.index ⟨(i 0).val / 32, ht⟩ (0 : Fin 3) * 32 ≤ (i 0).val ∧ (i 0).val < win0_19.index ⟨(i 0).val / 32, ht⟩ (0 : Fin 3) * 32 + 32
    rw [e0]
    show (i 0).val / 32 * 32 ≤ (i 0).val ∧ (i 0).val < (i 0).val / 32 * 32 + 32
    omega
  | ⟨1, _⟩ =>
    show win0_19.index ⟨(i 0).val / 32, ht⟩ (1 : Fin 3) * 16 ≤ (i 1).val ∧ (i 1).val < win0_19.index ⟨(i 0).val / 32, ht⟩ (1 : Fin 3) * 16 + 16
    rw [e1]
    omega
  | ⟨2, _⟩ =>
    show win0_19.index ⟨(i 0).val / 32, ht⟩ (2 : Fin 3) * 512 ≤ (i 2).val ∧ (i 2).val < win0_19.index ⟨(i 0).val / 32, ht⟩ (2 : Fin 3) * 512 + 512
    rw [e2]
    omega

/-! ## The arrays after the run -/

/-- The first result array ends holding the output array of the arguments. -/
theorem final18 (h18 : BlockOut) (c : Dev nD) : (dats m 0 c).arrAt 18 cfg0.N = KG0 m c :=
  (dats m 0 c).arrAt_eq_of_cover 18 (KG0 m c) (fun t _ => flushed18_eq m h18 c t) cover18

/-- The second result array ends holding the new state of the arguments, slot first. -/
theorem final19 (h19 : BlockState) (c : Dev nD) : (dats m 0 c).arrAt 19 cfg0.N = KG1T m c :=
  (dats m 0 c).arrAt_eq_of_cover 19 (KG1T m c) (fun t _ => flushed19_eq m h19 c t) cover19

end Cert.KernelWhole

end
-- ==== Proof.KernelWholeRun.lean ====
/-
  The run of the whole program, read.

  The run of the region leaves the first result array at the output array of the arguments and the second at the new
  state, slot first. The one host operation after the region exchanges the last two axes of the second, which gives the
  new state with the entry before the slot: the layout of the program's second result. The arguments end as they began.
-/
import proofs.«137921_j80187039416644_2_alg».proof.Proof.KernelWholeArrays
import Idealize.ShloMosaic.Lib.StableHlo.Run

noncomputable section

namespace Cert.KernelWhole

open Idealize.ShloMosaic Idealize.ShloMosaic.ValueIdx Idealize.ShloMosaic.TcCoe Idealize.SL.Sem
open Idealize.ShloMosaic.Pipeline (Dat)
open Cert.KernelIdeal Cert.KernelIdeal.Gen Cert.MambaRow

variable (m : (ℓ : Loc nD τ sig) → Buf (Elt Ideal) ℓ) (ρ : Dev nD → PrngReg)

/-- The new state of the arguments as core c holds them, entry first. -/
abbrev KG1 (c : Dev nD) : A3 8192 512 16 :=
  G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- Exchanging the last two axes of the slot-first new state gives the entry-first new state. -/
theorem transpose_KG1T (c : Dev nD) :
    transpose S8192x512x16 [0, 2, 1] (KG1T m c : Vec Ideal S8192x16x512 .f32) Facts₀.transposes_S8192x16x512_S8192x512x16_0_2_1
      = (KG1 m c : Vec Ideal S8192x512x16 .f32) := by
  funext i
  obtain ⟨r, k, s, rfl⟩ : ∃ (r : Fin 8192) (k : Fin 512) (s : Fin 16), i = ix3 r k s :=
    ⟨i 0, i 1, i 2, eq_ix3 (n0 := 8192) (n1 := 512) (n2 := 16) i⟩
  exact transpose_back_apply _ r k s

/-- What the program's second result holds at the end: the host operation after the region applied to the second
    result array of the region. -/
theorem tail16 (h19 : BlockState) (c : Dev nD) :
    Pipeline.afterTail₀ cfgs (dats m) 0 (V0 m) [hostOps1] c main_v16 = KG1 m c := by
  unfold Pipeline.afterTail₀
  show StableHlo.after hostOps1 _ (Proc.devRef .tc main_v16) = _
  after_results
  rw [show Pipeline.withArrays spec0 c (V0 m c) (fun w => (dats m 0 c).arrAt w cfg0.N) (Proc.devRef .tc main_v15_1) = KG1T m c from
    (Pipeline.withArrays_arr spec0 launch0.win.arr_inj c _ _ 19).trans (final19 m h19 c)]
  exact transpose_KG1T m c

/-- The arguments end as they began: read off the frame run's post, an argument a window stages by the window's array
    (never written back), any other by the buffers that bypass the region and the operation after it. -/
theorem args_kept (r : PUnit × MemSt nD τ sig (Elt Ideal))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  ⟨((h c).1 0).trans (((dats m 0 c).arrAt_in 0 rfl _).trans ((A_eq m c 0).trans (V_main_arg0 m c))),
    (((h c).2 main_arg1 (Pipeline.mem_restRefs_of main_arg1 (by decide) (by decide))).trans (W_main_arg1 m (dats m) c)),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    (((h c).2 main_arg4 (Pipeline.mem_restRefs_of main_arg4 (by decide) (by decide))).trans (W_main_arg4 m (dats m) c)),
    ((h c).1 5).trans (((dats m 0 c).arrAt_in 5 rfl _).trans ((A_eq m c 5).trans (V_main_arg5 m c))),
    (((h c).2 main_arg6 (Pipeline.mem_restRefs_of main_arg6 (by decide) (by decide))).trans (W_main_arg6 m (dats m) c)),
    ((h c).1 7).trans (((dats m 0 c).arrAt_in 7 rfl _).trans ((A_eq m c 7).trans (V_main_arg7 m c))),
    (((h c).2 main_arg8 (Pipeline.mem_restRefs_of main_arg8 (by decide) (by decide))).trans (W_main_arg8 m (dats m) c)),
    ((h c).1 9).trans (((dats m 0 c).arrAt_in 9 rfl _).trans ((A_eq m c 9).trans (V_main_arg9 m c))),
    (((h c).2 main_arg10 (Pipeline.mem_restRefs_of main_arg10 (by decide) (by decide))).trans (W_main_arg10 m (dats m) c)),
    ((h c).1 13).trans (((dats m 0 c).arrAt_in 13 rfl _).trans ((A_eq m c 13).trans (V_main_arg11 m c))),
    (((h c).2 main_arg12 (Pipeline.mem_restRefs_of main_arg12 (by decide) (by decide))).trans (W_main_arg12 m (dats m) c)),
    ((h c).1 15).trans (((dats m 0 c).arrAt_in 15 rfl _).trans ((A_eq m c 15).trans (V_main_arg13 m c))),
    (((h c).2 main_arg14 (Pipeline.mem_restRefs_of main_arg14 (by decide) (by decide))).trans (W_main_arg14 m (dats m) c)),
    ((h c).1 17).trans (((dats m 0 c).arrAt_in 17 rfl _).trans ((A_eq m c 17).trans (V_main_arg15 m c))),
    (((h c).2 main_arg16 (Pipeline.mem_restRefs_of main_arg16 (by decide) (by decide))).trans (W_main_arg16 m (dats m) c)),
    ((h c).1 11).trans (((dats m 0 c).arrAt_in 11 rfl _).trans ((A_eq m c 11).trans (V_main_arg17 m c)))⟩

/-- Given the two facts about one block, every weakly fair execution of the program ends with the first result at the
    output array of the arguments, the second at their new state (entry, then slot), and the arguments unchanged. -/
theorem kernel_run (h18 : BlockOut) (h19 : BlockState)
    (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v15_0)
            = G0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
        ∧ r.2.mem ((c.tc : Thread nD τ).loc main_v16)
            = G1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)) :=
  (θ_run defs _ _).mono
    (fun r h c => ⟨((h c).1 18).trans (final18 m h18 c),
      ((h c).2 main_v16 (Pipeline.mem_restRefs_of main_v16 (by decide) (by decide))).trans (tail16 m h19 c),
      args_kept m r h c⟩)
    (run_main m ρ)

end Cert.KernelWhole

end
-- ==== Proof.RefRowLaws.lean ====
/-
  The reference's spellings of the two gates and of a negation, as the row formulas spell them.

  The reference writes y · logistic y as y · (1 / (1 + exp (−y))) with the f32 word of the number one, writes
  log (1 + e^y) with the guard "d ≠ d" as an unordered comparison and the negation of |d| as a negation, and negates
  exp (alog). On the extended reals a negation is a subtraction from zero, the unordered "not equal" is the ordered one,
  and the word 0x3F800000 is one; so each spelling is the row formula's.
-/
import proofs.«137921_j80187039416644_2_alg».proof.Proof.MambaRow
import proofs.«137921_j80187039416644_2_alg».proof.Proof.LibDenseVec

noncomputable section

namespace Cert.RefRow

open Idealize.ShloMosaic

/-- Two indices given by cases on the axis are equal when they agree axis by axis (rank one, two, three). -/
macro "refrow_idx1" : tactic =>
  `(tactic| exact funext fun a => Fin.ext (by match a with | ⟨0, _⟩ => rfl))
macro "refrow_idx2" : tactic =>
  `(tactic| exact funext fun a => Fin.ext (by match a with | ⟨0, _⟩ => rfl | ⟨1, _⟩ => rfl))
macro "refrow_idx3" : tactic =>
  `(tactic| exact funext fun a => Fin.ext (by match a with | ⟨0, _⟩ => rfl | ⟨1, _⟩ => rfl | ⟨2, _⟩ => rfl))

/-- The zero word, as the host's constant reads it. -/
theorem zero_word : FloatOps.ofBits (F := Ideal) .f32 0x00000000#32 = MambaRow.z32 := rfl

/-- y · (1 / (1 + exp (−y))), with both ones the f32 word of one, is y · logistic y. -/
theorem silu_spelled (y : EReal) :
    FloatOps.mulf (F := Ideal) (φ := .f32) y
        (FloatOps.hostDivf (F := Ideal) (φ := .f32) (FloatOps.ofBits (F := Ideal) .f32 0x3F800000#32)
          (FloatOps.addf (F := Ideal) (φ := .f32) (FloatOps.ofBits (F := Ideal) .f32 0x3F800000#32)
            (FloatOps.hostUnary (F := Ideal) (φ := .f32) .exp (FloatOps.hostNegf (F := Ideal) (φ := .f32) y))))
      = MambaRow.silu y := by
  simp only [Ideal.mulf_def, Ideal.hostDivf_def, Ideal.addf_def, Ideal.hostUnary_exp_def, Ideal.hostNegf_def,
    Ideal.negf_def, Ideal.ofBits_def, DenseVec.ofBits_one_f32]
  rfl

/-- The reference's log (1 + e^y): its guard is the unordered "not equal" and it negates |d|; the row formula's guard is
    the ordered one and it subtracts |d| from zero. -/
theorem softplus_spelled (y : EReal) :
    Scalar.select
        (FloatOps.cmpf (F := Ideal) (φ := .f32) .une
          (FloatOps.subf (F := Ideal) (φ := .f32) y (FloatOps.ofBits (F := Ideal) .f32 0x00000000#32))
          (FloatOps.subf (F := Ideal) (φ := .f32) y (FloatOps.ofBits (F := Ideal) .f32 0x00000000#32)))
        (FloatOps.addf (F := Ideal) (φ := .f32) y (FloatOps.ofBits (F := Ideal) .f32 0x00000000#32))
        (FloatOps.addf (F := Ideal) (φ := .f32)
          (FloatOps.maximumf (F := Ideal) (φ := .f32) y (FloatOps.ofBits (F := Ideal) .f32 0x00000000#32))
          (FloatOps.hostUnary (F := Ideal) (φ := .f32) .log1p
            (FloatOps.hostUnary (F := Ideal) (φ := .f32) .exp
              (FloatOps.hostNegf (F := Ideal) (φ := .f32)
                (FloatOps.hostAbsf (F := Ideal) (φ := .f32)
                  (FloatOps.subf (F := Ideal) (φ := .f32) y (FloatOps.ofBits (F := Ideal) .f32 0x00000000#32)))))))
      = MambaRow.softplus y := by
  unfold MambaRow.softplus
  have hneg : ∀ a : EReal, -a = MambaRow.z32 - a := fun a => by rw [MambaRow.z32_eq, zero_sub]
  simp only [zero_word, Ideal.subf_def, Ideal.addf_def, Ideal.maximumf_def, Ideal.hostUnary_log1p_def,
    Ideal.hostUnary_exp_def, Ideal.hostNegf_def, Ideal.negf_def, Ideal.hostAbsf_def, hneg]
  rfl

/-- The reference's −exp a is the row formula's 0 − exp a. -/
theorem aneg_spelled (a : EReal) :
    FloatOps.hostNegf (F := Ideal) (φ := .f32) (FloatOps.hostUnary (F := Ideal) (φ := .f32) .exp a)
      = MambaRow.z32 - Ideal.exp a := by
  simp only [Ideal.hostUnary_exp_def, Ideal.hostNegf_def, Ideal.negf_def]
  rw [MambaRow.z32_eq, zero_sub]

end Cert.RefRow

end
-- ==== Proof.RefRowNorm.lean ====
/-
  The reference's layer normalisation, one row at a time.

  The reference computes, for the whole [8192, 512] input at once, the row means (a sum along the row onto zero, kept as
  an [8192, 1] column and divided by 512), the centred input, the row variances (the same with the squares of the centred
  entries), the reciprocal square root of the shifted variance, and then scales and shifts entry by entry with the two
  512-vectors spread over the rows. Read at entry (r, j), every stage sees only row r of the input: the column entries
  (r, 0) are the mean and the variance of that row, and the result is the row formula's normalised entry j.
-/
import proofs.«137921_j80187039416644_2_alg».proof.Proof.Gen.ReferenceIdeal.Read
import proofs.«137921_j80187039416644_2_alg».proof.Proof.MambaParams
import proofs.«137921_j80187039416644_2_alg».proof.Proof.RefRowLaws

noncomputable section

open scoped BigOperators

namespace Cert.RefRow

open Idealize.ShloMosaic Idealize.ShloMosaic.ValueIdx Cert.ReferenceIdeal

variable (x0 : MambaRow.A2 8192 512) (x1 : MambaRow.A3 8192 512 16) (x2 x3 : MambaRow.A1 512)
  (x4 : MambaRow.A2 512 512) (x5 : MambaRow.A1 512) (x6 : MambaRow.A2 512 512) (x7 : MambaRow.A1 512)
  (x8 : MambaRow.A2 512 512) (x9 : MambaRow.A1 512) (x10 : MambaRow.A3 512 1 3) (x11 : MambaRow.A2 512 16)
  (x12 : MambaRow.A2 16 512) (x13 : MambaRow.A1 16) (x14 : MambaRow.A2 16 512) (x15 : MambaRow.A1 16)
  (x16 : MambaRow.A2 512 512) (x17 : MambaRow.A1 512)

/-- The weights, as the row formulas take them, read off the reference's arguments. -/
local notation "P" => MambaRow.rparams x2 x3 x4 x5 x6 x7 x8 x9 x10 x11 x12 x13 x14 x15 x16 x17
/-- Row r of the input. -/
local notation "xr" => MambaRow.xrow x0

/-- The mean column at (r, 0): the sum of row r onto the zero word, over 512. -/
theorem mean_row (r : Fin 8192) :
    Read.val_main_v3 (F := Ideal) x0 (ix2 r (0 : Fin 1)) = MambaRow.mean (xr r) := by
  have e1 : Read.idx_main_v1 (ix2 r (0 : Fin 1)) = ix1 r := by refrow_idx1
  have e0 : ∀ k : Fin 512, Read.idx_main_v0 (ix1 r) k = ix2 r k := fun k => by refrow_idx2
  rw [Read.val_main_v3_apply, Read.val_main_v1_apply, e1, Read.val_main_v0_apply, Read.val_main_v2_apply,
    Read.val_main_cst_0_apply, Read.val_main_cst_apply]
  simp only [e0, Ideal.ofBits_def, Ideal.ofBits_zero_f32, zero_add]
  rfl

/-- The centred input at (r, j) (the reference computes it twice: once for the variance, once for the result). -/
theorem cen_row (r : Fin 8192) (j : Fin 512) :
    Read.val_main_v5 (F := Ideal) x0 (ix2 r j) = MambaRow.cen (xr r) j := by
  have e4 : Read.idx_main_v4 (ix2 r j) = ix2 r (0 : Fin 1) := by refrow_idx2
  rw [Read.val_main_v5_apply, Read.val_main_v4_apply, e4, mean_row]
  rfl

theorem cen_row' (r : Fin 8192) (j : Fin 512) :
    Read.val_main_v12 (F := Ideal) x0 (ix2 r j) = MambaRow.cen (xr r) j := by
  have e11 : Read.idx_main_v11 (ix2 r j) = ix2 r (0 : Fin 1) := by refrow_idx2
  rw [Read.val_main_v12_apply, Read.val_main_v11_apply, e11, mean_row]
  rfl

/-- The variance column at (r, 0): the sum of the squared centred entries of row r onto the zero word, over 512. -/
theorem var_row (r : Fin 8192) :
    Read.val_main_v10 (F := Ideal) x0 (ix2 r (0 : Fin 1)) = MambaRow.var (xr r) := by
  have e8 : Read.idx_main_v8 (ix2 r (0 : Fin 1)) = ix1 r := by refrow_idx1
  have e7 : ∀ k : Fin 512, Read.idx_main_v7 (ix1 r) k = ix2 r k := fun k => by refrow_idx2
  rw [Read.val_main_v10_apply, Read.val_main_v8_apply, e8, Read.val_main_v7_apply, Read.val_main_v9_apply,
    Read.val_main_cst_2_apply, Read.val_main_cst_1_apply]
  simp only [e7, Read.val_main_v6_apply, cen_row, Ideal.ofBits_def, Ideal.ofBits_zero_f32, zero_add]
  rfl

/-- The reciprocal square root of the shifted variance, at (r, 0). -/
theorem rstd_row (r : Fin 8192) :
    Read.val_main_v15 (F := Ideal) x0 (ix2 r (0 : Fin 1))
      = Ideal.rsqrt (MambaRow.var (xr r) + MambaRow.ceps) := by
  rw [Read.val_main_v15_apply, Read.val_main_v14_apply, var_row, Read.val_main_v13_apply, Read.val_main_cst_3_apply]
  rfl

/-- The normalised input at (r, j) is the row formula's normalised entry j of row r. -/
theorem xn_row (r : Fin 8192) (j : Fin 512) :
    Read.val_main_v23 (F := Ideal) x0 x2 x3 (ix2 r j) = MambaRow.xn P (xr r) j := by
  have e16 : Read.idx_main_v16 (ix2 r j) = ix2 r (0 : Fin 1) := by refrow_idx2
  have e19 : Read.idx_main_v18 (Read.idx_main_v19 (ix2 r j)) = ix1 j := by refrow_idx1
  have e22 : Read.idx_main_v21 (Read.idx_main_v22 (ix2 r j)) = ix1 j := by refrow_idx1
  rw [Read.val_main_v23_apply, Read.val_main_v20_apply, Read.val_main_v17_apply, cen_row', Read.val_main_v16_apply, e16,
    rstd_row, Read.val_main_v19_apply, Read.val_main_v18_apply, e19, Read.val_main_v22_apply, Read.val_main_v21_apply, e22]
  rfl

end Cert.RefRow

end
-- ==== Proof.RefRowConv.lean ====
/-
  The reference's first dense layer and its gate, one row at a time.

  The reference contracts the normalised input with the transposed first weight, adds the bias spread over the rows,
  multiplies entry by entry with the centre tap of the three-tap filter (entry (j, 0, 1) of the [512, 1, 3] array, sliced
  out, flattened to a 512-vector and spread over the rows), and applies y · (1 / (1 + exp (−y))). Read at entry (r, j)
  the contraction is the sum over k of the normalised row's entry k against weight (j, k), so the result is the row
  formula's gated first layer.
-/
import proofs.«137921_j80187039416644_2_alg».proof.Proof.RefRowNorm

noncomputable section

open scoped BigOperators

namespace Cert.RefRow

open Idealize.ShloMosaic Idealize.ShloMosaic.ValueIdx Cert.ReferenceIdeal

variable (x0 : MambaRow.A2 8192 512) (x1 : MambaRow.A3 8192 512 16) (x2 x3 : MambaRow.A1 512)
  (x4 : MambaRow.A2 512 512) (x5 : MambaRow.A1 512) (x6 : MambaRow.A2 512 512) (x7 : MambaRow.A1 512)
  (x8 : MambaRow.A2 512 512) (x9 : MambaRow.A1 512) (x10 : MambaRow.A3 512 1 3) (x11 : MambaRow.A2 512 16)
  (x12 : MambaRow.A2 16 512) (x13 : MambaRow.A1 16) (x14 : MambaRow.A2 16 512) (x15 : MambaRow.A1 16)
  (x16 : MambaRow.A2 512 512) (x17 : MambaRow.A1 512)

/-- The weights, as the row formulas take them, read off the reference's arguments. -/
local notation "P" => MambaRow.rparams x2 x3 x4 x5 x6 x7 x8 x9 x10 x11 x12 x13 x14 x15 x16 x17
/-- Row r of the input. -/
local notation "xr" => MambaRow.xrow x0

/-- The first dense layer times the centre tap, at (r, j). -/
theorem pre_conv_row (r : Fin 8192) (j : Fin 512) :
    Read.val_main_v33 (F := Ideal) x0 x2 x3 x4 x5 x10 (ix2 r j)
      = MambaRow.lin (MambaRow.xn P (xr r)) (MambaRow.Params.w1T P) (MambaRow.Params.b1 P) j
          * MambaRow.Params.cw P j := by
  have el : ∀ k : Fin 512, Read.lidx_main_v25 (ix2 r j) k = ix2 r k := fun k => by refrow_idx2
  have er : ∀ k : Fin 512, Read.idx_main_v24 (Read.ridx_main_v25 (ix2 r j) k) = ix2 j k := fun k => by refrow_idx2
  have e27 : Read.idx_main_v26 (Read.idx_main_v27 (ix2 r j)) = ix1 j := by refrow_idx1
  have e32 : Read.idx_main_v29 (Read.idx_main_v30 (Read.idx_main_v31 (Read.idx_main_v32 (ix2 r j))))
      = ix3 j (0 : Fin 1) (1 : Fin 3) :=
    funext fun a => Fin.ext (by match a with | ⟨0, _⟩ => exact Nat.div_one _ | ⟨1, _⟩ => rfl | ⟨2, _⟩ => rfl)
  rw [Read.val_main_v33_apply, Read.val_main_v28_apply, Read.val_main_v25_apply, Read.val_main_v27_apply,
    Read.val_main_v26_apply, e27, Read.val_main_v32_apply, Read.val_main_v31_apply, Read.val_main_v30_apply,
    Read.val_main_v29_apply, e32]
  simp only [el, Read.val_main_v24_apply, er, xn_row x0 x2 x3 x4 x5 x6 x7 x8 x9 x10 x11 x12 x13 x14 x15 x16 x17]
  rfl

/-- The gated first layer at (r, j). -/
theorem conv_row (r : Fin 8192) (j : Fin 512) :
    Read.val_main_v34 (F := Ideal) x0 x2 x3 x4 x5 x10 (ix2 r j) = MambaRow.conv P (xr r) j := by
  simp only [Read.val_main_v34_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply]
  rw [silu_spelled, pre_conv_row x0 x2 x3 x4 x5 x6 x7 x8 x9 x10 x11 x12 x13 x14 x15 x16 x17]
  rfl

end Cert.RefRow

end
-- ==== Proof.RefRowProj.lean ====
/-
  The reference's three projections of the gated first layer and its decay table, one row at a time.

  From the gated first layer the reference takes a 512-wide dense layer followed by log (1 + e^y) in its overflow-safe
  spelling (the step sizes), and two 16-wide dense layers (the input and read-out coefficients); each contracts with a
  transposed weight and adds a bias spread over the rows. The decay table is −exp of the [512, 16] argument, the same for
  every row. Read at an entry each is the row formula's stage.
-/
import proofs.«137921_j80187039416644_2_alg».proof.Proof.RefRowConv

noncomputable section

open scoped BigOperators

namespace Cert.RefRow

open Idealize.ShloMosaic Idealize.ShloMosaic.ValueIdx Cert.ReferenceIdeal

variable (x0 : MambaRow.A2 8192 512) (x1 : MambaRow.A3 8192 512 16) (x2 x3 : MambaRow.A1 512)
  (x4 : MambaRow.A2 512 512) (x5 : MambaRow.A1 512) (x6 : MambaRow.A2 512 512) (x7 : MambaRow.A1 512)
  (x8 : MambaRow.A2 512 512) (x9 : MambaRow.A1 512) (x10 : MambaRow.A3 512 1 3) (x11 : MambaRow.A2 512 16)
  (x12 : MambaRow.A2 16 512) (x13 : MambaRow.A1 16) (x14 : MambaRow.A2 16 512) (x15 : MambaRow.A1 16)
  (x16 : MambaRow.A2 512 512) (x17 : MambaRow.A1 512)

/-- The weights, as the row formulas take them, read off the reference's arguments. -/
local notation "P" => MambaRow.rparams x2 x3 x4 x5 x6 x7 x8 x9 x10 x11 x12 x13 x14 x15 x16 x17
/-- Row r of the input. -/
local notation "xr" => MambaRow.xrow x0

/-- The step-size layer before its log (1 + e^y), at (r, j). -/
theorem pre_delta_row (r : Fin 8192) (j : Fin 512) :
    Read.val_main_v41 (F := Ideal) x0 x2 x3 x4 x5 x10 x16 x17 (ix2 r j)
      = MambaRow.lin (MambaRow.conv P (xr r)) (MambaRow.Params.dtT P) (MambaRow.Params.dtb P) j := by
  have el : ∀ k : Fin 512, Read.lidx_main_v38 (ix2 r j) k = ix2 r k := fun k => by refrow_idx2
  have er : ∀ k : Fin 512, Read.idx_main_v37 (Read.ridx_main_v38 (ix2 r j) k) = ix2 j k := fun k => by refrow_idx2
  have e40 : Read.idx_main_v39 (Read.idx_main_v40 (ix2 r j)) = ix1 j := by refrow_idx1
  rw [Read.val_main_v41_apply, Read.val_main_v38_apply, Read.val_main_v40_apply, Read.val_main_v39_apply, e40]
  simp only [el, Read.val_main_v37_apply, er, conv_row x0 x2 x3 x4 x5 x6 x7 x8 x9 x10 x11 x12 x13 x14 x15 x16 x17]
  rfl

/-- The step sizes at (r, j). -/
theorem delta_row (r : Fin 8192) (j : Fin 512) :
    Read.val_main_v42 (F := Ideal) x0 x2 x3 x4 x5 x10 x16 x17 (ix2 r j) = MambaRow.delta P (xr r) j := by
  simp only [Read.val_main_v42_apply, Read.val_main_call1_v4_apply, Read.val_main_call1_v3_apply,
    Read.val_main_call1_v2_apply, Read.val_main_call1_v6_apply, Read.val_main_call1_v5_apply,
    Read.val_main_call1_v11_apply, Read.val_main_call1_v1_apply, Read.val_main_call1_v0_apply,
    Read.val_main_call1_v10_apply, Read.val_main_call1_v9_apply, Read.val_main_call1_v8_apply,
    Read.val_main_call1_v7_apply, Read.val_main_call1_cst_apply]
  rw [softplus_spelled, pre_delta_row x0 x2 x3 x4 x5 x6 x7 x8 x9 x10 x11 x12 x13 x14 x15 x16 x17]
  rfl

/-- The input coefficients at (r, s). -/
theorem bm_row (r : Fin 8192) (s : Fin 16) :
    Read.val_main_v47 (F := Ideal) x0 x2 x3 x4 x5 x10 x12 x13 (ix2 r s) = MambaRow.bm P (xr r) s := by
  have el : ∀ k : Fin 512, Read.lidx_main_v44 (ix2 r s) k = ix2 r k := fun k => by refrow_idx2
  have er : ∀ k : Fin 512, Read.idx_main_v43 (Read.ridx_main_v44 (ix2 r s) k) = ix2 s k := fun k => by refrow_idx2
  have e46 : Read.idx_main_v45 (Read.idx_main_v46 (ix2 r s)) = ix1 s := by refrow_idx1
  rw [Read.val_main_v47_apply, Read.val_main_v44_apply, Read.val_main_v46_apply, Read.val_main_v45_apply, e46]
  simp only [el, Read.val_main_v43_apply, er, conv_row x0 x2 x3 x4 x5 x6 x7 x8 x9 x10 x11 x12 x13 x14 x15 x16 x17]
  rfl

/-- The read-out coefficients at (r, s). -/
theorem cm_row (r : Fin 8192) (s : Fin 16) :
    Read.val_main_v52 (F := Ideal) x0 x2 x3 x4 x5 x10 x14 x15 (ix2 r s) = MambaRow.cm P (xr r) s := by
  have el : ∀ k : Fin 512, Read.lidx_main_v49 (ix2 r s) k = ix2 r k := fun k => by refrow_idx2
  have er : ∀ k : Fin 512, Read.idx_main_v48 (Read.ridx_main_v49 (ix2 r s) k) = ix2 s k := fun k => by refrow_idx2
  have e51 : Read.idx_main_v50 (Read.idx_main_v51 (ix2 r s)) = ix1 s := by refrow_idx1
  rw [Read.val_main_v52_apply, Read.val_main_v49_apply, Read.val_main_v51_apply, Read.val_main_v50_apply, e51]
  simp only [el, Read.val_main_v48_apply, er, conv_row x0 x2 x3 x4 x5 x6 x7 x8 x9 x10 x11 x12 x13 x14 x15 x16 x17]
  rfl

/-- The decay table at (j, s). -/
theorem aneg_row (j : Fin 512) (s : Fin 16) :
    Read.val_main_v36 (F := Ideal) x11 (ix2 j s) = MambaRow.aneg P j s := by
  rw [Read.val_main_v36_apply, Read.val_main_v35_apply, aneg_spelled]
  rfl

end Cert.RefRow

end
-- ==== Proof.RefRowState.lean ====
/-
  The reference's one-step recurrence and its read-out, one row at a time.

  The reference spreads the step sizes along a new last axis, the decay table along a new first axis, the two 16-wide
  coefficient rows along a new middle axis and the gated first layer along a new last axis, all to [8192, 512, 16], and
  computes  state · exp (step · decay) + (step · coefficient) · layer  entry by entry; the read-out multiplies by the
  second coefficient row and sums the last axis onto the zero word. Read at entry (r, j, s) every spread array gives
  back the entry it was spread from — the step size and the layer at (r, j), the decay at (j, s), a coefficient at
  (r, s) — so the new state is the row formula's slot s at entry j, and the read-out its sum over the sixteen slots.
-/
import proofs.«137921_j80187039416644_2_alg».proof.Proof.RefRowProj

noncomputable section

open scoped BigOperators

namespace Cert.RefRow

open Idealize.ShloMosaic Idealize.ShloMosaic.ValueIdx Cert.ReferenceIdeal

variable (x0 : MambaRow.A2 8192 512) (x1 : MambaRow.A3 8192 512 16) (x2 x3 : MambaRow.A1 512)
  (x4 : MambaRow.A2 512 512) (x5 : MambaRow.A1 512) (x6 : MambaRow.A2 512 512) (x7 : MambaRow.A1 512)
  (x8 : MambaRow.A2 512 512) (x9 : MambaRow.A1 512) (x10 : MambaRow.A3 512 1 3) (x11 : MambaRow.A2 512 16)
  (x12 : MambaRow.A2 16 512) (x13 : MambaRow.A1 16) (x14 : MambaRow.A2 16 512) (x15 : MambaRow.A1 16)
  (x16 : MambaRow.A2 512 512) (x17 : MambaRow.A1 512)

/-- The weights, as the row formulas take them, read off the reference's arguments. -/
local notation "P" => MambaRow.rparams x2 x3 x4 x5 x6 x7 x8 x9 x10 x11 x12 x13 x14 x15 x16 x17
/-- Row r of the input. -/
local notation "xr" => MambaRow.xrow x0

/-- Row r of the carried state, slot first. -/
local notation "st" => MambaRow.strowR x1

/-- The new state at (r, j, s) is the row formula's slot s at entry j of row r. -/
theorem ns_row (r : Fin 8192) (j : Fin 512) (s : Fin 16) :
    Read.val_main_v68 (F := Ideal) x0 x1 x2 x3 x4 x5 x10 x11 x12 x13 x16 x17 (ix3 r j s)
      = MambaRow.ns P (xr r) (st r) s j := by
  have e55 : Read.idx_main_v53 (Read.idx_main_v55 (ix3 r j s)) = ix2 r j := by refrow_idx2
  have e56 : Read.idx_main_v54 (Read.idx_main_v56 (ix3 r j s)) = ix2 j s := by refrow_idx2
  have e62 : Read.idx_main_v60 (Read.idx_main_v62 (ix3 r j s)) = ix2 r j := by refrow_idx2
  have e63 : Read.idx_main_v61 (Read.idx_main_v63 (ix3 r j s)) = ix2 r s := by refrow_idx2
  have e66 : Read.idx_main_v65 (Read.idx_main_v66 (ix3 r j s)) = ix2 r j := by refrow_idx2
  rw [Read.val_main_v68_apply, Read.val_main_v59_apply, Read.val_main_v58_apply, Read.val_main_v57_apply,
    Read.val_main_v55_apply, Read.val_main_v53_apply, e55, Read.val_main_v56_apply, Read.val_main_v54_apply, e56,
    Read.val_main_v67_apply, Read.val_main_v64_apply, Read.val_main_v62_apply, Read.val_main_v60_apply, e62,
    Read.val_main_v63_apply, Read.val_main_v61_apply, e63, Read.val_main_v66_apply, Read.val_main_v65_apply, e66,
    delta_row x0 x2 x3 x4 x5 x6 x7 x8 x9 x10 x11 x12 x13 x14 x15 x16 x17, aneg_row x2 x3 x4 x5 x6 x7 x8 x9 x10 x11 x12 x13 x14 x15 x16 x17, bm_row x0 x2 x3 x4 x5 x6 x7 x8 x9 x10 x11 x12 x13 x14 x15 x16 x17, conv_row x0 x2 x3 x4 x5 x6 x7 x8 x9 x10 x11 x12 x13 x14 x15 x16 x17]
  rfl

/-- The read-out at (r, j): the sum over the sixteen slots of the new state against the read-out coefficients. -/
theorem xssm_row (r : Fin 8192) (j : Fin 512) :
    Read.val_main_v72 (F := Ideal) x0 x1 x2 x3 x4 x5 x10 x11 x12 x13 x14 x15 x16 x17 (ix2 r j)
      = MambaRow.xssm P (xr r) (st r) j := by
  have e72 : ∀ s : Fin 16, Read.idx_main_v72 (ix2 r j) s = ix3 r j s := fun s => by refrow_idx3
  have e70 : ∀ s : Fin 16, Read.idx_main_v69 (Read.idx_main_v70 (ix3 r j s)) = ix2 r s := fun s => by refrow_idx2
  rw [Read.val_main_v72_apply, Read.val_main_cst_4_apply]
  simp only [e72, Read.val_main_v71_apply, ns_row x0 x1 x2 x3 x4 x5 x6 x7 x8 x9 x10 x11 x12 x13 x14 x15 x16 x17, Read.val_main_v70_apply, Read.val_main_v69_apply, e70,
    cm_row x0 x2 x3 x4 x5 x6 x7 x8 x9 x10 x11 x12 x13 x14 x15 x16 x17, Ideal.ofBits_def, Ideal.ofBits_zero_f32, zero_add]
  rfl

end Cert.RefRow

end
-- ==== Proof.RefRowOut.lean ====
/-
  The reference's second gate and last dense layer, one row at a time, and with them its two results.

  The second gate is y · (1 / (1 + exp (−y))) of a dense layer of the normalised input; the result is a last dense layer
  of the read-out times that gate. Read at entry (r, j) they are the row formula's gate and output, so the reference's
  first result at (r, j) is the output row of row r at j, and (from the recurrence) its second result at (r, j, s) is
  the new state of row r at slot s, entry j.
-/
import proofs.«137921_j80187039416644_2_alg».proof.Proof.RefRowState

noncomputable section

open scoped BigOperators

namespace Cert.RefRow

open Idealize.ShloMosaic Idealize.ShloMosaic.ValueIdx Cert.ReferenceIdeal

variable (x0 : MambaRow.A2 8192 512) (x1 : MambaRow.A3 8192 512 16) (x2 x3 : MambaRow.A1 512)
  (x4 : MambaRow.A2 512 512) (x5 : MambaRow.A1 512) (x6 : MambaRow.A2 512 512) (x7 : MambaRow.A1 512)
  (x8 : MambaRow.A2 512 512) (x9 : MambaRow.A1 512) (x10 : MambaRow.A3 512 1 3) (x11 : MambaRow.A2 512 16)
  (x12 : MambaRow.A2 16 512) (x13 : MambaRow.A1 16) (x14 : MambaRow.A2 16 512) (x15 : MambaRow.A1 16)
  (x16 : MambaRow.A2 512 512) (x17 : MambaRow.A1 512)

/-- The weights, as the row formulas take them, read off the reference's arguments. -/
local notation "P" => MambaRow.rparams x2 x3 x4 x5 x6 x7 x8 x9 x10 x11 x12 x13 x14 x15 x16 x17
/-- Row r of the input. -/
local notation "xr" => MambaRow.xrow x0

/-- Row r of the carried state, slot first. -/
local notation "st" => MambaRow.strowR x1

/-- The second gate's dense layer at (r, j). -/
theorem pre_gate_row (r : Fin 8192) (j : Fin 512) :
    Read.val_main_v77 (F := Ideal) x0 x2 x3 x6 x7 (ix2 r j)
      = MambaRow.lin (MambaRow.xn P (xr r)) (MambaRow.Params.v1T P) (MambaRow.Params.v1b P) j := by
  have el : ∀ k : Fin 512, Read.lidx_main_v74 (ix2 r j) k = ix2 r k := fun k => by refrow_idx2
  have er : ∀ k : Fin 512, Read.idx_main_v73 (Read.ridx_main_v74 (ix2 r j) k) = ix2 j k := fun k => by refrow_idx2
  have e76 : Read.idx_main_v75 (Read.idx_main_v76 (ix2 r j)) = ix1 j := by refrow_idx1
  rw [Read.val_main_v77_apply, Read.val_main_v74_apply, Read.val_main_v76_apply, Read.val_main_v75_apply, e76]
  simp only [el, Read.val_main_v73_apply, er, xn_row x0 x2 x3 x4 x5 x6 x7 x8 x9 x10 x11 x12 x13 x14 x15 x16 x17]
  rfl

/-- The second gate at (r, j). -/
theorem gate_row (r : Fin 8192) (j : Fin 512) :
    Read.val_main_v78 (F := Ideal) x0 x2 x3 x6 x7 (ix2 r j) = MambaRow.gate P (xr r) j := by
  simp only [Read.val_main_v78_apply, Read.val_main_call2_v5_apply, Read.val_main_call2_v4_apply,
    Read.val_main_call2_cst_0_apply, Read.val_main_call2_v3_apply, Read.val_main_call2_v2_apply,
    Read.val_main_call2_cst_apply, Read.val_main_call2_v1_apply, Read.val_main_call2_v0_apply]
  rw [silu_spelled, pre_gate_row x0 x2 x3 x4 x5 x6 x7 x8 x9 x10 x11 x12 x13 x14 x15 x16 x17]
  rfl

/-- The reference's first result at (r, j) is the row formula's output row of row r at j. -/
theorem ref_out (r : Fin 8192) (j : Fin 512) :
    Read.val_main_v84 (F := Ideal) x0 x1 x2 x3 x4 x5 x6 x7 x8 x9 x10 x11 x12 x13 x14 x15 x16 x17 (ix2 r j)
      = MambaRow.out P (xr r) (st r) j := by
  have el : ∀ k : Fin 512, Read.lidx_main_v81 (ix2 r j) k = ix2 r k := fun k => by refrow_idx2
  have er : ∀ k : Fin 512, Read.idx_main_v80 (Read.ridx_main_v81 (ix2 r j) k) = ix2 j k := fun k => by refrow_idx2
  have e83 : Read.idx_main_v82 (Read.idx_main_v83 (ix2 r j)) = ix1 j := by refrow_idx1
  rw [Read.val_main_v84_apply, Read.val_main_v81_apply, Read.val_main_v83_apply, Read.val_main_v82_apply, e83]
  simp only [el, Read.val_main_v79_apply, xssm_row x0 x1 x2 x3 x4 x5 x6 x7 x8 x9 x10 x11 x12 x13 x14 x15 x16 x17, gate_row x0 x2 x3 x4 x5 x6 x7 x8 x9 x10 x11 x12 x13 x14 x15 x16 x17, Read.val_main_v80_apply, er]
  rfl

/-- The reference's second result at (r, j, s) is the row formula's new state of row r at slot s, entry j. -/
theorem ref_ns (r : Fin 8192) (j : Fin 512) (s : Fin 16) :
    Read.val_main_v68 (F := Ideal) x0 x1 x2 x3 x4 x5 x10 x11 x12 x13 x16 x17 (ix3 r j s)
      = MambaRow.ns P (xr r) (st r) s j :=
  ns_row x0 x1 x2 x3 x4 x5 x6 x7 x8 x9 x10 x11 x12 x13 x14 x15 x16 x17 r j s

/-- The first result as a function of the index. -/
theorem ref_out_fun :
    Read.val_main_v84 (F := Ideal) x0 x1 x2 x3 x4 x5 x6 x7 x8 x9 x10 x11 x12 x13 x14 x15 x16 x17
      = fun i => MambaRow.out P (xr (i 0)) (st (i 0)) (i 1) := by
  funext i
  obtain ⟨r, j, rfl⟩ : ∃ (r : Fin 8192) (j : Fin 512), i = ix2 r j := ⟨i 0, i 1, eq_ix2 i⟩
  exact ref_out x0 x1 x2 x3 x4 x5 x6 x7 x8 x9 x10 x11 x12 x13 x14 x15 x16 x17 r j

/-- The second result as a function of the index. -/
theorem ref_ns_fun :
    Read.val_main_v68 (F := Ideal) x0 x1 x2 x3 x4 x5 x10 x11 x12 x13 x16 x17
      = fun i => MambaRow.ns P (xr (i 0)) (st (i 0)) (i 2) (i 1) := by
  funext i
  obtain ⟨r, j, s, rfl⟩ : ∃ (r : Fin 8192) (j : Fin 512) (s : Fin 16), i = ix3 r j s := ⟨i 0, i 1, i 2, eq_ix3 i⟩
  exact ref_ns x0 x1 x2 x3 x4 x5 x6 x7 x8 x9 x10 x11 x12 x13 x14 x15 x16 x17 r j s

end Cert.RefRow

end
-- ==== Proof.lean ====
/-
  A one-step selective state-space block (layer normalisation, a gated dense layer, a softplus step size, two 16-wide
  projections, the recurrence new = old · exp (δ · a) + (δ · B) · u over 16 slots, the read-out ∑ new · C, a second gate
  and an output projection) computed by one vector program over 256 blocks of 32 rows, against the same block written
  with whole-array operations.

  On the extended reals the two are one function of the eighteen argument arrays. Every row of either result depends on
  the same row of the input and of the carried state and on the whole weights only (Proof/MambaRow.lean states that
  dependence once). The vector program: at each block the body's two buffers hold, row by row, the output row and the
  new state (Proof/KernelBlock.lean, over Proof/KernelStages.lean, KernelSlots.lean, KernelAccum.lean); the blocks tile
  the arrays, the weight arrays it is handed are the arguments transposed (a change of float format is the identity on
  extended reals), the state goes in and comes out with its last two axes exchanged (Proof/KernelWhole*.lean). The
  reference: its operations composed, read at an entry (Proof/RefRow*.lean). The differences of spelling between the two
  — logistic as one operation or as 1 / (1 + e^(−y)); 0 − y or −y; a sum added term by term onto zero or taken at once;
  a matrix transposed before the call or inside the contraction — are identities on the extended reals, infinities
  included: the only law of arithmetic used is that addition is associative and commutative, so the inputs' finiteness
  is never needed. Nothing of the vector program was rewritten when it was idealized, so that conjunct is empty.
-/
import proofs.«137921_j80187039416644_2_alg».proof.Defs
import proofs.«137921_j80187039416644_2_alg».proof.Proof.Gen.Kernel
import proofs.«137921_j80187039416644_2_alg».proof.Proof.Gen.Kernel.Skeleton
import proofs.«137921_j80187039416644_2_alg».proof.Proof.Gen.Kernel.Launch
import proofs.«137921_j80187039416644_2_alg».proof.Proof.Gen.Kernel.Points
import proofs.«137921_j80187039416644_2_alg».proof.Proof.Gen.Kernel.Frame
import proofs.«137921_j80187039416644_2_alg».proof.Proof.Gen.KernelIdeal
import proofs.«137921_j80187039416644_2_alg».proof.Proof.Gen.KernelIdeal.Skeleton
import proofs.«137921_j80187039416644_2_alg».proof.Proof.Gen.KernelIdeal.Launch
import proofs.«137921_j80187039416644_2_alg».proof.Proof.Gen.KernelIdeal.Points
import proofs.«137921_j80187039416644_2_alg».proof.Proof.Gen.KernelIdeal.Frame
import proofs.«137921_j80187039416644_2_alg».proof.Proof.Gen.ReferenceIdeal
import proofs.«137921_j80187039416644_2_alg».proof.Proof.Gen.ReferenceIdeal.Run
import proofs.«137921_j80187039416644_2_alg».proof.Proof.Gen.ReferenceIdeal.Read
import proofs.«137921_j80187039416644_2_alg».proof.Proof.Gen.Pre_finite_inputs
import proofs.«137921_j80187039416644_2_alg».proof.Proof.KernelBlock
import proofs.«137921_j80187039416644_2_alg».proof.Proof.KernelWholeRun
import proofs.«137921_j80187039416644_2_alg».proof.Proof.RefRowOut
import Idealize.ShloMosaic.Adequacy
import Idealize.ShloMosaic.Init

noncomputable section

namespace Cert.Proof

open Idealize.ShloMosaic Idealize.SL.Sem

/-- One block's first buffer is, row by row, the output row. -/
theorem blockOut : Cert.KernelWhole.BlockOut :=
  fun x0 x1 x2 x3 x4 x5 x6 x7 x8 x9 x10 x11 x12 x13 x14 x15 x16 x17 p j =>
    Cert.KBlock.block_out x0 x1 x2 x3 x4 x5 x6 x7 x8 x9 x10 x11 x12 x13 x14 x15 x16 x17 p j

/-- One block's second buffer is, entry by entry, the new state. -/
theorem blockState : Cert.KernelWhole.BlockState :=
  fun x0 x1 x2 x3 x4 x5 x6 x7 x8 x9 x10 x11 x12 x13 x14 x15 x16 x17 p s j =>
    Cert.KBlock.block_state x0 x1 x2 x3 x4 x5 x6 x7 x8 x9 x10 x11 x12 x13 x14 x15 x16 x17 p j s

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the two whole-array functions of the arguments: the vector program by the road from blocks to
    arrays, the reference by its operations read at an entry; the arguments agree. -/
theorem algebraic : Cert.algebraic_KernelIdeal_ReferenceIdeal := by
  intro m ρ m' ρ' _ hagree
  refine ⟨_, _, Cert.KernelWhole.kernel_run blockOut blockState m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17⟩ := hagree c
    rw [Cert.ReferenceIdeal.Read.val_main_v84_eq, h0, h1, h2, h3, h4, h5, h6, h7, h8, h9, h10, h11, h12, h13, h14, h15, h16, h17]
    exact Cert.RefRow.ref_out_fun _ _ _ _ _ _ _ _ _ _ _ _ _ _ _ _ _ _
  · obtain ⟨h0, h1, h2, h3, h4, h5, h6, h7, h8, h9, h10, h11, h12, h13, h14, h15, h16, h17⟩ := hagree c
    rw [Cert.ReferenceIdeal.Read.val_main_v68_eq, h0, h1, h2, h3, h4, h5, h10, h11, h12, h13, h16, h17]
    exact Cert.RefRow.ref_ns_fun _ _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
